-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v569) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x512x512 : Shape := ⟨4, ![8, 3, 512, 512]⟩
abbrev S_ : Shape := ⟨0, ![]⟩

class Facts : Prop where
  bcast_S_S8x3x512x512 : S_.BroadcastsInDim S8x3x512x512 (![] : Fin 0 → Fin S8x3x512x512.rank)
  reducesTo_S8x3x512x512_S_d0_1_2_3 : S8x3x512x512.ReducesTo [0, 1, 2, 3] S_
  h_S_ : 0 < S_.numel

variable [Facts]

def fn {F : FTy → Type} [FloatOps F] (main_arg0 : FVec F S8x3x512x512 .f32) (main_arg1 : FVec F S8x3x512x512 .f32) : IVec S_ 1 :=
  let main_v0 : FVec F S8x3x512x512 .f32 := Host.absf main_arg0
  let main_cst : FVec F S_ .f32 := constant S_ .f32 0x7F800000#32
  let main_v1 : FVec F S8x3x512x512 .f32 := broadcastInDim S8x3x512x512 ![] bcast_S_S8x3x512x512 main_cst
  let main_v2 : IVec S8x3x512x512 1 := cmpf .olt main_v0 main_v1
  let main_c : IVec S_ 1 := constantI S_ 1 1#1
  let main_v3 : IVec S_ 1 := (fun x v => Host.reduce IntOp.andi x v reducesTo_S8x3x512x512_S_d0_1_2_3 h_S_) main_v2 main_c
  let main_v4 : FVec F S8x3x512x512 .f32 := Host.absf main_arg1
  let main_cst_0 : FVec F S_ .f32 := constant S_ .f32 0x7F800000#32
  let main_v5 : FVec F S8x3x512x512 .f32 := broadcastInDim S8x3x512x512 ![] bcast_S_S8x3x512x512 main_cst_0
  let main_v6 : IVec S8x3x512x512 1 := cmpf .olt main_v4 main_v5
  let main_c_1 : IVec S_ 1 := constantI S_ 1 1#1
  let main_v7 : IVec S_ 1 := (fun x v => Host.reduce IntOp.andi x v reducesTo_S8x3x512x512_S_d0_1_2_3 h_S_) main_v6 main_c_1
  let main_v8 : IVec S_ 1 := andi main_v3 main_v7
  main_v8
-- ==== Kernel.lean ====
abbrev S8x3x512x512 : Shape := ⟨4, ![8, 3, 512, 512]⟩
abbrev S8x1x128 : Shape := ⟨3, ![8, 1, 128]⟩
abbrev S1x3x512x512 : Shape := ⟨4, ![1, 3, 512, 512]⟩
abbrev S1x1x128 : Shape := ⟨3, ![1, 1, 128]⟩
abbrev S3x512x512 : Shape := ⟨3, ![3, 512, 512]⟩
abbrev S1x512x512 : Shape := ⟨3, ![1, 512, 512]⟩
abbrev S512x512 : Shape := ⟨2, ![512, 512]⟩
abbrev S512x1 : Shape := ⟨2, ![512, 1]⟩
abbrev S512 : Shape := ⟨1, ![512]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S8x3x512x512, .f32⟩
  | .hbm, ⟨1, _⟩ => ⟨S8x3x512x512, .f32⟩
  | .hbm, ⟨2, _⟩ => ⟨S8x1x128, .f32⟩
  | .hbm, ⟨3, _⟩ => ⟨S8x1x1, .f32⟩
  | .hbm, ⟨4, _⟩ => ⟨S8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x1x128, .f32⟩
  | .local _ .vmem, ⟨5, _⟩ => ⟨S1x1x128, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  slices_S3x512x512_o0_0_0_S1x512x512 : S3x512x512.Slices ![0, 0, 0] S1x512x512
  shapeCasts_S1x512x512_S512x512 : S1x512x512.ShapeCasts S512x512
  slices_S3x512x512_o1_0_0_S1x512x512 : S3x512x512.Slices ![1, 0, 0] S1x512x512
  slices_S3x512x512_o2_0_0_S1x512x512 : S3x512x512.Slices ![2, 0, 0] S1x512x512
  iota_S512x512_d0_w32 : S512x512.Iotas .tc 32 [0]
  iota_S512x512_d1_w32 : S512x512.Iotas .tc 32 [1]
  rotates_S512x512_d0 : S512x512.Rotates 0 none
  rotates_S512x512_d1 : S512x512.Rotates 1 none
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S8x3x512x512.size a
  hwx0_0 : ∀ i : grid0.Coords, EltTy.bits .f32 = 32 ∨ (Rect.block (s := S8x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S8x3x512x512.size a
  hwx0_1 : ∀ i : grid0.Coords, EltTy.bits .f32 = 32 ∨ (Rect.block (s := S8x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x3x512x512 : Shape := ⟨4, ![8, 3, 512, 512]⟩
abbrev S8x1x512x512 : Shape := ⟨4, ![8, 1, 512, 512]⟩
abbrev S8x512x512 : Shape := ⟨3, ![8, 512, 512]⟩
abbrev S_ : Shape := ⟨0, ![]⟩
abbrev S8x518x518 : Shape := ⟨3, ![8, 518, 518]⟩

abbrev nBuf : Space → Nat
  | .hbm => 976
  | .vmem => 0
  | .smem => 0
  | _ => 0

abbrev hbmTy0_0 (i : Nat) : BufTy := match i % 128 with
  | 0 => ⟨S8x3x512x512, .f32⟩
  | 1 => ⟨S8x3x512x512, .f32⟩
  | 2 => ⟨S8x1x512x512, .f32⟩
  | 3 => ⟨S8x512x512, .f32⟩
  | 4 => ⟨S_, .f32⟩
  | 5 => ⟨S8x512x512, .f32⟩
  | 6 => ⟨S8x512x512, .f32⟩
  | 7 => ⟨S8x1x512x512, .f32⟩
  | 8 => ⟨S8x512x512, .f32⟩
  | 9 => ⟨S_, .f32⟩
  | 10 => ⟨S8x512x512, .f32⟩
  | 11 => ⟨S8x512x512, .f32⟩
  | 12 => ⟨S8x512x512, .f32⟩
  | 13 => ⟨S8x1x512x512, .f32⟩
  | 14 => ⟨S8x512x512, .f32⟩
  | 15 => ⟨S_, .f32⟩
  | 16 => ⟨S8x512x512, .f32⟩
  | 17 => ⟨S8x512x512, .f32⟩
  | 18 => ⟨S8x512x512, .f32⟩
  | 19 => ⟨S8x1x512x512, .f32⟩
  | 20 => ⟨S8x512x512, .f32⟩
  | 21 => ⟨S_, .f32⟩
  | 22 => ⟨S8x512x512, .f32⟩
  | 23 => ⟨S8x512x512, .f32⟩
  | 24 => ⟨S8x1x512x512, .f32⟩
  | 25 => ⟨S8x512x512, .f32⟩
  | 26 => ⟨S_, .f32⟩
  | 27 => ⟨S8x512x512, .f32⟩
  | 28 => ⟨S8x512x512, .f32⟩
  | 29 => ⟨S8x512x512, .f32⟩
  | 30 => ⟨S8x1x512x512, .f32⟩
  | 31 => ⟨S8x512x512, .f32⟩
  | 32 => ⟨S_, .f32⟩
  | 33 => ⟨S8x512x512, .f32⟩
  | 34 => ⟨S8x512x512, .f32⟩
  | 35 => ⟨S8x512x512, .f32⟩
  | 36 => ⟨S_, .i32⟩
  | 37 => ⟨S_, .f32⟩
  | 38 => ⟨S8x518x518, .f32⟩
  | 39 => ⟨S_, .i32⟩
  | 40 => ⟨S_, .f32⟩
  | 41 => ⟨S8x518x518, .f32⟩
  | 42 => ⟨S_, .i32⟩
  | 43 => ⟨S_, .i32⟩
  | 44 => ⟨S_, .i32⟩
  | 45 => ⟨S8x512x512, .f32⟩
  | 46 => ⟨S_, .i32⟩
  | 47 => ⟨S_, .i32⟩
  | 48 => ⟨S_, .i32⟩
  | 49 => ⟨S8x512x512, .f32⟩
  | 50 => ⟨S8x512x512, .f32⟩
  | 51 => ⟨S8x512x512, .f32⟩
  | 52 => ⟨S8x512x512, .f32⟩
  | 53 => ⟨S8x512x512, .f32⟩
  | 54 => ⟨S_, .f32⟩
  | 55 => ⟨S8x512x512, .f32⟩
  | 56 => ⟨S8x512x512, .f32⟩
  | 57 => ⟨S8x512x512, .f32⟩
  | 58 => ⟨S_, .f32⟩
  | 59 => ⟨S_, .f32⟩
  | 60 => ⟨S_, .f32⟩
  | 61 => ⟨S_, .f32⟩
  | 62 => ⟨S_, .i32⟩
  | 63 => ⟨S_, .i32⟩
  | 64 => ⟨S_, .i32⟩
  | 65 => ⟨S8x512x512, .f32⟩
  | 66 => ⟨S_, .i32⟩
  | 67 => ⟨S_, .i32⟩
  | 68 => ⟨S_, .i32⟩
  | 69 => ⟨S8x512x512, .f32⟩
  | 70 => ⟨S8x512x512, .f32⟩
  | 71 => ⟨S8x512x512, .f32⟩
  | 72 => ⟨S8x512x512, .f32⟩
  | 73 => ⟨S8x512x512, .f32⟩
  | 74 => ⟨S_, .f32⟩
  | 75 => ⟨S8x512x512, .f32⟩
  | 76 => ⟨S8x512x512, .f32⟩
  | 77 => ⟨S8x512x512, .f32⟩
  | 78 => ⟨S_, .f32⟩
  | 79 => ⟨S_, .f32⟩
  | 80 => ⟨S_, .f32⟩
  | 81 => ⟨S_, .i32⟩
  | 82 => ⟨S_, .i32⟩
  | 83 => ⟨S_, .i32⟩
  | 84 => ⟨S8x512x512, .f32⟩
  | 85 => ⟨S_, .i32⟩
  | 86 => ⟨S_, .i32⟩
  | 87 => ⟨S_, .i32⟩
  | 88 => ⟨S8x512x512, .f32⟩
  | 89 => ⟨S8x512x512, .f32⟩
  | 90 => ⟨S8x512x512, .f32⟩
  | 91 => ⟨S8x512x512, .f32⟩
  | 92 => ⟨S8x512x512, .f32⟩
  | 93 => ⟨S_, .f32⟩
  | 94 => ⟨S8x512x512, .f32⟩
  | 95 => ⟨S8x512x512, .f32⟩
  | 96 => ⟨S8x512x512, .f32⟩
  | 97 => ⟨S_, .f32⟩
  | 98 => ⟨S_, .f32⟩
  | 99 => ⟨S_, .f32⟩
  | 100 => ⟨S_, .i32⟩
  | 101 => ⟨S_, .i32⟩
  | 102 => ⟨S_, .i32⟩
  | 103 => ⟨S8x512x512, .f32⟩
  | 104 => ⟨S_, .i32⟩
  | 105 => ⟨S_, .i32⟩
  | 106 => ⟨S_, .i32⟩
  | 107 => ⟨S8x512x512, .f32⟩
  | 108 => ⟨S8x512x512, .f32⟩
  | 109 => ⟨S8x512x512, .f32⟩
  | 110 => ⟨S8x512x512, .f32⟩
  | 111 => ⟨S8x512x512, .f32⟩
  | 112 => ⟨S_, .f32⟩
  | 113 => ⟨S8x512x512, .f32⟩
  | 114 => ⟨S8x512x512, .f32⟩
  | 115 => ⟨S8x512x512, .f32⟩
  | 116 => ⟨S_, .f32⟩
  | 117 => ⟨S_, .f32⟩
  | 118 => ⟨S_, .f32⟩
  | 119 => ⟨S_, .i32⟩
  | 120 => ⟨S_, .i32⟩
  | 121 => ⟨S_, .i32⟩
  | 122 => ⟨S8x512x512, .f32⟩
  | 123 => ⟨S_, .i32⟩
  | 124 => ⟨S_, .i32⟩
  | 125 => ⟨S_, .i32⟩
  | 126 => ⟨S8x512x512, .f32⟩
  | 127 => ⟨S8x512x512, .f32⟩
  | _ => ⟨S8x3x512x512, .f32⟩

abbrev hbmTy0_1 (i : Nat) : BufTy := match i % 128 with
  | 0 => ⟨S8x512x512, .f32⟩
  | 1 => ⟨S8x512x512, .f32⟩
  | 2 => ⟨S8x512x512, .f32⟩
  | 3 => ⟨S_, .f32⟩
  | 4 => ⟨S8x512x512, .f32⟩
  | 5 => ⟨S8x512x512, .f32⟩
  | 6 => ⟨S8x512x512, .f32⟩
  | 7 => ⟨S_, .f32⟩
  | 8 => ⟨S_, .f32⟩
  | 9 => ⟨S_, .f32⟩
  | 10 => ⟨S_, .i32⟩
  | 11 => ⟨S_, .i32⟩
  | 12 => ⟨S_, .i32⟩
  | 13 => ⟨S8x512x512, .f32⟩
  | 14 => ⟨S_, .i32⟩
  | 15 => ⟨S_, .i32⟩
  | 16 => ⟨S_, .i32⟩
  | 17 => ⟨S8x512x512, .f32⟩
  | 18 => ⟨S8x512x512, .f32⟩
  | 19 => ⟨S8x512x512, .f32⟩
  | 20 => ⟨S8x512x512, .f32⟩
  | 21 => ⟨S8x512x512, .f32⟩
  | 22 => ⟨S_, .f32⟩
  | 23 => ⟨S8x512x512, .f32⟩
  | 24 => ⟨S8x512x512, .f32⟩
  | 25 => ⟨S8x512x512, .f32⟩
  | 26 => ⟨S_, .f32⟩
  | 27 => ⟨S_, .f32⟩
  | 28 => ⟨S_, .f32⟩
  | 29 => ⟨S_, .i32⟩
  | 30 => ⟨S_, .i32⟩
  | 31 => ⟨S_, .i32⟩
  | 32 => ⟨S8x512x512, .f32⟩
  | 33 => ⟨S_, .i32⟩
  | 34 => ⟨S_, .i32⟩
  | 35 => ⟨S_, .i32⟩
  | 36 => ⟨S8x512x512, .f32⟩
  | 37 => ⟨S8x512x512, .f32⟩
  | 38 => ⟨S8x512x512, .f32⟩
  | 39 => ⟨S8x512x512, .f32⟩
  | 40 => ⟨S8x512x512, .f32⟩
  | 41 => ⟨S_, .f32⟩
  | 42 => ⟨S8x512x512, .f32⟩
  | 43 => ⟨S8x512x512, .f32⟩
  | 44 => ⟨S8x512x512, .f32⟩
  | 45 => ⟨S_, .f32⟩
  | 46 => ⟨S_, .f32⟩
  | 47 => ⟨S_, .f32⟩
  | 48 => ⟨S_, .i32⟩
  | 49 => ⟨S_, .i32⟩
  | 50 => ⟨S_, .i32⟩
  | 51 => ⟨S8x512x512, .f32⟩
  | 52 => ⟨S_, .i32⟩
  | 53 => ⟨S_, .i32⟩
  | 54 => ⟨S_, .i32⟩
  | 55 => ⟨S8x512x512, .f32⟩
  | 56 => ⟨S8x512x512, .f32⟩
  | 57 => ⟨S8x512x512, .f32⟩
  | 58 => ⟨S8x512x512, .f32⟩
  | 59 => ⟨S8x512x512, .f32⟩
  | 60 => ⟨S_, .f32⟩
  | 61 => ⟨S8x512x512, .f32⟩
  | 62 => ⟨S8x512x512, .f32⟩
  | 63 => ⟨S8x512x512, .f32⟩
  | 64 => ⟨S_, .f32⟩
  | 65 => ⟨S_, .f32⟩
  | 66 => ⟨S_, .f32⟩
  | 67 => ⟨S_, .i32⟩
  | 68 => ⟨S_, .i32⟩
  | 69 => ⟨S_, .i32⟩
  | 70 => ⟨S8x512x512, .f32⟩
  | 71 => ⟨S_, .i32⟩
  | 72 => ⟨S_, .i32⟩
  | 73 => ⟨S_, .i32⟩
  | 74 => ⟨S8x512x512, .f32⟩
  | 75 => ⟨S8x512x512, .f32⟩
  | 76 => ⟨S8x512x512, .f32⟩
  | 77 => ⟨S8x512x512, .f32⟩
  | 78 => ⟨S8x512x512, .f32⟩
  | 79 => ⟨S_, .f32⟩
  | 80 => ⟨S8x512x512, .f32⟩
  | 81 => ⟨S8x512x512, .f32⟩
  | 82 => ⟨S8x512x512, .f32⟩
  | 83 => ⟨S_, .f32⟩
  | 84 => ⟨S_, .f32⟩
  | 85 => ⟨S_, .f32⟩
  | 86 => ⟨S_, .i32⟩
  | 87 => ⟨S_, .i32⟩
  | 88 => ⟨S_, .i32⟩
  | 89 => ⟨S8x512x512, .f32⟩
  | 90 => ⟨S_, .i32⟩
  | 91 => ⟨S_, .i32⟩
  | 92 => ⟨S_, .i32⟩
  | 93 => ⟨S8x512x512, .f32⟩
  | 94 => ⟨S8x512x512, .f32⟩
  | 95 => ⟨S8x512x512, .f32⟩
  | 96 => ⟨S8x512x512, .f32⟩
  | 97 => ⟨S8x512x512, .f32⟩
  | 98 => ⟨S_, .f32⟩
  | 99 => ⟨S8x512x512, .f32⟩
  | 100 => ⟨S8x512x512, .f32⟩
  | 101 => ⟨S8x512x512, .f32⟩
  | 102 => ⟨S_, .f32⟩
  | 103 => ⟨S_, .f32⟩
  | 104 => ⟨S_, .f32⟩
  | 105 => ⟨S_, .i32⟩
  | 106 => ⟨S_, .i32⟩
  | 107 => ⟨S_, .i32⟩
  | 108 => ⟨S8x512x512, .f32⟩
  | 109 => ⟨S_, .i32⟩
  | 110 => ⟨S_, .i32⟩
  | 111 => ⟨S_, .i32⟩
  | 112 => ⟨S8x512x512, .f32⟩
  | 113 => ⟨S8x512x512, .f32⟩
  | 114 => ⟨S8x512x512, .f32⟩
  | 115 => ⟨S8x512x512, .f32⟩
  | 116 => ⟨S8x512x512, .f32⟩
  | 117 => ⟨S_, .f32⟩
  | 118 => ⟨S8x512x512, .f32⟩
  | 119 => ⟨S8x512x512, .f32⟩
  | 120 => ⟨S8x512x512, .f32⟩
  | 121 => ⟨S_, .f32⟩
  | 122 => ⟨S_, .f32⟩
  | 123 => ⟨S_, .f32⟩
  | 124 => ⟨S_, .i32⟩
  | 125 => ⟨S_, .i32⟩
  | 126 => ⟨S_, .i32⟩
  | 127 => ⟨S8x512x512, .f32⟩
  | _ => ⟨S8x3x512x512, .f32⟩

abbrev hbmTy0_2 (i : Nat) : BufTy := match i % 128 with
  | 0 => ⟨S_, .i32⟩
  | 1 => ⟨S_, .i32⟩
  | 2 => ⟨S_, .i32⟩
  | 3 => ⟨S8x512x512, .f32⟩
  | 4 => ⟨S8x512x512, .f32⟩
  | 5 => ⟨S8x512x512, .f32⟩
  | 6 => ⟨S8x512x512, .f32⟩
  | 7 => ⟨S8x512x512, .f32⟩
  | 8 => ⟨S_, .f32⟩
  | 9 => ⟨S8x512x512, .f32⟩
  | 10 => ⟨S8x512x512, .f32⟩
  | 11 => ⟨S8x512x512, .f32⟩
  | 12 => ⟨S_, .f32⟩
  | 13 => ⟨S_, .f32⟩
  | 14 => ⟨S_, .f32⟩
  | 15 => ⟨S_, .i32⟩
  | 16 => ⟨S_, .i32⟩
  | 17 => ⟨S_, .i32⟩
  | 18 => ⟨S8x512x512, .f32⟩
  | 19 => ⟨S_, .i32⟩
  | 20 => ⟨S_, .i32⟩
  | 21 => ⟨S_, .i32⟩
  | 22 => ⟨S8x512x512, .f32⟩
  | 23 => ⟨S8x512x512, .f32⟩
  | 24 => ⟨S8x512x512, .f32⟩
  | 25 => ⟨S8x512x512, .f32⟩
  | 26 => ⟨S8x512x512, .f32⟩
  | 27 => ⟨S_, .f32⟩
  | 28 => ⟨S8x512x512, .f32⟩
  | 29 => ⟨S8x512x512, .f32⟩
  | 30 => ⟨S8x512x512, .f32⟩
  | 31 => ⟨S_, .f32⟩
  | 32 => ⟨S_, .f32⟩
  | 33 => ⟨S_, .f32⟩
  | 34 => ⟨S_, .i32⟩
  | 35 => ⟨S_, .i32⟩
  | 36 => ⟨S_, .i32⟩
  | 37 => ⟨S8x512x512, .f32⟩
  | 38 => ⟨S_, .i32⟩
  | 39 => ⟨S_, .i32⟩
  | 40 => ⟨S_, .i32⟩
  | 41 => ⟨S8x512x512, .f32⟩
  | 42 => ⟨S8x512x512, .f32⟩
  | 43 => ⟨S8x512x512, .f32⟩
  | 44 => ⟨S8x512x512, .f32⟩
  | 45 => ⟨S8x512x512, .f32⟩
  | 46 => ⟨S_, .f32⟩
  | 47 => ⟨S8x512x512, .f32⟩
  | 48 => ⟨S8x512x512, .f32⟩
  | 49 => ⟨S8x512x512, .f32⟩
  | 50 => ⟨S_, .f32⟩
  | 51 => ⟨S_, .f32⟩
  | 52 => ⟨S_, .f32⟩
  | 53 => ⟨S_, .i32⟩
  | 54 => ⟨S_, .i32⟩
  | 55 => ⟨S_, .i32⟩
  | 56 => ⟨S8x512x512, .f32⟩
  | 57 => ⟨S_, .i32⟩
  | 58 => ⟨S_, .i32⟩
  | 59 => ⟨S_, .i32⟩
  | 60 => ⟨S8x512x512, .f32⟩
  | 61 => ⟨S8x512x512, .f32⟩
  | 62 => ⟨S8x512x512, .f32⟩
  | 63 => ⟨S8x512x512, .f32⟩
  | 64 => ⟨S8x512x512, .f32⟩
  | 65 => ⟨S_, .f32⟩
  | 66 => ⟨S8x512x512, .f32⟩
  | 67 => ⟨S8x512x512, .f32⟩
  | 68 => ⟨S8x512x512, .f32⟩
  | 69 => ⟨S_, .f32⟩
  | 70 => ⟨S_, .f32⟩
  | 71 => ⟨S_, .f32⟩
  | 72 => ⟨S_, .i32⟩
  | 73 => ⟨S_, .i32⟩
  | 74 => ⟨S_, .i32⟩
  | 75 => ⟨S8x512x512, .f32⟩
  | 76 => ⟨S_, .i32⟩
  | 77 => ⟨S_, .i32⟩
  | 78 => ⟨S_, .i32⟩
  | 79 => ⟨S8x512x512, .f32⟩
  | 80 => ⟨S8x512x512, .f32⟩
  | 81 => ⟨S8x512x512, .f32⟩
  | 82 => ⟨S8x512x512, .f32⟩
  | 83 => ⟨S8x512x512, .f32⟩
  | 84 => ⟨S_, .f32⟩
  | 85 => ⟨S8x512x512, .f32⟩
  | 86 => ⟨S8x512x512, .f32⟩
  | 87 => ⟨S8x512x512, .f32⟩
  | 88 => ⟨S_, .f32⟩
  | 89 => ⟨S_, .f32⟩
  | 90 => ⟨S_, .f32⟩
  | 91 => ⟨S_, .i32⟩
  | 92 => ⟨S_, .i32⟩
  | 93 => ⟨S_, .i32⟩
  | 94 => ⟨S8x512x512, .f32⟩
  | 95 => ⟨S_, .i32⟩
  | 96 => ⟨S_, .i32⟩
  | 97 => ⟨S_, .i32⟩
  | 98 => ⟨S8x512x512, .f32⟩
  | 99 => ⟨S8x512x512, .f32⟩
  | 100 => ⟨S8x512x512, .f32⟩
  | 101 => ⟨S8x512x512, .f32⟩
  | 102 => ⟨S8x512x512, .f32⟩
  | 103 => ⟨S_, .f32⟩
  | 104 => ⟨S8x512x512, .f32⟩
  | 105 => ⟨S8x512x512, .f32⟩
  | 106 => ⟨S8x512x512, .f32⟩
  | 107 => ⟨S_, .f32⟩
  | 108 => ⟨S_, .f32⟩
  | 109 => ⟨S_, .f32⟩
  | 110 => ⟨S_, .i32⟩
  | 111 => ⟨S_, .i32⟩
  | 112 => ⟨S_, .i32⟩
  | 113 => ⟨S8x512x512, .f32⟩
  | 114 => ⟨S_, .i32⟩
  | 115 => ⟨S_, .i32⟩
  | 116 => ⟨S_, .i32⟩
  | 117 => ⟨S8x512x512, .f32⟩
  | 118 => ⟨S8x512x512, .f32⟩
  | 119 => ⟨S8x512x512, .f32⟩
  | 120 => ⟨S8x512x512, .f32⟩
  | 121 => ⟨S8x512x512, .f32⟩
  | 122 => ⟨S_, .f32⟩
  | 123 => ⟨S8x512x512, .f32⟩
  | 124 => ⟨S8x512x512, .f32⟩
  | 125 => ⟨S8x512x512, .f32⟩
  | 126 => ⟨S_, .f32⟩
  | 127 => ⟨S_, .f32⟩
  | _ => ⟨S8x3x512x512, .f32⟩

abbrev hbmTy0_3 (i : Nat) : BufTy := match i % 128 with
  | 0 => ⟨S_, .f32⟩
  | 1 => ⟨S_, .i32⟩
  | 2 => ⟨S_, .i32⟩
  | 3 => ⟨S_, .i32⟩
  | 4 => ⟨S8x512x512, .f32⟩
  | 5 => ⟨S_, .i32⟩
  | 6 => ⟨S_, .i32⟩
  | 7 => ⟨S_, .i32⟩
  | 8 => ⟨S8x512x512, .f32⟩
  | 9 => ⟨S8x512x512, .f32⟩
  | 10 => ⟨S8x512x512, .f32⟩
  | 11 => ⟨S8x512x512, .f32⟩
  | 12 => ⟨S8x512x512, .f32⟩
  | 13 => ⟨S_, .f32⟩
  | 14 => ⟨S8x512x512, .f32⟩
  | 15 => ⟨S8x512x512, .f32⟩
  | 16 => ⟨S8x512x512, .f32⟩
  | 17 => ⟨S_, .f32⟩
  | 18 => ⟨S_, .f32⟩
  | 19 => ⟨S_, .f32⟩
  | 20 => ⟨S_, .i32⟩
  | 21 => ⟨S_, .i32⟩
  | 22 => ⟨S_, .i32⟩
  | 23 => ⟨S8x512x512, .f32⟩
  | 24 => ⟨S_, .i32⟩
  | 25 => ⟨S_, .i32⟩
  | 26 => ⟨S_, .i32⟩
  | 27 => ⟨S8x512x512, .f32⟩
  | 28 => ⟨S8x512x512, .f32⟩
  | 29 => ⟨S8x512x512, .f32⟩
  | 30 => ⟨S8x512x512, .f32⟩
  | 31 => ⟨S8x512x512, .f32⟩
  | 32 => ⟨S_, .f32⟩
  | 33 => ⟨S8x512x512, .f32⟩
  | 34 => ⟨S8x512x512, .f32⟩
  | 35 => ⟨S8x512x512, .f32⟩
  | 36 => ⟨S_, .f32⟩
  | 37 => ⟨S_, .f32⟩
  | 38 => ⟨S_, .f32⟩
  | 39 => ⟨S_, .i32⟩
  | 40 => ⟨S_, .i32⟩
  | 41 => ⟨S_, .i32⟩
  | 42 => ⟨S8x512x512, .f32⟩
  | 43 => ⟨S_, .i32⟩
  | 44 => ⟨S_, .i32⟩
  | 45 => ⟨S_, .i32⟩
  | 46 => ⟨S8x512x512, .f32⟩
  | 47 => ⟨S8x512x512, .f32⟩
  | 48 => ⟨S8x512x512, .f32⟩
  | 49 => ⟨S8x512x512, .f32⟩
  | 50 => ⟨S8x512x512, .f32⟩
  | 51 => ⟨S_, .f32⟩
  | 52 => ⟨S8x512x512, .f32⟩
  | 53 => ⟨S8x512x512, .f32⟩
  | 54 => ⟨S8x512x512, .f32⟩
  | 55 => ⟨S_, .f32⟩
  | 56 => ⟨S_, .f32⟩
  | 57 => ⟨S_, .f32⟩
  | 58 => ⟨S_, .i32⟩
  | 59 => ⟨S_, .i32⟩
  | 60 => ⟨S_, .i32⟩
  | 61 => ⟨S8x512x512, .f32⟩
  | 62 => ⟨S_, .i32⟩
  | 63 => ⟨S_, .i32⟩
  | 64 => ⟨S_, .i32⟩
  | 65 => ⟨S8x512x512, .f32⟩
  | 66 => ⟨S8x512x512, .f32⟩
  | 67 => ⟨S8x512x512, .f32⟩
  | 68 => ⟨S8x512x512, .f32⟩
  | 69 => ⟨S8x512x512, .f32⟩
  | 70 => ⟨S_, .f32⟩
  | 71 => ⟨S8x512x512, .f32⟩
  | 72 => ⟨S8x512x512, .f32⟩
  | 73 => ⟨S8x512x512, .f32⟩
  | 74 => ⟨S_, .f32⟩
  | 75 => ⟨S_, .f32⟩
  | 76 => ⟨S_, .f32⟩
  | 77 => ⟨S_, .i32⟩
  | 78 => ⟨S_, .i32⟩
  | 79 => ⟨S_, .i32⟩
  | 80 => ⟨S8x512x512, .f32⟩
  | 81 => ⟨S_, .i32⟩
  | 82 => ⟨S_, .i32⟩
  | 83 => ⟨S_, .i32⟩
  | 84 => ⟨S8x512x512, .f32⟩
  | 85 => ⟨S8x512x512, .f32⟩
  | 86 => ⟨S8x512x512, .f32⟩
  | 87 => ⟨S8x512x512, .f32⟩
  | 88 => ⟨S8x512x512, .f32⟩
  | 89 => ⟨S_, .f32⟩
  | 90 => ⟨S8x512x512, .f32⟩
  | 91 => ⟨S8x512x512, .f32⟩
  | 92 => ⟨S8x512x512, .f32⟩
  | 93 => ⟨S_, .f32⟩
  | 94 => ⟨S_, .f32⟩
  | 95 => ⟨S_, .f32⟩
  | 96 => ⟨S_, .i32⟩
  | 97 => ⟨S_, .i32⟩
  | 98 => ⟨S_, .i32⟩
  | 99 => ⟨S8x512x512, .f32⟩
  | 100 => ⟨S_, .i32⟩
  | 101 => ⟨S_, .i32⟩
  | 102 => ⟨S_, .i32⟩
  | 103 => ⟨S8x512x512, .f32⟩
  | 104 => ⟨S8x512x512, .f32⟩
  | 105 => ⟨S8x512x512, .f32⟩
  | 106 => ⟨S8x512x512, .f32⟩
  | 107 => ⟨S8x512x512, .f32⟩
  | 108 => ⟨S_, .f32⟩
  | 109 => ⟨S8x512x512, .f32⟩
  | 110 => ⟨S8x512x512, .f32⟩
  | 111 => ⟨S8x512x512, .f32⟩
  | 112 => ⟨S_, .f32⟩
  | 113 => ⟨S_, .f32⟩
  | 114 => ⟨S_, .f32⟩
  | 115 => ⟨S_, .i32⟩
  | 116 => ⟨S_, .i32⟩
  | 117 => ⟨S_, .i32⟩
  | 118 => ⟨S8x512x512, .f32⟩
  | 119 => ⟨S_, .i32⟩
  | 120 => ⟨S_, .i32⟩
  | 121 => ⟨S_, .i32⟩
  | 122 => ⟨S8x512x512, .f32⟩
  | 123 => ⟨S8x512x512, .f32⟩
  | 124 => ⟨S8x512x512, .f32⟩
  | 125 => ⟨S8x512x512, .f32⟩
  | 126 => ⟨S8x512x512, .f32⟩
  | 127 => ⟨S_, .f32⟩
  | _ => ⟨S8x3x512x512, .f32⟩

abbrev hbmTy0_4 (i : Nat) : BufTy := match i % 128 with
  | 0 => ⟨S8x512x512, .f32⟩
  | 1 => ⟨S8x512x512, .f32⟩
  | 2 => ⟨S8x512x512, .f32⟩
  | 3 => ⟨S_, .f32⟩
  | 4 => ⟨S_, .f32⟩
  | 5 => ⟨S_, .f32⟩
  | 6 => ⟨S_, .i32⟩
  | 7 => ⟨S_, .i32⟩
  | 8 => ⟨S_, .i32⟩
  | 9 => ⟨S8x512x512, .f32⟩
  | 10 => ⟨S_, .i32⟩
  | 11 => ⟨S_, .i32⟩
  | 12 => ⟨S_, .i32⟩
  | 13 => ⟨S8x512x512, .f32⟩
  | 14 => ⟨S8x512x512, .f32⟩
  | 15 => ⟨S8x512x512, .f32⟩
  | 16 => ⟨S8x512x512, .f32⟩
  | 17 => ⟨S8x512x512, .f32⟩
  | 18 => ⟨S_, .f32⟩
  | 19 => ⟨S8x512x512, .f32⟩
  | 20 => ⟨S8x512x512, .f32⟩
  | 21 => ⟨S8x512x512, .f32⟩
  | 22 => ⟨S_, .f32⟩
  | 23 => ⟨S_, .f32⟩
  | 24 => ⟨S_, .f32⟩
  | 25 => ⟨S_, .i32⟩
  | 26 => ⟨S_, .i32⟩
  | 27 => ⟨S_, .i32⟩
  | 28 => ⟨S8x512x512, .f32⟩
  | 29 => ⟨S_, .i32⟩
  | 30 => ⟨S_, .i32⟩
  | 31 => ⟨S_, .i32⟩
  | 32 => ⟨S8x512x512, .f32⟩
  | 33 => ⟨S8x512x512, .f32⟩
  | 34 => ⟨S8x512x512, .f32⟩
  | 35 => ⟨S8x512x512, .f32⟩
  | 36 => ⟨S8x512x512, .f32⟩
  | 37 => ⟨S_, .f32⟩
  | 38 => ⟨S8x512x512, .f32⟩
  | 39 => ⟨S8x512x512, .f32⟩
  | 40 => ⟨S8x512x512, .f32⟩
  | 41 => ⟨S_, .f32⟩
  | 42 => ⟨S_, .f32⟩
  | 43 => ⟨S_, .f32⟩
  | 44 => ⟨S_, .i32⟩
  | 45 => ⟨S_, .i32⟩
  | 46 => ⟨S_, .i32⟩
  | 47 => ⟨S8x512x512, .f32⟩
  | 48 => ⟨S_, .i32⟩
  | 49 => ⟨S_, .i32⟩
  | 50 => ⟨S_, .i32⟩
  | 51 => ⟨S8x512x512, .f32⟩
  | 52 => ⟨S8x512x512, .f32⟩
  | 53 => ⟨S8x512x512, .f32⟩
  | 54 => ⟨S8x512x512, .f32⟩
  | 55 => ⟨S8x512x512, .f32⟩
  | 56 => ⟨S_, .f32⟩
  | 57 => ⟨S8x512x512, .f32⟩
  | 58 => ⟨S8x512x512, .f32⟩
  | 59 => ⟨S8x512x512, .f32⟩
  | 60 => ⟨S_, .f32⟩
  | 61 => ⟨S_, .f32⟩
  | 62 => ⟨S_, .f32⟩
  | 63 => ⟨S_, .i32⟩
  | 64 => ⟨S_, .i32⟩
  | 65 => ⟨S_, .i32⟩
  | 66 => ⟨S8x512x512, .f32⟩
  | 67 => ⟨S_, .i32⟩
  | 68 => ⟨S_, .i32⟩
  | 69 => ⟨S_, .i32⟩
  | 70 => ⟨S8x512x512, .f32⟩
  | 71 => ⟨S8x512x512, .f32⟩
  | 72 => ⟨S8x512x512, .f32⟩
  | 73 => ⟨S8x512x512, .f32⟩
  | 74 => ⟨S8x512x512, .f32⟩
  | 75 => ⟨S_, .f32⟩
  | 76 => ⟨S8x512x512, .f32⟩
  | 77 => ⟨S8x512x512, .f32⟩
  | 78 => ⟨S8x512x512, .f32⟩
  | 79 => ⟨S_, .f32⟩
  | 80 => ⟨S_, .f32⟩
  | 81 => ⟨S_, .f32⟩
  | 82 => ⟨S_, .i32⟩
  | 83 => ⟨S_, .i32⟩
  | 84 => ⟨S_, .i32⟩
  | 85 => ⟨S8x512x512, .f32⟩
  | 86 => ⟨S_, .i32⟩
  | 87 => ⟨S_, .i32⟩
  | 88 => ⟨S_, .i32⟩
  | 89 => ⟨S8x512x512, .f32⟩
  | 90 => ⟨S8x512x512, .f32⟩
  | 91 => ⟨S8x512x512, .f32⟩
  | 92 => ⟨S8x512x512, .f32⟩
  | 93 => ⟨S8x512x512, .f32⟩
  | 94 => ⟨S_, .f32⟩
  | 95 => ⟨S8x512x512, .f32⟩
  | 96 => ⟨S8x512x512, .f32⟩
  | 97 => ⟨S8x512x512, .f32⟩
  | 98 => ⟨S_, .f32⟩
  | 99 => ⟨S_, .f32⟩
  | 100 => ⟨S_, .f32⟩
  | 101 => ⟨S_, .i32⟩
  | 102 => ⟨S_, .i32⟩
  | 103 => ⟨S_, .i32⟩
  | 104 => ⟨S8x512x512, .f32⟩
  | 105 => ⟨S_, .i32⟩
  | 106 => ⟨S_, .i32⟩
  | 107 => ⟨S_, .i32⟩
  | 108 => ⟨S8x512x512, .f32⟩
  | 109 => ⟨S8x512x512, .f32⟩
  | 110 => ⟨S8x512x512, .f32⟩
  | 111 => ⟨S8x512x512, .f32⟩
  | 112 => ⟨S8x512x512, .f32⟩
  | 113 => ⟨S_, .f32⟩
  | 114 => ⟨S8x512x512, .f32⟩
  | 115 => ⟨S8x512x512, .f32⟩
  | 116 => ⟨S8x512x512, .f32⟩
  | 117 => ⟨S_, .f32⟩
  | 118 => ⟨S_, .f32⟩
  | 119 => ⟨S_, .f32⟩
  | 120 => ⟨S_, .i32⟩
  | 121 => ⟨S_, .i32⟩
  | 122 => ⟨S_, .i32⟩
  | 123 => ⟨S8x512x512, .f32⟩
  | 124 => ⟨S_, .i32⟩
  | 125 => ⟨S_, .i32⟩
  | 126 => ⟨S_, .i32⟩
  | 127 => ⟨S8x512x512, .f32⟩
  | _ => ⟨S8x3x512x512, .f32⟩

abbrev hbmTy0_5 (i : Nat) : BufTy := match i % 128 with
  | 0 => ⟨S8x512x512, .f32⟩
  | 1 => ⟨S8x512x512, .f32⟩
  | 2 => ⟨S8x512x512, .f32⟩
  | 3 => ⟨S8x512x512, .f32⟩
  | 4 => ⟨S_, .f32⟩
  | 5 => ⟨S8x512x512, .f32⟩
  | 6 => ⟨S8x512x512, .f32⟩
  | 7 => ⟨S8x512x512, .f32⟩
  | 8 => ⟨S_, .f32⟩
  | 9 => ⟨S_, .f32⟩
  | 10 => ⟨S_, .f32⟩
  | 11 => ⟨S_, .i32⟩
  | 12 => ⟨S_, .i32⟩
  | 13 => ⟨S_, .i32⟩
  | 14 => ⟨S8x512x512, .f32⟩
  | 15 => ⟨S_, .i32⟩
  | 16 => ⟨S_, .i32⟩
  | 17 => ⟨S_, .i32⟩
  | 18 => ⟨S8x512x512, .f32⟩
  | 19 => ⟨S8x512x512, .f32⟩
  | 20 => ⟨S8x512x512, .f32⟩
  | 21 => ⟨S8x512x512, .f32⟩
  | 22 => ⟨S8x512x512, .f32⟩
  | 23 => ⟨S_, .f32⟩
  | 24 => ⟨S8x512x512, .f32⟩
  | 25 => ⟨S8x512x512, .f32⟩
  | 26 => ⟨S8x512x512, .f32⟩
  | 27 => ⟨S_, .f32⟩
  | 28 => ⟨S_, .f32⟩
  | 29 => ⟨S_, .f32⟩
  | 30 => ⟨S_, .i32⟩
  | 31 => ⟨S_, .i32⟩
  | 32 => ⟨S_, .i32⟩
  | 33 => ⟨S8x512x512, .f32⟩
  | 34 => ⟨S_, .i32⟩
  | 35 => ⟨S_, .i32⟩
  | 36 => ⟨S_, .i32⟩
  | 37 => ⟨S8x512x512, .f32⟩
  | 38 => ⟨S8x512x512, .f32⟩
  | 39 => ⟨S8x512x512, .f32⟩
  | 40 => ⟨S8x512x512, .f32⟩
  | 41 => ⟨S8x512x512, .f32⟩
  | 42 => ⟨S_, .f32⟩
  | 43 => ⟨S8x512x512, .f32⟩
  | 44 => ⟨S8x512x512, .f32⟩
  | 45 => ⟨S8x512x512, .f32⟩
  | 46 => ⟨S_, .f32⟩
  | 47 => ⟨S_, .f32⟩
  | 48 => ⟨S_, .f32⟩
  | 49 => ⟨S_, .i32⟩
  | 50 => ⟨S_, .i32⟩
  | 51 => ⟨S_, .i32⟩
  | 52 => ⟨S8x512x512, .f32⟩
  | 53 => ⟨S_, .i32⟩
  | 54 => ⟨S_, .i32⟩
  | 55 => ⟨S_, .i32⟩
  | 56 => ⟨S8x512x512, .f32⟩
  | 57 => ⟨S8x512x512, .f32⟩
  | 58 => ⟨S8x512x512, .f32⟩
  | 59 => ⟨S8x512x512, .f32⟩
  | 60 => ⟨S8x512x512, .f32⟩
  | 61 => ⟨S_, .f32⟩
  | 62 => ⟨S8x512x512, .f32⟩
  | 63 => ⟨S8x512x512, .f32⟩
  | 64 => ⟨S8x512x512, .f32⟩
  | 65 => ⟨S_, .f32⟩
  | 66 => ⟨S_, .f32⟩
  | 67 => ⟨S_, .f32⟩
  | 68 => ⟨S_, .i32⟩
  | 69 => ⟨S_, .i32⟩
  | 70 => ⟨S_, .i32⟩
  | 71 => ⟨S8x512x512, .f32⟩
  | 72 => ⟨S_, .i32⟩
  | 73 => ⟨S_, .i32⟩
  | 74 => ⟨S_, .i32⟩
  | 75 => ⟨S8x512x512, .f32⟩
  | 76 => ⟨S8x512x512, .f32⟩
  | 77 => ⟨S8x512x512, .f32⟩
  | 78 => ⟨S8x512x512, .f32⟩
  | 79 => ⟨S8x512x512, .f32⟩
  | 80 => ⟨S_, .f32⟩
  | 81 => ⟨S8x512x512, .f32⟩
  | 82 => ⟨S8x512x512, .f32⟩
  | 83 => ⟨S8x512x512, .f32⟩
  | 84 => ⟨S_, .f32⟩
  | 85 => ⟨S_, .f32⟩
  | 86 => ⟨S_, .f32⟩
  | 87 => ⟨S_, .i32⟩
  | 88 => ⟨S_, .i32⟩
  | 89 => ⟨S_, .i32⟩
  | 90 => ⟨S8x512x512, .f32⟩
  | 91 => ⟨S_, .i32⟩
  | 92 => ⟨S_, .i32⟩
  | 93 => ⟨S_, .i32⟩
  | 94 => ⟨S8x512x512, .f32⟩
  | 95 => ⟨S8x512x512, .f32⟩
  | 96 => ⟨S8x512x512, .f32⟩
  | 97 => ⟨S8x512x512, .f32⟩
  | 98 => ⟨S8x512x512, .f32⟩
  | 99 => ⟨S_, .f32⟩
  | 100 => ⟨S8x512x512, .f32⟩
  | 101 => ⟨S8x512x512, .f32⟩
  | 102 => ⟨S8x512x512, .f32⟩
  | 103 => ⟨S_, .f32⟩
  | 104 => ⟨S_, .f32⟩
  | 105 => ⟨S_, .f32⟩
  | 106 => ⟨S_, .i32⟩
  | 107 => ⟨S_, .i32⟩
  | 108 => ⟨S_, .i32⟩
  | 109 => ⟨S8x512x512, .f32⟩
  | 110 => ⟨S_, .i32⟩
  | 111 => ⟨S_, .i32⟩
  | 112 => ⟨S_, .i32⟩
  | 113 => ⟨S8x512x512, .f32⟩
  | 114 => ⟨S8x512x512, .f32⟩
  | 115 => ⟨S8x512x512, .f32⟩
  | 116 => ⟨S8x512x512, .f32⟩
  | 117 => ⟨S8x512x512, .f32⟩
  | 118 => ⟨S_, .f32⟩
  | 119 => ⟨S8x512x512, .f32⟩
  | 120 => ⟨S8x512x512, .f32⟩
  | 121 => ⟨S8x512x512, .f32⟩
  | 122 => ⟨S_, .f32⟩
  | 123 => ⟨S_, .f32⟩
  | 124 => ⟨S_, .f32⟩
  | 125 => ⟨S_, .i32⟩
  | 126 => ⟨S_, .i32⟩
  | 127 => ⟨S_, .i32⟩
  | _ => ⟨S8x3x512x512, .f32⟩

abbrev hbmTy0_6 (i : Nat) : BufTy := match i % 128 with
  | 0 => ⟨S8x512x512, .f32⟩
  | 1 => ⟨S_, .i32⟩
  | 2 => ⟨S_, .i32⟩
  | 3 => ⟨S_, .i32⟩
  | 4 => ⟨S8x512x512, .f32⟩
  | 5 => ⟨S8x512x512, .f32⟩
  | 6 => ⟨S8x512x512, .f32⟩
  | 7 => ⟨S8x512x512, .f32⟩
  | 8 => ⟨S8x512x512, .f32⟩
  | 9 => ⟨S_, .f32⟩
  | 10 => ⟨S8x512x512, .f32⟩
  | 11 => ⟨S8x512x512, .f32⟩
  | 12 => ⟨S8x512x512, .f32⟩
  | 13 => ⟨S_, .f32⟩
  | 14 => ⟨S_, .f32⟩
  | 15 => ⟨S_, .f32⟩
  | 16 => ⟨S_, .i32⟩
  | 17 => ⟨S_, .i32⟩
  | 18 => ⟨S_, .i32⟩
  | 19 => ⟨S8x512x512, .f32⟩
  | 20 => ⟨S_, .i32⟩
  | 21 => ⟨S_, .i32⟩
  | 22 => ⟨S_, .i32⟩
  | 23 => ⟨S8x512x512, .f32⟩
  | 24 => ⟨S8x512x512, .f32⟩
  | 25 => ⟨S8x512x512, .f32⟩
  | 26 => ⟨S8x512x512, .f32⟩
  | 27 => ⟨S8x512x512, .f32⟩
  | 28 => ⟨S_, .f32⟩
  | 29 => ⟨S8x512x512, .f32⟩
  | 30 => ⟨S8x512x512, .f32⟩
  | 31 => ⟨S8x512x512, .f32⟩
  | 32 => ⟨S_, .f32⟩
  | 33 => ⟨S_, .f32⟩
  | 34 => ⟨S_, .f32⟩
  | 35 => ⟨S_, .i32⟩
  | 36 => ⟨S_, .i32⟩
  | 37 => ⟨S_, .i32⟩
  | 38 => ⟨S8x512x512, .f32⟩
  | 39 => ⟨S_, .i32⟩
  | 40 => ⟨S_, .i32⟩
  | 41 => ⟨S_, .i32⟩
  | 42 => ⟨S8x512x512, .f32⟩
  | 43 => ⟨S8x512x512, .f32⟩
  | 44 => ⟨S8x512x512, .f32⟩
  | 45 => ⟨S8x512x512, .f32⟩
  | 46 => ⟨S8x512x512, .f32⟩
  | 47 => ⟨S_, .f32⟩
  | 48 => ⟨S8x512x512, .f32⟩
  | 49 => ⟨S8x512x512, .f32⟩
  | 50 => ⟨S8x512x512, .f32⟩
  | 51 => ⟨S_, .f32⟩
  | 52 => ⟨S_, .f32⟩
  | 53 => ⟨S_, .f32⟩
  | 54 => ⟨S_, .i32⟩
  | 55 => ⟨S_, .i32⟩
  | 56 => ⟨S_, .i32⟩
  | 57 => ⟨S8x512x512, .f32⟩
  | 58 => ⟨S_, .i32⟩
  | 59 => ⟨S_, .i32⟩
  | 60 => ⟨S_, .i32⟩
  | 61 => ⟨S8x512x512, .f32⟩
  | 62 => ⟨S8x512x512, .f32⟩
  | 63 => ⟨S8x512x512, .f32⟩
  | 64 => ⟨S8x512x512, .f32⟩
  | 65 => ⟨S8x512x512, .f32⟩
  | 66 => ⟨S_, .f32⟩
  | 67 => ⟨S8x512x512, .f32⟩
  | 68 => ⟨S8x512x512, .f32⟩
  | 69 => ⟨S8x512x512, .f32⟩
  | 70 => ⟨S_, .f32⟩
  | 71 => ⟨S_, .f32⟩
  | 72 => ⟨S_, .f32⟩
  | 73 => ⟨S_, .i32⟩
  | 74 => ⟨S_, .i32⟩
  | 75 => ⟨S_, .i32⟩
  | 76 => ⟨S8x512x512, .f32⟩
  | 77 => ⟨S_, .i32⟩
  | 78 => ⟨S_, .i32⟩
  | 79 => ⟨S_, .i32⟩
  | 80 => ⟨S8x512x512, .f32⟩
  | 81 => ⟨S8x512x512, .f32⟩
  | 82 => ⟨S8x512x512, .f32⟩
  | 83 => ⟨S8x512x512, .f32⟩
  | 84 => ⟨S8x512x512, .f32⟩
  | 85 => ⟨S_, .f32⟩
  | 86 => ⟨S8x512x512, .f32⟩
  | 87 => ⟨S8x512x512, .f32⟩
  | 88 => ⟨S8x512x512, .f32⟩
  | 89 => ⟨S_, .f32⟩
  | 90 => ⟨S_, .f32⟩
  | 91 => ⟨S_, .f32⟩
  | 92 => ⟨S_, .i32⟩
  | 93 => ⟨S_, .i32⟩
  | 94 => ⟨S_, .i32⟩
  | 95 => ⟨S8x512x512, .f32⟩
  | 96 => ⟨S_, .i32⟩
  | 97 => ⟨S_, .i32⟩
  | 98 => ⟨S_, .i32⟩
  | 99 => ⟨S8x512x512, .f32⟩
  | 100 => ⟨S8x512x512, .f32⟩
  | 101 => ⟨S8x512x512, .f32⟩
  | 102 => ⟨S8x512x512, .f32⟩
  | 103 => ⟨S8x512x512, .f32⟩
  | 104 => ⟨S_, .f32⟩
  | 105 => ⟨S8x512x512, .f32⟩
  | 106 => ⟨S8x512x512, .f32⟩
  | 107 => ⟨S8x512x512, .f32⟩
  | 108 => ⟨S_, .f32⟩
  | 109 => ⟨S_, .f32⟩
  | 110 => ⟨S_, .f32⟩
  | 111 => ⟨S_, .i32⟩
  | 112 => ⟨S_, .i32⟩
  | 113 => ⟨S_, .i32⟩
  | 114 => ⟨S8x512x512, .f32⟩
  | 115 => ⟨S_, .i32⟩
  | 116 => ⟨S_, .i32⟩
  | 117 => ⟨S_, .i32⟩
  | 118 => ⟨S8x512x512, .f32⟩
  | 119 => ⟨S8x512x512, .f32⟩
  | 120 => ⟨S8x512x512, .f32⟩
  | 121 => ⟨S8x512x512, .f32⟩
  | 122 => ⟨S8x512x512, .f32⟩
  | 123 => ⟨S_, .f32⟩
  | 124 => ⟨S8x512x512, .f32⟩
  | 125 => ⟨S8x512x512, .f32⟩
  | 126 => ⟨S8x512x512, .f32⟩
  | 127 => ⟨S_, .f32⟩
  | _ => ⟨S8x3x512x512, .f32⟩

abbrev hbmTy0_7 (i : Nat) : BufTy := match i % 128 with
  | 0 => ⟨S_, .f32⟩
  | 1 => ⟨S_, .f32⟩
  | 2 => ⟨S_, .i32⟩
  | 3 => ⟨S_, .i32⟩
  | 4 => ⟨S_, .i32⟩
  | 5 => ⟨S8x512x512, .f32⟩
  | 6 => ⟨S_, .i32⟩
  | 7 => ⟨S_, .i32⟩
  | 8 => ⟨S_, .i32⟩
  | 9 => ⟨S8x512x512, .f32⟩
  | 10 => ⟨S8x512x512, .f32⟩
  | 11 => ⟨S8x512x512, .f32⟩
  | 12 => ⟨S8x512x512, .f32⟩
  | 13 => ⟨S8x512x512, .f32⟩
  | 14 => ⟨S_, .f32⟩
  | 15 => ⟨S8x512x512, .f32⟩
  | 16 => ⟨S8x512x512, .f32⟩
  | 17 => ⟨S8x512x512, .f32⟩
  | 18 => ⟨S_, .f32⟩
  | 19 => ⟨S_, .f32⟩
  | 20 => ⟨S_, .f32⟩
  | 21 => ⟨S_, .i32⟩
  | 22 => ⟨S_, .i32⟩
  | 23 => ⟨S_, .i32⟩
  | 24 => ⟨S8x512x512, .f32⟩
  | 25 => ⟨S_, .i32⟩
  | 26 => ⟨S_, .i32⟩
  | 27 => ⟨S_, .i32⟩
  | 28 => ⟨S8x512x512, .f32⟩
  | 29 => ⟨S8x512x512, .f32⟩
  | 30 => ⟨S8x512x512, .f32⟩
  | 31 => ⟨S8x512x512, .f32⟩
  | 32 => ⟨S8x512x512, .f32⟩
  | 33 => ⟨S_, .f32⟩
  | 34 => ⟨S8x512x512, .f32⟩
  | 35 => ⟨S8x512x512, .f32⟩
  | 36 => ⟨S8x512x512, .f32⟩
  | 37 => ⟨S_, .f32⟩
  | 38 => ⟨S_, .f32⟩
  | 39 => ⟨S_, .f32⟩
  | 40 => ⟨S_, .i32⟩
  | 41 => ⟨S_, .i32⟩
  | 42 => ⟨S_, .i32⟩
  | 43 => ⟨S8x512x512, .f32⟩
  | 44 => ⟨S_, .i32⟩
  | 45 => ⟨S_, .i32⟩
  | 46 => ⟨S_, .i32⟩
  | 47 => ⟨S8x512x512, .f32⟩
  | 48 => ⟨S8x512x512, .f32⟩
  | 49 => ⟨S8x512x512, .f32⟩
  | 50 => ⟨S8x512x512, .f32⟩
  | 51 => ⟨S8x512x512, .f32⟩
  | 52 => ⟨S_, .f32⟩
  | 53 => ⟨S8x512x512, .f32⟩
  | 54 => ⟨S8x512x512, .f32⟩
  | 55 => ⟨S8x512x512, .f32⟩
  | 56 => ⟨S_, .f32⟩
  | 57 => ⟨S_, .f32⟩
  | 58 => ⟨S_, .f32⟩
  | 59 => ⟨S_, .i32⟩
  | 60 => ⟨S_, .i32⟩
  | 61 => ⟨S_, .i32⟩
  | 62 => ⟨S8x512x512, .f32⟩
  | 63 => ⟨S_, .i32⟩
  | 64 => ⟨S_, .i32⟩
  | 65 => ⟨S_, .i32⟩
  | 66 => ⟨S8x512x512, .f32⟩
  | 67 => ⟨S8x512x512, .f32⟩
  | 68 => ⟨S8x512x512, .f32⟩
  | 69 => ⟨S8x512x512, .f32⟩
  | 70 => ⟨S8x512x512, .f32⟩
  | 71 => ⟨S_, .f32⟩
  | 72 => ⟨S8x512x512, .f32⟩
  | 73 => ⟨S8x512x512, .f32⟩
  | 74 => ⟨S8x512x512, .f32⟩
  | 75 => ⟨S_, .f32⟩
  | 76 => ⟨S_, .f32⟩
  | 77 => ⟨S_, .f32⟩
  | 78 => ⟨S_, .f32⟩
  | 79 => ⟨S_, .f32⟩
  | _ => ⟨S8x3x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_c_5 : Ref sig .tc := ⟨.hbm, 39, rfl⟩
abbrev main_call1_v0 : Ref sig .tc := ⟨.hbm, 40, rfl⟩
abbrev main_v29 : Ref sig .tc := ⟨.hbm, 41, rfl⟩
abbrev main_c_6 : Ref sig .tc := ⟨.hbm, 42, rfl⟩
abbrev main_c_7 : Ref sig .tc := ⟨.hbm, 43, rfl⟩
abbrev main_c_8 : Ref sig .tc := ⟨.hbm, 44, rfl⟩
abbrev main_v30 : Ref sig .tc := ⟨.hbm, 45, rfl⟩
abbrev main_c_9 : Ref sig .tc := ⟨.hbm, 46, rfl⟩
abbrev main_c_10 : Ref sig .tc := ⟨.hbm, 47, rfl⟩
abbrev main_c_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_13 : Ref sig .tc := ⟨.hbm, 58, rfl⟩
abbrev main_v39 : Ref sig .tc := ⟨.hbm, 59, rfl⟩
abbrev main_cst_14 : Ref sig .tc := ⟨.hbm, 60, rfl⟩
abbrev main_v40 : Ref sig .tc := ⟨.hbm, 61, rfl⟩
abbrev main_c_15 : Ref sig .tc := ⟨.hbm, 62, rfl⟩
abbrev main_c_16 : Ref sig .tc := ⟨.hbm, 63, rfl⟩
abbrev main_c_17 : Ref sig .tc := ⟨.hbm, 64, rfl⟩
abbrev main_v41 : Ref sig .tc := ⟨.hbm, 65, rfl⟩
abbrev main_c_18 : Ref sig .tc := ⟨.hbm, 66, rfl⟩
abbrev main_c_19 : Ref sig .tc := ⟨.hbm, 67, rfl⟩
abbrev main_c_20 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_21 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_22 : Ref sig .tc := ⟨.hbm, 78, rfl⟩
abbrev main_v50 : Ref sig .tc := ⟨.hbm, 79, rfl⟩
abbrev main_v51 : Ref sig .tc := ⟨.hbm, 80, rfl⟩
abbrev main_c_23 : Ref sig .tc := ⟨.hbm, 81, rfl⟩
abbrev main_c_24 : Ref sig .tc := ⟨.hbm, 82, rfl⟩
abbrev main_c_25 : Ref sig .tc := ⟨.hbm, 83, rfl⟩
abbrev main_v52 : Ref sig .tc := ⟨.hbm, 84, rfl⟩
abbrev main_c_26 : Ref sig .tc := ⟨.hbm, 85, rfl⟩
abbrev main_c_27 : Ref sig .tc := ⟨.hbm, 86, rfl⟩
abbrev main_c_28 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_29 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_30 : Ref sig .tc := ⟨.hbm, 97, rfl⟩
abbrev main_v61 : Ref sig .tc := ⟨.hbm, 98, rfl⟩
abbrev main_v62 : Ref sig .tc := ⟨.hbm, 99, rfl⟩
abbrev main_c_31 : Ref sig .tc := ⟨.hbm, 100, rfl⟩
abbrev main_c_32 : Ref sig .tc := ⟨.hbm, 101, rfl⟩
abbrev main_c_33 : Ref sig .tc := ⟨.hbm, 102, rfl⟩
abbrev main_v63 : Ref sig .tc := ⟨.hbm, 103, rfl⟩
abbrev main_c_34 : Ref sig .tc := ⟨.hbm, 104, rfl⟩
abbrev main_c_35 : Ref sig .tc := ⟨.hbm, 105, rfl⟩
abbrev main_c_36 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_37 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_38 : Ref sig .tc := ⟨.hbm, 116, rfl⟩
abbrev main_v72 : Ref sig .tc := ⟨.hbm, 117, rfl⟩
abbrev main_v73 : Ref sig .tc := ⟨.hbm, 118, rfl⟩
abbrev main_c_39 : Ref sig .tc := ⟨.hbm, 119, rfl⟩
abbrev main_c_40 : Ref sig .tc := ⟨.hbm, 120, rfl⟩
abbrev main_c_41 : Ref sig .tc := ⟨.hbm, 121, rfl⟩
abbrev main_v74 : Ref sig .tc := ⟨.hbm, 122, rfl⟩
abbrev main_c_42 : Ref sig .tc := ⟨.hbm, 123, rfl⟩
abbrev main_c_43 : Ref sig .tc := ⟨.hbm, 124, rfl⟩
abbrev main_c_44 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_45 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_cst_46 : Ref sig .tc := ⟨.hbm, 135, rfl⟩
abbrev main_v83 : Ref sig .tc := ⟨.hbm, 136, rfl⟩
abbrev main_v84 : Ref sig .tc := ⟨.hbm, 137, rfl⟩
abbrev main_c_47 : Ref sig .tc := ⟨.hbm, 138, rfl⟩
abbrev main_c_48 : Ref sig .tc := ⟨.hbm, 139, rfl⟩
abbrev main_c_49 : Ref sig .tc := ⟨.hbm, 140, rfl⟩
abbrev main_v85 : Ref sig .tc := ⟨.hbm, 141, rfl⟩
abbrev main_c_50 : Ref sig .tc := ⟨.hbm, 142, rfl⟩
abbrev main_c_51 : Ref sig .tc := ⟨.hbm, 143, rfl⟩
abbrev main_c_52 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_53 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_54 : Ref sig .tc := ⟨.hbm, 154, rfl⟩
abbrev main_v94 : Ref sig .tc := ⟨.hbm, 155, rfl⟩
abbrev main_v95 : Ref sig .tc := ⟨.hbm, 156, rfl⟩
abbrev main_c_55 : Ref sig .tc := ⟨.hbm, 157, rfl⟩
abbrev main_c_56 : Ref sig .tc := ⟨.hbm, 158, rfl⟩
abbrev main_c_57 : Ref sig .tc := ⟨.hbm, 159, rfl⟩
abbrev main_v96 : Ref sig .tc := ⟨.hbm, 160, rfl⟩
abbrev main_c_58 : Ref sig .tc := ⟨.hbm, 161, rfl⟩
abbrev main_c_59 : Ref sig .tc := ⟨.hbm, 162, rfl⟩
abbrev main_c_60 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_cst_61 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_cst_62 : Ref sig .tc := ⟨.hbm, 173, rfl⟩
abbrev main_v105 : Ref sig .tc := ⟨.hbm, 174, rfl⟩
abbrev main_v106 : Ref sig .tc := ⟨.hbm, 175, rfl⟩
abbrev main_c_63 : Ref sig .tc := ⟨.hbm, 176, rfl⟩
abbrev main_c_64 : Ref sig .tc := ⟨.hbm, 177, rfl⟩
abbrev main_c_65 : Ref sig .tc := ⟨.hbm, 178, rfl⟩
abbrev main_v107 : Ref sig .tc := ⟨.hbm, 179, rfl⟩
abbrev main_c_66 : Ref sig .tc := ⟨.hbm, 180, rfl⟩
abbrev main_c_67 : Ref sig .tc := ⟨.hbm, 181, rfl⟩
abbrev main_c_68 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_cst_69 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_cst_70 : Ref sig .tc := ⟨.hbm, 192, rfl⟩
abbrev main_v116 : Ref sig .tc := ⟨.hbm, 193, rfl⟩
abbrev main_v117 : Ref sig .tc := ⟨.hbm, 194, rfl⟩
abbrev main_c_71 : Ref sig .tc := ⟨.hbm, 195, rfl⟩
abbrev main_c_72 : Ref sig .tc := ⟨.hbm, 196, rfl⟩
abbrev main_c_73 : Ref sig .tc := ⟨.hbm, 197, rfl⟩
abbrev main_v118 : Ref sig .tc := ⟨.hbm, 198, rfl⟩
abbrev main_c_74 : Ref sig .tc := ⟨.hbm, 199, rfl⟩
abbrev main_c_75 : Ref sig .tc := ⟨.hbm, 200, rfl⟩
abbrev main_c_76 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_cst_77 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_cst_78 : Ref sig .tc := ⟨.hbm, 211, rfl⟩
abbrev main_v127 : Ref sig .tc := ⟨.hbm, 212, rfl⟩
abbrev main_v128 : Ref sig .tc := ⟨.hbm, 213, rfl⟩
abbrev main_c_79 : Ref sig .tc := ⟨.hbm, 214, rfl⟩
abbrev main_c_80 : Ref sig .tc := ⟨.hbm, 215, rfl⟩
abbrev main_c_81 : Ref sig .tc := ⟨.hbm, 216, rfl⟩
abbrev main_v129 : Ref sig .tc := ⟨.hbm, 217, rfl⟩
abbrev main_c_82 : Ref sig .tc := ⟨.hbm, 218, rfl⟩
abbrev main_c_83 : Ref sig .tc := ⟨.hbm, 219, rfl⟩
abbrev main_c_84 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_cst_85 : Ref sig .tc := ⟨.hbm, 226, rfl⟩
abbrev main_v135 : Ref sig .tc := ⟨.hbm, 227, rfl⟩
abbrev main_v136 : Ref sig .tc := ⟨.hbm, 228, rfl⟩
abbrev main_v137 : Ref sig .tc := ⟨.hbm, 229, rfl⟩
abbrev main_cst_86 : Ref sig .tc := ⟨.hbm, 230, rfl⟩
abbrev main_v138 : Ref sig .tc := ⟨.hbm, 231, rfl⟩
abbrev main_v139 : Ref sig .tc := ⟨.hbm, 232, rfl⟩
abbrev main_c_87 : Ref sig .tc := ⟨.hbm, 233, rfl⟩
abbrev main_c_88 : Ref sig .tc := ⟨.hbm, 234, rfl⟩
abbrev main_c_89 : Ref sig .tc := ⟨.hbm, 235, rfl⟩
abbrev main_v140 : Ref sig .tc := ⟨.hbm, 236, rfl⟩
abbrev main_c_90 : Ref sig .tc := ⟨.hbm, 237, rfl⟩
abbrev main_c_91 : Ref sig .tc := ⟨.hbm, 238, rfl⟩
abbrev main_c_92 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_v144 : Ref sig .tc := ⟨.hbm, 243, rfl⟩
abbrev main_v145 : Ref sig .tc := ⟨.hbm, 244, rfl⟩
abbrev main_cst_93 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_94 : Ref sig .tc := ⟨.hbm, 249, rfl⟩
abbrev main_v149 : Ref sig .tc := ⟨.hbm, 250, rfl⟩
abbrev main_v150 : Ref sig .tc := ⟨.hbm, 251, rfl⟩
abbrev main_c_95 : Ref sig .tc := ⟨.hbm, 252, rfl⟩
abbrev main_c_96 : Ref sig .tc := ⟨.hbm, 253, rfl⟩
abbrev main_c_97 : Ref sig .tc := ⟨.hbm, 254, rfl⟩
abbrev main_v151 : Ref sig .tc := ⟨.hbm, 255, rfl⟩
abbrev main_c_98 : Ref sig .tc := ⟨.hbm, 256, rfl⟩
abbrev main_c_99 : Ref sig .tc := ⟨.hbm, 257, rfl⟩
abbrev main_c_100 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_cst_101 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_cst_102 : Ref sig .tc := ⟨.hbm, 268, rfl⟩
abbrev main_v160 : Ref sig .tc := ⟨.hbm, 269, rfl⟩
abbrev main_v161 : Ref sig .tc := ⟨.hbm, 270, rfl⟩
abbrev main_c_103 : Ref sig .tc := ⟨.hbm, 271, rfl⟩
abbrev main_c_104 : Ref sig .tc := ⟨.hbm, 272, rfl⟩
abbrev main_c_105 : Ref sig .tc := ⟨.hbm, 273, rfl⟩
abbrev main_v162 : Ref sig .tc := ⟨.hbm, 274, rfl⟩
abbrev main_c_106 : Ref sig .tc := ⟨.hbm, 275, rfl⟩
abbrev main_c_107 : Ref sig .tc := ⟨.hbm, 276, rfl⟩
abbrev main_c_108 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_cst_109 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_cst_110 : Ref sig .tc := ⟨.hbm, 287, rfl⟩
abbrev main_v171 : Ref sig .tc := ⟨.hbm, 288, rfl⟩
abbrev main_v172 : Ref sig .tc := ⟨.hbm, 289, rfl⟩
abbrev main_c_111 : Ref sig .tc := ⟨.hbm, 290, rfl⟩
abbrev main_c_112 : Ref sig .tc := ⟨.hbm, 291, rfl⟩
abbrev main_c_113 : Ref sig .tc := ⟨.hbm, 292, rfl⟩
abbrev main_v173 : Ref sig .tc := ⟨.hbm, 293, rfl⟩
abbrev main_c_114 : Ref sig .tc := ⟨.hbm, 294, rfl⟩
abbrev main_c_115 : Ref sig .tc := ⟨.hbm, 295, rfl⟩
abbrev main_c_116 : Ref sig .tc := ⟨.hbm, 296, rfl⟩
abbrev main_v174 : Ref sig .tc := ⟨.hbm, 297, rfl⟩
abbrev main_v175 : Ref sig .tc := ⟨.hbm, 298, rfl⟩
abbrev main_v176 : Ref sig .tc := ⟨.hbm, 299, rfl⟩
abbrev main_v177 : Ref sig .tc := ⟨.hbm, 300, rfl⟩
abbrev main_v178 : Ref sig .tc := ⟨.hbm, 301, rfl⟩
abbrev main_cst_117 : Ref sig .tc := ⟨.hbm, 302, rfl⟩
abbrev main_v179 : Ref sig .tc := ⟨.hbm, 303, rfl⟩
abbrev main_v180 : Ref sig .tc := ⟨.hbm, 304, rfl⟩
abbrev main_v181 : Ref sig .tc := ⟨.hbm, 305, rfl⟩
abbrev main_cst_118 : Ref sig .tc := ⟨.hbm, 306, rfl⟩
abbrev main_v182 : Ref sig .tc := ⟨.hbm, 307, rfl⟩
abbrev main_v183 : Ref sig .tc := ⟨.hbm, 308, rfl⟩
abbrev main_c_119 : Ref sig .tc := ⟨.hbm, 309, rfl⟩
abbrev main_c_120 : Ref sig .tc := ⟨.hbm, 310, rfl⟩
abbrev main_c_121 : Ref sig .tc := ⟨.hbm, 311, rfl⟩
abbrev main_v184 : Ref sig .tc := ⟨.hbm, 312, rfl⟩
abbrev main_c_122 : Ref sig .tc := ⟨.hbm, 313, rfl⟩
abbrev main_c_123 : Ref sig .tc := ⟨.hbm, 314, rfl⟩
abbrev main_c_124 : Ref sig .tc := ⟨.hbm, 315, rfl⟩
abbrev main_v185 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_cst_125 : Ref sig .tc := ⟨.hbm, 321, rfl⟩
abbrev main_v190 : Ref sig .tc := ⟨.hbm, 322, rfl⟩
abbrev main_v191 : Ref sig .tc := ⟨.hbm, 323, rfl⟩
abbrev main_v192 : Ref sig .tc := ⟨.hbm, 324, rfl⟩
abbrev main_cst_126 : Ref sig .tc := ⟨.hbm, 325, rfl⟩
abbrev main_v193 : Ref sig .tc := ⟨.hbm, 326, rfl⟩
abbrev main_v194 : Ref sig .tc := ⟨.hbm, 327, rfl⟩
abbrev main_c_127 : Ref sig .tc := ⟨.hbm, 328, rfl⟩
abbrev main_c_128 : Ref sig .tc := ⟨.hbm, 329, rfl⟩
abbrev main_c_129 : Ref sig .tc := ⟨.hbm, 330, rfl⟩
abbrev main_v195 : Ref sig .tc := ⟨.hbm, 331, rfl⟩
abbrev main_c_130 : Ref sig .tc := ⟨.hbm, 332, rfl⟩
abbrev main_c_131 : Ref sig .tc := ⟨.hbm, 333, rfl⟩
abbrev main_c_132 : Ref sig .tc := ⟨.hbm, 334, rfl⟩
abbrev main_v196 : Ref sig .tc := ⟨.hbm, 335, rfl⟩
abbrev main_v197 : Ref sig .tc := ⟨.hbm, 336, rfl⟩
abbrev main_v198 : Ref sig .tc := ⟨.hbm, 337, rfl⟩
abbrev main_v199 : Ref sig .tc := ⟨.hbm, 338, rfl⟩
abbrev main_v200 : Ref sig .tc := ⟨.hbm, 339, rfl⟩
abbrev main_cst_133 : Ref sig .tc := ⟨.hbm, 340, rfl⟩
abbrev main_v201 : Ref sig .tc := ⟨.hbm, 341, rfl⟩
abbrev main_v202 : Ref sig .tc := ⟨.hbm, 342, rfl⟩
abbrev main_v203 : Ref sig .tc := ⟨.hbm, 343, rfl⟩
abbrev main_cst_134 : Ref sig .tc := ⟨.hbm, 344, rfl⟩
abbrev main_v204 : Ref sig .tc := ⟨.hbm, 345, rfl⟩
abbrev main_v205 : Ref sig .tc := ⟨.hbm, 346, rfl⟩
abbrev main_c_135 : Ref sig .tc := ⟨.hbm, 347, rfl⟩
abbrev main_c_136 : Ref sig .tc := ⟨.hbm, 348, rfl⟩
abbrev main_c_137 : Ref sig .tc := ⟨.hbm, 349, rfl⟩
abbrev main_v206 : Ref sig .tc := ⟨.hbm, 350, rfl⟩
abbrev main_c_138 : Ref sig .tc := ⟨.hbm, 351, rfl⟩
abbrev main_c_139 : Ref sig .tc := ⟨.hbm, 352, rfl⟩
abbrev main_c_140 : Ref sig .tc := ⟨.hbm, 353, rfl⟩
abbrev main_v207 : Ref sig .tc := ⟨.hbm, 354, rfl⟩
abbrev main_v208 : Ref sig .tc := ⟨.hbm, 355, rfl⟩
abbrev main_v209 : Ref sig .tc := ⟨.hbm, 356, rfl⟩
abbrev main_v210 : Ref sig .tc := ⟨.hbm, 357, rfl⟩
abbrev main_v211 : Ref sig .tc := ⟨.hbm, 358, rfl⟩
abbrev main_cst_141 : Ref sig .tc := ⟨.hbm, 359, rfl⟩
abbrev main_v212 : Ref sig .tc := ⟨.hbm, 360, rfl⟩
abbrev main_v213 : Ref sig .tc := ⟨.hbm, 361, rfl⟩
abbrev main_v214 : Ref sig .tc := ⟨.hbm, 362, rfl⟩
abbrev main_cst_142 : Ref sig .tc := ⟨.hbm, 363, rfl⟩
abbrev main_v215 : Ref sig .tc := ⟨.hbm, 364, rfl⟩
abbrev main_v216 : Ref sig .tc := ⟨.hbm, 365, rfl⟩
abbrev main_c_143 : Ref sig .tc := ⟨.hbm, 366, rfl⟩
abbrev main_c_144 : Ref sig .tc := ⟨.hbm, 367, rfl⟩
abbrev main_c_145 : Ref sig .tc := ⟨.hbm, 368, rfl⟩
abbrev main_v217 : Ref sig .tc := ⟨.hbm, 369, rfl⟩
abbrev main_c_146 : Ref sig .tc := ⟨.hbm, 370, rfl⟩
abbrev main_c_147 : Ref sig .tc := ⟨.hbm, 371, rfl⟩
abbrev main_c_148 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_v221 : Ref sig .tc := ⟨.hbm, 376, rfl⟩
abbrev main_v222 : Ref sig .tc := ⟨.hbm, 377, rfl⟩
abbrev main_cst_149 : Ref sig .tc := ⟨.hbm, 378, rfl⟩
abbrev main_v223 : Ref sig .tc := ⟨.hbm, 379, rfl⟩
abbrev main_v224 : Ref sig .tc := ⟨.hbm, 380, rfl⟩
abbrev main_v225 : Ref sig .tc := ⟨.hbm, 381, rfl⟩
abbrev main_cst_150 : Ref sig .tc := ⟨.hbm, 382, rfl⟩
abbrev main_v226 : Ref sig .tc := ⟨.hbm, 383, rfl⟩
abbrev main_v227 : Ref sig .tc := ⟨.hbm, 384, rfl⟩
abbrev main_c_151 : Ref sig .tc := ⟨.hbm, 385, rfl⟩
abbrev main_c_152 : Ref sig .tc := ⟨.hbm, 386, rfl⟩
abbrev main_c_153 : Ref sig .tc := ⟨.hbm, 387, rfl⟩
abbrev main_v228 : Ref sig .tc := ⟨.hbm, 388, rfl⟩
abbrev main_c_154 : Ref sig .tc := ⟨.hbm, 389, rfl⟩
abbrev main_c_155 : Ref sig .tc := ⟨.hbm, 390, rfl⟩
abbrev main_c_156 : Ref sig .tc := ⟨.hbm, 391, rfl⟩
abbrev main_v229 : Ref sig .tc := ⟨.hbm, 392, rfl⟩
abbrev main_v230 : Ref sig .tc := ⟨.hbm, 393, rfl⟩
abbrev main_v231 : Ref sig .tc := ⟨.hbm, 394, rfl⟩
abbrev main_v232 : Ref sig .tc := ⟨.hbm, 395, rfl⟩
abbrev main_v233 : Ref sig .tc := ⟨.hbm, 396, rfl⟩
abbrev main_cst_157 : Ref sig .tc := ⟨.hbm, 397, rfl⟩
abbrev main_v234 : Ref sig .tc := ⟨.hbm, 398, rfl⟩
abbrev main_v235 : Ref sig .tc := ⟨.hbm, 399, rfl⟩
abbrev main_v236 : Ref sig .tc := ⟨.hbm, 400, rfl⟩
abbrev main_cst_158 : Ref sig .tc := ⟨.hbm, 401, rfl⟩
abbrev main_v237 : Ref sig .tc := ⟨.hbm, 402, rfl⟩
abbrev main_v238 : Ref sig .tc := ⟨.hbm, 403, rfl⟩
abbrev main_c_159 : Ref sig .tc := ⟨.hbm, 404, rfl⟩
abbrev main_c_160 : Ref sig .tc := ⟨.hbm, 405, rfl⟩
abbrev main_c_161 : Ref sig .tc := ⟨.hbm, 406, rfl⟩
abbrev main_v239 : Ref sig .tc := ⟨.hbm, 407, rfl⟩
abbrev main_c_162 : Ref sig .tc := ⟨.hbm, 408, rfl⟩
abbrev main_c_163 : Ref sig .tc := ⟨.hbm, 409, rfl⟩
abbrev main_c_164 : Ref sig .tc := ⟨.hbm, 410, rfl⟩
abbrev main_v240 : Ref sig .tc := ⟨.hbm, 411, rfl⟩
abbrev main_v241 : Ref sig .tc := ⟨.hbm, 412, rfl⟩
abbrev main_v242 : Ref sig .tc := ⟨.hbm, 413, rfl⟩
abbrev main_v243 : Ref sig .tc := ⟨.hbm, 414, rfl⟩
abbrev main_v244 : Ref sig .tc := ⟨.hbm, 415, rfl⟩
abbrev main_cst_165 : Ref sig .tc := ⟨.hbm, 416, rfl⟩
abbrev main_v245 : Ref sig .tc := ⟨.hbm, 417, rfl⟩
abbrev main_v246 : Ref sig .tc := ⟨.hbm, 418, rfl⟩
abbrev main_v247 : Ref sig .tc := ⟨.hbm, 419, rfl⟩
abbrev main_cst_166 : Ref sig .tc := ⟨.hbm, 420, rfl⟩
abbrev main_v248 : Ref sig .tc := ⟨.hbm, 421, rfl⟩
abbrev main_v249 : Ref sig .tc := ⟨.hbm, 422, rfl⟩
abbrev main_c_167 : Ref sig .tc := ⟨.hbm, 423, rfl⟩
abbrev main_c_168 : Ref sig .tc := ⟨.hbm, 424, rfl⟩
abbrev main_c_169 : Ref sig .tc := ⟨.hbm, 425, rfl⟩
abbrev main_v250 : Ref sig .tc := ⟨.hbm, 426, rfl⟩
abbrev main_c_170 : Ref sig .tc := ⟨.hbm, 427, rfl⟩
abbrev main_c_171 : Ref sig .tc := ⟨.hbm, 428, rfl⟩
abbrev main_c_172 : Ref sig .tc := ⟨.hbm, 429, rfl⟩
abbrev main_v251 : Ref sig .tc := ⟨.hbm, 430, rfl⟩
abbrev main_v252 : Ref sig .tc := ⟨.hbm, 431, rfl⟩
abbrev main_v253 : Ref sig .tc := ⟨.hbm, 432, rfl⟩
abbrev main_v254 : Ref sig .tc := ⟨.hbm, 433, rfl⟩
abbrev main_v255 : Ref sig .tc := ⟨.hbm, 434, rfl⟩
abbrev main_cst_173 : Ref sig .tc := ⟨.hbm, 435, rfl⟩
abbrev main_v256 : Ref sig .tc := ⟨.hbm, 436, rfl⟩
abbrev main_v257 : Ref sig .tc := ⟨.hbm, 437, rfl⟩
abbrev main_v258 : Ref sig .tc := ⟨.hbm, 438, rfl⟩
abbrev main_cst_174 : Ref sig .tc := ⟨.hbm, 439, rfl⟩
abbrev main_v259 : Ref sig .tc := ⟨.hbm, 440, rfl⟩
abbrev main_v260 : Ref sig .tc := ⟨.hbm, 441, rfl⟩
abbrev main_c_175 : Ref sig .tc := ⟨.hbm, 442, rfl⟩
abbrev main_c_176 : Ref sig .tc := ⟨.hbm, 443, rfl⟩
abbrev main_c_177 : Ref sig .tc := ⟨.hbm, 444, rfl⟩
abbrev main_v261 : Ref sig .tc := ⟨.hbm, 445, rfl⟩
abbrev main_c_178 : Ref sig .tc := ⟨.hbm, 446, rfl⟩
abbrev main_c_179 : Ref sig .tc := ⟨.hbm, 447, rfl⟩
abbrev main_c_180 : Ref sig .tc := ⟨.hbm, 448, rfl⟩
abbrev main_v262 : Ref sig .tc := ⟨.hbm, 449, rfl⟩
abbrev main_v263 : Ref sig .tc := ⟨.hbm, 450, rfl⟩
abbrev main_v264 : Ref sig .tc := ⟨.hbm, 451, rfl⟩
abbrev main_v265 : Ref sig .tc := ⟨.hbm, 452, rfl⟩
abbrev main_v266 : Ref sig .tc := ⟨.hbm, 453, rfl⟩
abbrev main_cst_181 : Ref sig .tc := ⟨.hbm, 454, rfl⟩
abbrev main_v267 : Ref sig .tc := ⟨.hbm, 455, rfl⟩
abbrev main_v268 : Ref sig .tc := ⟨.hbm, 456, rfl⟩
abbrev main_v269 : Ref sig .tc := ⟨.hbm, 457, rfl⟩
abbrev main_cst_182 : Ref sig .tc := ⟨.hbm, 458, rfl⟩
abbrev main_v270 : Ref sig .tc := ⟨.hbm, 459, rfl⟩
abbrev main_v271 : Ref sig .tc := ⟨.hbm, 460, rfl⟩
abbrev main_c_183 : Ref sig .tc := ⟨.hbm, 461, rfl⟩
abbrev main_c_184 : Ref sig .tc := ⟨.hbm, 462, rfl⟩
abbrev main_c_185 : Ref sig .tc := ⟨.hbm, 463, rfl⟩
abbrev main_v272 : Ref sig .tc := ⟨.hbm, 464, rfl⟩
abbrev main_c_186 : Ref sig .tc := ⟨.hbm, 465, rfl⟩
abbrev main_c_187 : Ref sig .tc := ⟨.hbm, 466, rfl⟩
abbrev main_c_188 : Ref sig .tc := ⟨.hbm, 467, rfl⟩
abbrev main_v273 : Ref sig .tc := ⟨.hbm, 468, rfl⟩
abbrev main_v274 : Ref sig .tc := ⟨.hbm, 469, rfl⟩
abbrev main_v275 : Ref sig .tc := ⟨.hbm, 470, rfl⟩
abbrev main_v276 : Ref sig .tc := ⟨.hbm, 471, rfl⟩
abbrev main_v277 : Ref sig .tc := ⟨.hbm, 472, rfl⟩
abbrev main_cst_189 : Ref sig .tc := ⟨.hbm, 473, rfl⟩
abbrev main_v278 : Ref sig .tc := ⟨.hbm, 474, rfl⟩
abbrev main_v279 : Ref sig .tc := ⟨.hbm, 475, rfl⟩
abbrev main_v280 : Ref sig .tc := ⟨.hbm, 476, rfl⟩
abbrev main_cst_190 : Ref sig .tc := ⟨.hbm, 477, rfl⟩
abbrev main_v281 : Ref sig .tc := ⟨.hbm, 478, rfl⟩
abbrev main_v282 : Ref sig .tc := ⟨.hbm, 479, rfl⟩
abbrev main_c_191 : Ref sig .tc := ⟨.hbm, 480, rfl⟩
abbrev main_c_192 : Ref sig .tc := ⟨.hbm, 481, rfl⟩
abbrev main_c_193 : Ref sig .tc := ⟨.hbm, 482, rfl⟩
abbrev main_v283 : Ref sig .tc := ⟨.hbm, 483, rfl⟩
abbrev main_c_194 : Ref sig .tc := ⟨.hbm, 484, rfl⟩
abbrev main_c_195 : Ref sig .tc := ⟨.hbm, 485, rfl⟩
abbrev main_c_196 : Ref sig .tc := ⟨.hbm, 486, rfl⟩
abbrev main_v284 : Ref sig .tc := ⟨.hbm, 487, rfl⟩
abbrev main_v285 : Ref sig .tc := ⟨.hbm, 488, rfl⟩
abbrev main_v286 : Ref sig .tc := ⟨.hbm, 489, rfl⟩
abbrev main_v287 : Ref sig .tc := ⟨.hbm, 490, rfl⟩
abbrev main_v288 : Ref sig .tc := ⟨.hbm, 491, rfl⟩
abbrev main_cst_197 : Ref sig .tc := ⟨.hbm, 492, rfl⟩
abbrev main_v289 : Ref sig .tc := ⟨.hbm, 493, rfl⟩
abbrev main_v290 : Ref sig .tc := ⟨.hbm, 494, rfl⟩
abbrev main_v291 : Ref sig .tc := ⟨.hbm, 495, rfl⟩
abbrev main_cst_198 : Ref sig .tc := ⟨.hbm, 496, rfl⟩
abbrev main_v292 : Ref sig .tc := ⟨.hbm, 497, rfl⟩
abbrev main_v293 : Ref sig .tc := ⟨.hbm, 498, rfl⟩
abbrev main_c_199 : Ref sig .tc := ⟨.hbm, 499, rfl⟩
abbrev main_c_200 : Ref sig .tc := ⟨.hbm, 500, rfl⟩
abbrev main_c_201 : Ref sig .tc := ⟨.hbm, 501, rfl⟩
abbrev main_v294 : Ref sig .tc := ⟨.hbm, 502, rfl⟩
abbrev main_c_202 : Ref sig .tc := ⟨.hbm, 503, rfl⟩
abbrev main_c_203 : Ref sig .tc := ⟨.hbm, 504, rfl⟩
abbrev main_c_204 : Ref sig .tc := ⟨.hbm, 505, rfl⟩
abbrev main_v295 : Ref sig .tc := ⟨.hbm, 506, rfl⟩
abbrev main_v296 : Ref sig .tc := ⟨.hbm, 507, rfl⟩
abbrev main_v297 : Ref sig .tc := ⟨.hbm, 508, rfl⟩
abbrev main_v298 : Ref sig .tc := ⟨.hbm, 509, rfl⟩
abbrev main_v299 : Ref sig .tc := ⟨.hbm, 510, rfl⟩
abbrev main_cst_205 : Ref sig .tc := ⟨.hbm, 511, rfl⟩
abbrev main_v300 : Ref sig .tc := ⟨.hbm, 512, rfl⟩
abbrev main_v301 : Ref sig .tc := ⟨.hbm, 513, rfl⟩
abbrev main_v302 : Ref sig .tc := ⟨.hbm, 514, rfl⟩
abbrev main_cst_206 : Ref sig .tc := ⟨.hbm, 515, rfl⟩
abbrev main_v303 : Ref sig .tc := ⟨.hbm, 516, rfl⟩
abbrev main_v304 : Ref sig .tc := ⟨.hbm, 517, rfl⟩
abbrev main_c_207 : Ref sig .tc := ⟨.hbm, 518, rfl⟩
abbrev main_c_208 : Ref sig .tc := ⟨.hbm, 519, rfl⟩
abbrev main_c_209 : Ref sig .tc := ⟨.hbm, 520, rfl⟩
abbrev main_v305 : Ref sig .tc := ⟨.hbm, 521, rfl⟩
abbrev main_c_210 : Ref sig .tc := ⟨.hbm, 522, rfl⟩
abbrev main_c_211 : Ref sig .tc := ⟨.hbm, 523, rfl⟩
abbrev main_c_212 : Ref sig .tc := ⟨.hbm, 524, rfl⟩
abbrev main_v306 : Ref sig .tc := ⟨.hbm, 525, rfl⟩
abbrev main_v307 : Ref sig .tc := ⟨.hbm, 526, rfl⟩
abbrev main_v308 : Ref sig .tc := ⟨.hbm, 527, rfl⟩
abbrev main_v309 : Ref sig .tc := ⟨.hbm, 528, rfl⟩
abbrev main_v310 : Ref sig .tc := ⟨.hbm, 529, rfl⟩
abbrev main_cst_213 : Ref sig .tc := ⟨.hbm, 530, rfl⟩
abbrev main_v311 : Ref sig .tc := ⟨.hbm, 531, rfl⟩
abbrev main_v312 : Ref sig .tc := ⟨.hbm, 532, rfl⟩
abbrev main_v313 : Ref sig .tc := ⟨.hbm, 533, rfl⟩
abbrev main_cst_214 : Ref sig .tc := ⟨.hbm, 534, rfl⟩
abbrev main_v314 : Ref sig .tc := ⟨.hbm, 535, rfl⟩
abbrev main_v315 : Ref sig .tc := ⟨.hbm, 536, rfl⟩
abbrev main_c_215 : Ref sig .tc := ⟨.hbm, 537, rfl⟩
abbrev main_c_216 : Ref sig .tc := ⟨.hbm, 538, rfl⟩
abbrev main_c_217 : Ref sig .tc := ⟨.hbm, 539, rfl⟩
abbrev main_v316 : Ref sig .tc := ⟨.hbm, 540, rfl⟩
abbrev main_c_218 : Ref sig .tc := ⟨.hbm, 541, rfl⟩
abbrev main_c_219 : Ref sig .tc := ⟨.hbm, 542, rfl⟩
abbrev main_c_220 : Ref sig .tc := ⟨.hbm, 543, rfl⟩
abbrev main_v317 : Ref sig .tc := ⟨.hbm, 544, rfl⟩
abbrev main_v318 : Ref sig .tc := ⟨.hbm, 545, rfl⟩
abbrev main_v319 : Ref sig .tc := ⟨.hbm, 546, rfl⟩
abbrev main_v320 : Ref sig .tc := ⟨.hbm, 547, rfl⟩
abbrev main_v321 : Ref sig .tc := ⟨.hbm, 548, rfl⟩
abbrev main_cst_221 : Ref sig .tc := ⟨.hbm, 549, rfl⟩
abbrev main_v322 : Ref sig .tc := ⟨.hbm, 550, rfl⟩
abbrev main_v323 : Ref sig .tc := ⟨.hbm, 551, rfl⟩
abbrev main_v324 : Ref sig .tc := ⟨.hbm, 552, rfl⟩
abbrev main_cst_222 : Ref sig .tc := ⟨.hbm, 553, rfl⟩
abbrev main_v325 : Ref sig .tc := ⟨.hbm, 554, rfl⟩
abbrev main_v326 : Ref sig .tc := ⟨.hbm, 555, rfl⟩
abbrev main_c_223 : Ref sig .tc := ⟨.hbm, 556, rfl⟩
abbrev main_c_224 : Ref sig .tc := ⟨.hbm, 557, rfl⟩
abbrev main_c_225 : Ref sig .tc := ⟨.hbm, 558, rfl⟩
abbrev main_v327 : Ref sig .tc := ⟨.hbm, 559, rfl⟩
abbrev main_c_226 : Ref sig .tc := ⟨.hbm, 560, rfl⟩
abbrev main_c_227 : Ref sig .tc := ⟨.hbm, 561, rfl⟩
abbrev main_c_228 : Ref sig .tc := ⟨.hbm, 562, rfl⟩
abbrev main_v328 : Ref sig .tc := ⟨.hbm, 563, rfl⟩
abbrev main_v329 : Ref sig .tc := ⟨.hbm, 564, rfl⟩
abbrev main_v330 : Ref sig .tc := ⟨.hbm, 565, rfl⟩
abbrev main_v331 : Ref sig .tc := ⟨.hbm, 566, rfl⟩
abbrev main_v332 : Ref sig .tc := ⟨.hbm, 567, rfl⟩
abbrev main_cst_229 : Ref sig .tc := ⟨.hbm, 568, rfl⟩
abbrev main_v333 : Ref sig .tc := ⟨.hbm, 569, rfl⟩
abbrev main_v334 : Ref sig .tc := ⟨.hbm, 570, rfl⟩
abbrev main_v335 : Ref sig .tc := ⟨.hbm, 571, rfl⟩
abbrev main_cst_230 : Ref sig .tc := ⟨.hbm, 572, rfl⟩
abbrev main_v336 : Ref sig .tc := ⟨.hbm, 573, rfl⟩
abbrev main_v337 : Ref sig .tc := ⟨.hbm, 574, rfl⟩
abbrev main_c_231 : Ref sig .tc := ⟨.hbm, 575, rfl⟩
abbrev main_c_232 : Ref sig .tc := ⟨.hbm, 576, rfl⟩
abbrev main_c_233 : Ref sig .tc := ⟨.hbm, 577, rfl⟩
abbrev main_v338 : Ref sig .tc := ⟨.hbm, 578, rfl⟩
abbrev main_c_234 : Ref sig .tc := ⟨.hbm, 579, rfl⟩
abbrev main_c_235 : Ref sig .tc := ⟨.hbm, 580, rfl⟩
abbrev main_c_236 : Ref sig .tc := ⟨.hbm, 581, rfl⟩
abbrev main_v339 : Ref sig .tc := ⟨.hbm, 582, rfl⟩
abbrev main_v340 : Ref sig .tc := ⟨.hbm, 583, rfl⟩
abbrev main_v341 : Ref sig .tc := ⟨.hbm, 584, rfl⟩
abbrev main_v342 : Ref sig .tc := ⟨.hbm, 585, rfl⟩
abbrev main_v343 : Ref sig .tc := ⟨.hbm, 586, rfl⟩
abbrev main_cst_237 : Ref sig .tc := ⟨.hbm, 587, rfl⟩
abbrev main_v344 : Ref sig .tc := ⟨.hbm, 588, rfl⟩
abbrev main_v345 : Ref sig .tc := ⟨.hbm, 589, rfl⟩
abbrev main_v346 : Ref sig .tc := ⟨.hbm, 590, rfl⟩
abbrev main_cst_238 : Ref sig .tc := ⟨.hbm, 591, rfl⟩
abbrev main_v347 : Ref sig .tc := ⟨.hbm, 592, rfl⟩
abbrev main_v348 : Ref sig .tc := ⟨.hbm, 593, rfl⟩
abbrev main_c_239 : Ref sig .tc := ⟨.hbm, 594, rfl⟩
abbrev main_c_240 : Ref sig .tc := ⟨.hbm, 595, rfl⟩
abbrev main_c_241 : Ref sig .tc := ⟨.hbm, 596, rfl⟩
abbrev main_v349 : Ref sig .tc := ⟨.hbm, 597, rfl⟩
abbrev main_c_242 : Ref sig .tc := ⟨.hbm, 598, rfl⟩
abbrev main_c_243 : Ref sig .tc := ⟨.hbm, 599, rfl⟩
abbrev main_c_244 : Ref sig .tc := ⟨.hbm, 600, rfl⟩
abbrev main_v350 : Ref sig .tc := ⟨.hbm, 601, rfl⟩
abbrev main_v351 : Ref sig .tc := ⟨.hbm, 602, rfl⟩
abbrev main_v352 : Ref sig .tc := ⟨.hbm, 603, rfl⟩
abbrev main_v353 : Ref sig .tc := ⟨.hbm, 604, rfl⟩
abbrev main_v354 : Ref sig .tc := ⟨.hbm, 605, rfl⟩
abbrev main_cst_245 : Ref sig .tc := ⟨.hbm, 606, rfl⟩
abbrev main_v355 : Ref sig .tc := ⟨.hbm, 607, rfl⟩
abbrev main_v356 : Ref sig .tc := ⟨.hbm, 608, rfl⟩
abbrev main_v357 : Ref sig .tc := ⟨.hbm, 609, rfl⟩
abbrev main_cst_246 : Ref sig .tc := ⟨.hbm, 610, rfl⟩
abbrev main_v358 : Ref sig .tc := ⟨.hbm, 611, rfl⟩
abbrev main_v359 : Ref sig .tc := ⟨.hbm, 612, rfl⟩
abbrev main_c_247 : Ref sig .tc := ⟨.hbm, 613, rfl⟩
abbrev main_c_248 : Ref sig .tc := ⟨.hbm, 614, rfl⟩
abbrev main_c_249 : Ref sig .tc := ⟨.hbm, 615, rfl⟩
abbrev main_v360 : Ref sig .tc := ⟨.hbm, 616, rfl⟩
abbrev main_c_250 : Ref sig .tc := ⟨.hbm, 617, rfl⟩
abbrev main_c_251 : Ref sig .tc := ⟨.hbm, 618, rfl⟩
abbrev main_c_252 : Ref sig .tc := ⟨.hbm, 619, rfl⟩
abbrev main_v361 : Ref sig .tc := ⟨.hbm, 620, rfl⟩
abbrev main_v362 : Ref sig .tc := ⟨.hbm, 621, rfl⟩
abbrev main_v363 : Ref sig .tc := ⟨.hbm, 622, rfl⟩
abbrev main_v364 : Ref sig .tc := ⟨.hbm, 623, rfl⟩
abbrev main_v365 : Ref sig .tc := ⟨.hbm, 624, rfl⟩
abbrev main_cst_253 : Ref sig .tc := ⟨.hbm, 625, rfl⟩
abbrev main_v366 : Ref sig .tc := ⟨.hbm, 626, rfl⟩
abbrev main_v367 : Ref sig .tc := ⟨.hbm, 627, rfl⟩
abbrev main_v368 : Ref sig .tc := ⟨.hbm, 628, rfl⟩
abbrev main_cst_254 : Ref sig .tc := ⟨.hbm, 629, rfl⟩
abbrev main_v369 : Ref sig .tc := ⟨.hbm, 630, rfl⟩
abbrev main_v370 : Ref sig .tc := ⟨.hbm, 631, rfl⟩
abbrev main_c_255 : Ref sig .tc := ⟨.hbm, 632, rfl⟩
abbrev main_c_256 : Ref sig .tc := ⟨.hbm, 633, rfl⟩
abbrev main_c_257 : Ref sig .tc := ⟨.hbm, 634, rfl⟩
abbrev main_v371 : Ref sig .tc := ⟨.hbm, 635, rfl⟩
abbrev main_c_258 : Ref sig .tc := ⟨.hbm, 636, rfl⟩
abbrev main_c_259 : Ref sig .tc := ⟨.hbm, 637, rfl⟩
abbrev main_c_260 : Ref sig .tc := ⟨.hbm, 638, rfl⟩
abbrev main_v372 : Ref sig .tc := ⟨.hbm, 639, rfl⟩
abbrev main_v373 : Ref sig .tc := ⟨.hbm, 640, rfl⟩
abbrev main_v374 : Ref sig .tc := ⟨.hbm, 641, rfl⟩
abbrev main_v375 : Ref sig .tc := ⟨.hbm, 642, rfl⟩
abbrev main_v376 : Ref sig .tc := ⟨.hbm, 643, rfl⟩
abbrev main_cst_261 : Ref sig .tc := ⟨.hbm, 644, rfl⟩
abbrev main_v377 : Ref sig .tc := ⟨.hbm, 645, rfl⟩
abbrev main_v378 : Ref sig .tc := ⟨.hbm, 646, rfl⟩
abbrev main_v379 : Ref sig .tc := ⟨.hbm, 647, rfl⟩
abbrev main_cst_262 : Ref sig .tc := ⟨.hbm, 648, rfl⟩
abbrev main_v380 : Ref sig .tc := ⟨.hbm, 649, rfl⟩
abbrev main_v381 : Ref sig .tc := ⟨.hbm, 650, rfl⟩
abbrev main_c_263 : Ref sig .tc := ⟨.hbm, 651, rfl⟩
abbrev main_c_264 : Ref sig .tc := ⟨.hbm, 652, rfl⟩
abbrev main_c_265 : Ref sig .tc := ⟨.hbm, 653, rfl⟩
abbrev main_v382 : Ref sig .tc := ⟨.hbm, 654, rfl⟩
abbrev main_c_266 : Ref sig .tc := ⟨.hbm, 655, rfl⟩
abbrev main_c_267 : Ref sig .tc := ⟨.hbm, 656, rfl⟩
abbrev main_c_268 : Ref sig .tc := ⟨.hbm, 657, rfl⟩
abbrev main_v383 : Ref sig .tc := ⟨.hbm, 658, rfl⟩
abbrev main_v384 : Ref sig .tc := ⟨.hbm, 659, rfl⟩
abbrev main_v385 : Ref sig .tc := ⟨.hbm, 660, rfl⟩
abbrev main_v386 : Ref sig .tc := ⟨.hbm, 661, rfl⟩
abbrev main_v387 : Ref sig .tc := ⟨.hbm, 662, rfl⟩
abbrev main_cst_269 : Ref sig .tc := ⟨.hbm, 663, rfl⟩
abbrev main_v388 : Ref sig .tc := ⟨.hbm, 664, rfl⟩
abbrev main_v389 : Ref sig .tc := ⟨.hbm, 665, rfl⟩
abbrev main_v390 : Ref sig .tc := ⟨.hbm, 666, rfl⟩
abbrev main_cst_270 : Ref sig .tc := ⟨.hbm, 667, rfl⟩
abbrev main_v391 : Ref sig .tc := ⟨.hbm, 668, rfl⟩
abbrev main_v392 : Ref sig .tc := ⟨.hbm, 669, rfl⟩
abbrev main_c_271 : Ref sig .tc := ⟨.hbm, 670, rfl⟩
abbrev main_c_272 : Ref sig .tc := ⟨.hbm, 671, rfl⟩
abbrev main_c_273 : Ref sig .tc := ⟨.hbm, 672, rfl⟩
abbrev main_v393 : Ref sig .tc := ⟨.hbm, 673, rfl⟩
abbrev main_c_274 : Ref sig .tc := ⟨.hbm, 674, rfl⟩
abbrev main_c_275 : Ref sig .tc := ⟨.hbm, 675, rfl⟩
abbrev main_c_276 : Ref sig .tc := ⟨.hbm, 676, rfl⟩
abbrev main_v394 : Ref sig .tc := ⟨.hbm, 677, rfl⟩
abbrev main_v395 : Ref sig .tc := ⟨.hbm, 678, rfl⟩
abbrev main_v396 : Ref sig .tc := ⟨.hbm, 679, rfl⟩
abbrev main_v397 : Ref sig .tc := ⟨.hbm, 680, rfl⟩
abbrev main_v398 : Ref sig .tc := ⟨.hbm, 681, rfl⟩
abbrev main_cst_277 : Ref sig .tc := ⟨.hbm, 682, rfl⟩
abbrev main_v399 : Ref sig .tc := ⟨.hbm, 683, rfl⟩
abbrev main_v400 : Ref sig .tc := ⟨.hbm, 684, rfl⟩
abbrev main_v401 : Ref sig .tc := ⟨.hbm, 685, rfl⟩
abbrev main_cst_278 : Ref sig .tc := ⟨.hbm, 686, rfl⟩
abbrev main_v402 : Ref sig .tc := ⟨.hbm, 687, rfl⟩
abbrev main_v403 : Ref sig .tc := ⟨.hbm, 688, rfl⟩
abbrev main_c_279 : Ref sig .tc := ⟨.hbm, 689, rfl⟩
abbrev main_c_280 : Ref sig .tc := ⟨.hbm, 690, rfl⟩
abbrev main_c_281 : Ref sig .tc := ⟨.hbm, 691, rfl⟩
abbrev main_v404 : Ref sig .tc := ⟨.hbm, 692, rfl⟩
abbrev main_c_282 : Ref sig .tc := ⟨.hbm, 693, rfl⟩
abbrev main_c_283 : Ref sig .tc := ⟨.hbm, 694, rfl⟩
abbrev main_c_284 : Ref sig .tc := ⟨.hbm, 695, rfl⟩
abbrev main_v405 : Ref sig .tc := ⟨.hbm, 696, rfl⟩
abbrev main_v406 : Ref sig .tc := ⟨.hbm, 697, rfl⟩
abbrev main_v407 : Ref sig .tc := ⟨.hbm, 698, rfl⟩
abbrev main_v408 : Ref sig .tc := ⟨.hbm, 699, rfl⟩
abbrev main_v409 : Ref sig .tc := ⟨.hbm, 700, rfl⟩
abbrev main_cst_285 : Ref sig .tc := ⟨.hbm, 701, rfl⟩
abbrev main_v410 : Ref sig .tc := ⟨.hbm, 702, rfl⟩
abbrev main_v411 : Ref sig .tc := ⟨.hbm, 703, rfl⟩
abbrev main_v412 : Ref sig .tc := ⟨.hbm, 704, rfl⟩
abbrev main_cst_286 : Ref sig .tc := ⟨.hbm, 705, rfl⟩
abbrev main_v413 : Ref sig .tc := ⟨.hbm, 706, rfl⟩
abbrev main_v414 : Ref sig .tc := ⟨.hbm, 707, rfl⟩
abbrev main_c_287 : Ref sig .tc := ⟨.hbm, 708, rfl⟩
abbrev main_c_288 : Ref sig .tc := ⟨.hbm, 709, rfl⟩
abbrev main_c_289 : Ref sig .tc := ⟨.hbm, 710, rfl⟩
abbrev main_v415 : Ref sig .tc := ⟨.hbm, 711, rfl⟩
abbrev main_c_290 : Ref sig .tc := ⟨.hbm, 712, rfl⟩
abbrev main_c_291 : Ref sig .tc := ⟨.hbm, 713, rfl⟩
abbrev main_c_292 : Ref sig .tc := ⟨.hbm, 714, rfl⟩
abbrev main_v416 : Ref sig .tc := ⟨.hbm, 715, rfl⟩
abbrev main_v417 : Ref sig .tc := ⟨.hbm, 716, rfl⟩
abbrev main_v418 : Ref sig .tc := ⟨.hbm, 717, rfl⟩
abbrev main_v419 : Ref sig .tc := ⟨.hbm, 718, rfl⟩
abbrev main_v420 : Ref sig .tc := ⟨.hbm, 719, rfl⟩
abbrev main_cst_293 : Ref sig .tc := ⟨.hbm, 720, rfl⟩
abbrev main_v421 : Ref sig .tc := ⟨.hbm, 721, rfl⟩
abbrev main_v422 : Ref sig .tc := ⟨.hbm, 722, rfl⟩
abbrev main_v423 : Ref sig .tc := ⟨.hbm, 723, rfl⟩
abbrev main_cst_294 : Ref sig .tc := ⟨.hbm, 724, rfl⟩
abbrev main_v424 : Ref sig .tc := ⟨.hbm, 725, rfl⟩
abbrev main_v425 : Ref sig .tc := ⟨.hbm, 726, rfl⟩
abbrev main_c_295 : Ref sig .tc := ⟨.hbm, 727, rfl⟩
abbrev main_c_296 : Ref sig .tc := ⟨.hbm, 728, rfl⟩
abbrev main_c_297 : Ref sig .tc := ⟨.hbm, 729, rfl⟩
abbrev main_v426 : Ref sig .tc := ⟨.hbm, 730, rfl⟩
abbrev main_c_298 : Ref sig .tc := ⟨.hbm, 731, rfl⟩
abbrev main_c_299 : Ref sig .tc := ⟨.hbm, 732, rfl⟩
abbrev main_c_300 : Ref sig .tc := ⟨.hbm, 733, rfl⟩
abbrev main_v427 : Ref sig .tc := ⟨.hbm, 734, rfl⟩
abbrev main_v428 : Ref sig .tc := ⟨.hbm, 735, rfl⟩
abbrev main_v429 : Ref sig .tc := ⟨.hbm, 736, rfl⟩
abbrev main_v430 : Ref sig .tc := ⟨.hbm, 737, rfl⟩
abbrev main_v431 : Ref sig .tc := ⟨.hbm, 738, rfl⟩
abbrev main_cst_301 : Ref sig .tc := ⟨.hbm, 739, rfl⟩
abbrev main_v432 : Ref sig .tc := ⟨.hbm, 740, rfl⟩
abbrev main_v433 : Ref sig .tc := ⟨.hbm, 741, rfl⟩
abbrev main_v434 : Ref sig .tc := ⟨.hbm, 742, rfl⟩
abbrev main_cst_302 : Ref sig .tc := ⟨.hbm, 743, rfl⟩
abbrev main_v435 : Ref sig .tc := ⟨.hbm, 744, rfl⟩
abbrev main_v436 : Ref sig .tc := ⟨.hbm, 745, rfl⟩
abbrev main_c_303 : Ref sig .tc := ⟨.hbm, 746, rfl⟩
abbrev main_c_304 : Ref sig .tc := ⟨.hbm, 747, rfl⟩
abbrev main_c_305 : Ref sig .tc := ⟨.hbm, 748, rfl⟩
abbrev main_v437 : Ref sig .tc := ⟨.hbm, 749, rfl⟩
abbrev main_c_306 : Ref sig .tc := ⟨.hbm, 750, rfl⟩
abbrev main_c_307 : Ref sig .tc := ⟨.hbm, 751, rfl⟩
abbrev main_c_308 : Ref sig .tc := ⟨.hbm, 752, rfl⟩
abbrev main_v438 : Ref sig .tc := ⟨.hbm, 753, rfl⟩
abbrev main_v439 : Ref sig .tc := ⟨.hbm, 754, rfl⟩
abbrev main_v440 : Ref sig .tc := ⟨.hbm, 755, rfl⟩
abbrev main_v441 : Ref sig .tc := ⟨.hbm, 756, rfl⟩
abbrev main_v442 : Ref sig .tc := ⟨.hbm, 757, rfl⟩
abbrev main_cst_309 : Ref sig .tc := ⟨.hbm, 758, rfl⟩
abbrev main_v443 : Ref sig .tc := ⟨.hbm, 759, rfl⟩
abbrev main_v444 : Ref sig .tc := ⟨.hbm, 760, rfl⟩
abbrev main_v445 : Ref sig .tc := ⟨.hbm, 761, rfl⟩
abbrev main_cst_310 : Ref sig .tc := ⟨.hbm, 762, rfl⟩
abbrev main_v446 : Ref sig .tc := ⟨.hbm, 763, rfl⟩
abbrev main_v447 : Ref sig .tc := ⟨.hbm, 764, rfl⟩
abbrev main_c_311 : Ref sig .tc := ⟨.hbm, 765, rfl⟩
abbrev main_c_312 : Ref sig .tc := ⟨.hbm, 766, rfl⟩
abbrev main_c_313 : Ref sig .tc := ⟨.hbm, 767, rfl⟩
abbrev main_v448 : Ref sig .tc := ⟨.hbm, 768, rfl⟩
abbrev main_c_314 : Ref sig .tc := ⟨.hbm, 769, rfl⟩
abbrev main_c_315 : Ref sig .tc := ⟨.hbm, 770, rfl⟩
abbrev main_c_316 : Ref sig .tc := ⟨.hbm, 771, rfl⟩
abbrev main_v449 : Ref sig .tc := ⟨.hbm, 772, rfl⟩
abbrev main_v450 : Ref sig .tc := ⟨.hbm, 773, rfl⟩
abbrev main_v451 : Ref sig .tc := ⟨.hbm, 774, rfl⟩
abbrev main_v452 : Ref sig .tc := ⟨.hbm, 775, rfl⟩
abbrev main_v453 : Ref sig .tc := ⟨.hbm, 776, rfl⟩
abbrev main_cst_317 : Ref sig .tc := ⟨.hbm, 777, rfl⟩
abbrev main_v454 : Ref sig .tc := ⟨.hbm, 778, rfl⟩
abbrev main_v455 : Ref sig .tc := ⟨.hbm, 779, rfl⟩
abbrev main_v456 : Ref sig .tc := ⟨.hbm, 780, rfl⟩
abbrev main_cst_318 : Ref sig .tc := ⟨.hbm, 781, rfl⟩
abbrev main_v457 : Ref sig .tc := ⟨.hbm, 782, rfl⟩
abbrev main_v458 : Ref sig .tc := ⟨.hbm, 783, rfl⟩
abbrev main_c_319 : Ref sig .tc := ⟨.hbm, 784, rfl⟩
abbrev main_c_320 : Ref sig .tc := ⟨.hbm, 785, rfl⟩
abbrev main_c_321 : Ref sig .tc := ⟨.hbm, 786, rfl⟩
abbrev main_v459 : Ref sig .tc := ⟨.hbm, 787, rfl⟩
abbrev main_c_322 : Ref sig .tc := ⟨.hbm, 788, rfl⟩
abbrev main_c_323 : Ref sig .tc := ⟨.hbm, 789, rfl⟩
abbrev main_c_324 : Ref sig .tc := ⟨.hbm, 790, rfl⟩
abbrev main_v460 : Ref sig .tc := ⟨.hbm, 791, rfl⟩
abbrev main_v461 : Ref sig .tc := ⟨.hbm, 792, rfl⟩
abbrev main_v462 : Ref sig .tc := ⟨.hbm, 793, rfl⟩
abbrev main_v463 : Ref sig .tc := ⟨.hbm, 794, rfl⟩
abbrev main_v464 : Ref sig .tc := ⟨.hbm, 795, rfl⟩
abbrev main_cst_325 : Ref sig .tc := ⟨.hbm, 796, rfl⟩
abbrev main_v465 : Ref sig .tc := ⟨.hbm, 797, rfl⟩
abbrev main_v466 : Ref sig .tc := ⟨.hbm, 798, rfl⟩
abbrev main_v467 : Ref sig .tc := ⟨.hbm, 799, rfl⟩
abbrev main_cst_326 : Ref sig .tc := ⟨.hbm, 800, rfl⟩
abbrev main_v468 : Ref sig .tc := ⟨.hbm, 801, rfl⟩
abbrev main_v469 : Ref sig .tc := ⟨.hbm, 802, rfl⟩
abbrev main_c_327 : Ref sig .tc := ⟨.hbm, 803, rfl⟩
abbrev main_c_328 : Ref sig .tc := ⟨.hbm, 804, rfl⟩
abbrev main_c_329 : Ref sig .tc := ⟨.hbm, 805, rfl⟩
abbrev main_v470 : Ref sig .tc := ⟨.hbm, 806, rfl⟩
abbrev main_c_330 : Ref sig .tc := ⟨.hbm, 807, rfl⟩
abbrev main_c_331 : Ref sig .tc := ⟨.hbm, 808, rfl⟩
abbrev main_c_332 : Ref sig .tc := ⟨.hbm, 809, rfl⟩
abbrev main_v471 : Ref sig .tc := ⟨.hbm, 810, rfl⟩
abbrev main_v472 : Ref sig .tc := ⟨.hbm, 811, rfl⟩
abbrev main_v473 : Ref sig .tc := ⟨.hbm, 812, rfl⟩
abbrev main_v474 : Ref sig .tc := ⟨.hbm, 813, rfl⟩
abbrev main_v475 : Ref sig .tc := ⟨.hbm, 814, rfl⟩
abbrev main_cst_333 : Ref sig .tc := ⟨.hbm, 815, rfl⟩
abbrev main_v476 : Ref sig .tc := ⟨.hbm, 816, rfl⟩
abbrev main_v477 : Ref sig .tc := ⟨.hbm, 817, rfl⟩
abbrev main_v478 : Ref sig .tc := ⟨.hbm, 818, rfl⟩
abbrev main_cst_334 : Ref sig .tc := ⟨.hbm, 819, rfl⟩
abbrev main_v479 : Ref sig .tc := ⟨.hbm, 820, rfl⟩
abbrev main_v480 : Ref sig .tc := ⟨.hbm, 821, rfl⟩
abbrev main_c_335 : Ref sig .tc := ⟨.hbm, 822, rfl⟩
abbrev main_c_336 : Ref sig .tc := ⟨.hbm, 823, rfl⟩
abbrev main_c_337 : Ref sig .tc := ⟨.hbm, 824, rfl⟩
abbrev main_v481 : Ref sig .tc := ⟨.hbm, 825, rfl⟩
abbrev main_c_338 : Ref sig .tc := ⟨.hbm, 826, rfl⟩
abbrev main_c_339 : Ref sig .tc := ⟨.hbm, 827, rfl⟩
abbrev main_c_340 : Ref sig .tc := ⟨.hbm, 828, rfl⟩
abbrev main_v482 : Ref sig .tc := ⟨.hbm, 829, rfl⟩
abbrev main_v483 : Ref sig .tc := ⟨.hbm, 830, rfl⟩
abbrev main_v484 : Ref sig .tc := ⟨.hbm, 831, rfl⟩
abbrev main_v485 : Ref sig .tc := ⟨.hbm, 832, rfl⟩
abbrev main_v486 : Ref sig .tc := ⟨.hbm, 833, rfl⟩
abbrev main_cst_341 : Ref sig .tc := ⟨.hbm, 834, rfl⟩
abbrev main_v487 : Ref sig .tc := ⟨.hbm, 835, rfl⟩
abbrev main_v488 : Ref sig .tc := ⟨.hbm, 836, rfl⟩
abbrev main_v489 : Ref sig .tc := ⟨.hbm, 837, rfl⟩
abbrev main_cst_342 : Ref sig .tc := ⟨.hbm, 838, rfl⟩
abbrev main_v490 : Ref sig .tc := ⟨.hbm, 839, rfl⟩
abbrev main_v491 : Ref sig .tc := ⟨.hbm, 840, rfl⟩
abbrev main_c_343 : Ref sig .tc := ⟨.hbm, 841, rfl⟩
abbrev main_c_344 : Ref sig .tc := ⟨.hbm, 842, rfl⟩
abbrev main_c_345 : Ref sig .tc := ⟨.hbm, 843, rfl⟩
abbrev main_v492 : Ref sig .tc := ⟨.hbm, 844, rfl⟩
abbrev main_c_346 : Ref sig .tc := ⟨.hbm, 845, rfl⟩
abbrev main_c_347 : Ref sig .tc := ⟨.hbm, 846, rfl⟩
abbrev main_c_348 : Ref sig .tc := ⟨.hbm, 847, rfl⟩
abbrev main_v493 : Ref sig .tc := ⟨.hbm, 848, rfl⟩
abbrev main_v494 : Ref sig .tc := ⟨.hbm, 849, rfl⟩
abbrev main_v495 : Ref sig .tc := ⟨.hbm, 850, rfl⟩
abbrev main_v496 : Ref sig .tc := ⟨.hbm, 851, rfl⟩
abbrev main_v497 : Ref sig .tc := ⟨.hbm, 852, rfl⟩
abbrev main_cst_349 : Ref sig .tc := ⟨.hbm, 853, rfl⟩
abbrev main_v498 : Ref sig .tc := ⟨.hbm, 854, rfl⟩
abbrev main_v499 : Ref sig .tc := ⟨.hbm, 855, rfl⟩
abbrev main_v500 : Ref sig .tc := ⟨.hbm, 856, rfl⟩
abbrev main_cst_350 : Ref sig .tc := ⟨.hbm, 857, rfl⟩
abbrev main_v501 : Ref sig .tc := ⟨.hbm, 858, rfl⟩
abbrev main_v502 : Ref sig .tc := ⟨.hbm, 859, rfl⟩
abbrev main_c_351 : Ref sig .tc := ⟨.hbm, 860, rfl⟩
abbrev main_c_352 : Ref sig .tc := ⟨.hbm, 861, rfl⟩
abbrev main_c_353 : Ref sig .tc := ⟨.hbm, 862, rfl⟩
abbrev main_v503 : Ref sig .tc := ⟨.hbm, 863, rfl⟩
abbrev main_c_354 : Ref sig .tc := ⟨.hbm, 864, rfl⟩
abbrev main_c_355 : Ref sig .tc := ⟨.hbm, 865, rfl⟩
abbrev main_c_356 : Ref sig .tc := ⟨.hbm, 866, rfl⟩
abbrev main_v504 : Ref sig .tc := ⟨.hbm, 867, rfl⟩
abbrev main_v505 : Ref sig .tc := ⟨.hbm, 868, rfl⟩
abbrev main_v506 : Ref sig .tc := ⟨.hbm, 869, rfl⟩
abbrev main_v507 : Ref sig .tc := ⟨.hbm, 870, rfl⟩
abbrev main_v508 : Ref sig .tc := ⟨.hbm, 871, rfl⟩
abbrev main_cst_357 : Ref sig .tc := ⟨.hbm, 872, rfl⟩
abbrev main_v509 : Ref sig .tc := ⟨.hbm, 873, rfl⟩
abbrev main_v510 : Ref sig .tc := ⟨.hbm, 874, rfl⟩
abbrev main_v511 : Ref sig .tc := ⟨.hbm, 875, rfl⟩
abbrev main_cst_358 : Ref sig .tc := ⟨.hbm, 876, rfl⟩
abbrev main_v512 : Ref sig .tc := ⟨.hbm, 877, rfl⟩
abbrev main_v513 : Ref sig .tc := ⟨.hbm, 878, rfl⟩
abbrev main_c_359 : Ref sig .tc := ⟨.hbm, 879, rfl⟩
abbrev main_c_360 : Ref sig .tc := ⟨.hbm, 880, rfl⟩
abbrev main_c_361 : Ref sig .tc := ⟨.hbm, 881, rfl⟩
abbrev main_v514 : Ref sig .tc := ⟨.hbm, 882, rfl⟩
abbrev main_c_362 : Ref sig .tc := ⟨.hbm, 883, rfl⟩
abbrev main_c_363 : Ref sig .tc := ⟨.hbm, 884, rfl⟩
abbrev main_c_364 : Ref sig .tc := ⟨.hbm, 885, rfl⟩
abbrev main_v515 : Ref sig .tc := ⟨.hbm, 886, rfl⟩
abbrev main_v516 : Ref sig .tc := ⟨.hbm, 887, rfl⟩
abbrev main_v517 : Ref sig .tc := ⟨.hbm, 888, rfl⟩
abbrev main_v518 : Ref sig .tc := ⟨.hbm, 889, rfl⟩
abbrev main_v519 : Ref sig .tc := ⟨.hbm, 890, rfl⟩
abbrev main_cst_365 : Ref sig .tc := ⟨.hbm, 891, rfl⟩
abbrev main_v520 : Ref sig .tc := ⟨.hbm, 892, rfl⟩
abbrev main_v521 : Ref sig .tc := ⟨.hbm, 893, rfl⟩
abbrev main_v522 : Ref sig .tc := ⟨.hbm, 894, rfl⟩
abbrev main_cst_366 : Ref sig .tc := ⟨.hbm, 895, rfl⟩
abbrev main_v523 : Ref sig .tc := ⟨.hbm, 896, rfl⟩
abbrev main_v524 : Ref sig .tc := ⟨.hbm, 897, rfl⟩
abbrev main_c_367 : Ref sig .tc := ⟨.hbm, 898, rfl⟩
abbrev main_c_368 : Ref sig .tc := ⟨.hbm, 899, rfl⟩
abbrev main_c_369 : Ref sig .tc := ⟨.hbm, 900, rfl⟩
abbrev main_v525 : Ref sig .tc := ⟨.hbm, 901, rfl⟩
abbrev main_c_370 : Ref sig .tc := ⟨.hbm, 902, rfl⟩
abbrev main_c_371 : Ref sig .tc := ⟨.hbm, 903, rfl⟩
abbrev main_c_372 : Ref sig .tc := ⟨.hbm, 904, rfl⟩
abbrev main_v526 : Ref sig .tc := ⟨.hbm, 905, rfl⟩
abbrev main_v527 : Ref sig .tc := ⟨.hbm, 906, rfl⟩
abbrev main_v528 : Ref sig .tc := ⟨.hbm, 907, rfl⟩
abbrev main_v529 : Ref sig .tc := ⟨.hbm, 908, rfl⟩
abbrev main_v530 : Ref sig .tc := ⟨.hbm, 909, rfl⟩
abbrev main_cst_373 : Ref sig .tc := ⟨.hbm, 910, rfl⟩
abbrev main_v531 : Ref sig .tc := ⟨.hbm, 911, rfl⟩
abbrev main_v532 : Ref sig .tc := ⟨.hbm, 912, rfl⟩
abbrev main_v533 : Ref sig .tc := ⟨.hbm, 913, rfl⟩
abbrev main_cst_374 : Ref sig .tc := ⟨.hbm, 914, rfl⟩
abbrev main_v534 : Ref sig .tc := ⟨.hbm, 915, rfl⟩
abbrev main_v535 : Ref sig .tc := ⟨.hbm, 916, rfl⟩
abbrev main_c_375 : Ref sig .tc := ⟨.hbm, 917, rfl⟩
abbrev main_c_376 : Ref sig .tc := ⟨.hbm, 918, rfl⟩
abbrev main_c_377 : Ref sig .tc := ⟨.hbm, 919, rfl⟩
abbrev main_v536 : Ref sig .tc := ⟨.hbm, 920, rfl⟩
abbrev main_c_378 : Ref sig .tc := ⟨.hbm, 921, rfl⟩
abbrev main_c_379 : Ref sig .tc := ⟨.hbm, 922, rfl⟩
abbrev main_c_380 : Ref sig .tc := ⟨.hbm, 923, rfl⟩
abbrev main_v537 : Ref sig .tc := ⟨.hbm, 924, rfl⟩
abbrev main_v538 : Ref sig .tc := ⟨.hbm, 925, rfl⟩
abbrev main_v539 : Ref sig .tc := ⟨.hbm, 926, rfl⟩
abbrev main_v540 : Ref sig .tc := ⟨.hbm, 927, rfl⟩
abbrev main_v541 : Ref sig .tc := ⟨.hbm, 928, rfl⟩
abbrev main_cst_381 : Ref sig .tc := ⟨.hbm, 929, rfl⟩
abbrev main_v542 : Ref sig .tc := ⟨.hbm, 930, rfl⟩
abbrev main_v543 : Ref sig .tc := ⟨.hbm, 931, rfl⟩
abbrev main_v544 : Ref sig .tc := ⟨.hbm, 932, rfl⟩
abbrev main_cst_382 : Ref sig .tc := ⟨.hbm, 933, rfl⟩
abbrev main_v545 : Ref sig .tc := ⟨.hbm, 934, rfl⟩
abbrev main_v546 : Ref sig .tc := ⟨.hbm, 935, rfl⟩
abbrev main_c_383 : Ref sig .tc := ⟨.hbm, 936, rfl⟩
abbrev main_c_384 : Ref sig .tc := ⟨.hbm, 937, rfl⟩
abbrev main_c_385 : Ref sig .tc := ⟨.hbm, 938, rfl⟩
abbrev main_v547 : Ref sig .tc := ⟨.hbm, 939, rfl⟩
abbrev main_c_386 : Ref sig .tc := ⟨.hbm, 940, rfl⟩
abbrev main_c_387 : Ref sig .tc := ⟨.hbm, 941, rfl⟩
abbrev main_c_388 : Ref sig .tc := ⟨.hbm, 942, rfl⟩
abbrev main_v548 : Ref sig .tc := ⟨.hbm, 943, rfl⟩
abbrev main_v549 : Ref sig .tc := ⟨.hbm, 944, rfl⟩
abbrev main_v550 : Ref sig .tc := ⟨.hbm, 945, rfl⟩
abbrev main_v551 : Ref sig .tc := ⟨.hbm, 946, rfl⟩
abbrev main_v552 : Ref sig .tc := ⟨.hbm, 947, rfl⟩
abbrev main_cst_389 : Ref sig .tc := ⟨.hbm, 948, rfl⟩
abbrev main_v553 : Ref sig .tc := ⟨.hbm, 949, rfl⟩
abbrev main_v554 : Ref sig .tc := ⟨.hbm, 950, rfl⟩
abbrev main_v555 : Ref sig .tc := ⟨.hbm, 951, rfl⟩
abbrev main_cst_390 : Ref sig .tc := ⟨.hbm, 952, rfl⟩
abbrev main_v556 : Ref sig .tc := ⟨.hbm, 953, rfl⟩
abbrev main_v557 : Ref sig .tc := ⟨.hbm, 954, rfl⟩
abbrev main_c_391 : Ref sig .tc := ⟨.hbm, 955, rfl⟩
abbrev main_c_392 : Ref sig .tc := ⟨.hbm, 956, rfl⟩
abbrev main_c_393 : Ref sig .tc := ⟨.hbm, 957, rfl⟩
abbrev main_v558 : Ref sig .tc := ⟨.hbm, 958, rfl⟩
abbrev main_c_394 : Ref sig .tc := ⟨.hbm, 959, rfl⟩
abbrev main_c_395 : Ref sig .tc := ⟨.hbm, 960, rfl⟩
abbrev main_c_396 : Ref sig .tc := ⟨.hbm, 961, rfl⟩
abbrev main_v559 : Ref sig .tc := ⟨.hbm, 962, rfl⟩
abbrev main_v560 : Ref sig .tc := ⟨.hbm, 963, rfl⟩
abbrev main_v561 : Ref sig .tc := ⟨.hbm, 964, rfl⟩
abbrev main_v562 : Ref sig .tc := ⟨.hbm, 965, rfl⟩
abbrev main_v563 : Ref sig .tc := ⟨.hbm, 966, rfl⟩
abbrev main_cst_397 : Ref sig .tc := ⟨.hbm, 967, rfl⟩
abbrev main_v564 : Ref sig .tc := ⟨.hbm, 968, rfl⟩
abbrev main_v565 : Ref sig .tc := ⟨.hbm, 969, rfl⟩
abbrev main_v566 : Ref sig .tc := ⟨.hbm, 970, rfl⟩
abbrev main_cst_398 : Ref sig .tc := ⟨.hbm, 971, rfl⟩
abbrev main_v567 : Ref sig .tc := ⟨.hbm, 972, rfl⟩
abbrev main_v568 : Ref sig .tc := ⟨.hbm, 973, rfl⟩
abbrev main_cst_399 : Ref sig .tc := ⟨.hbm, 974, rfl⟩
abbrev main_v569 : Ref sig .tc := ⟨.hbm, 975, rfl⟩

abbrev nD : Nat := 1
abbrev τ : Topo := Topo.v7x

variable {F : FTy → Type} [FloatOps F]

class Facts₀ : Prop where
  slices_S8x3x512x512_S8x1x512x512_0_0_0_0 : S8x3x512x512.Slices ![0, 0, 0, 0] S8x1x512x512
  shapeCasts_S8x1x512x512_S8x512x512 : S8x1x512x512.ShapeCasts S8x512x512
  bcast_S_S8x512x512 : S_.BroadcastsInDim S8x512x512 (![] : Fin 0 → Fin S8x512x512.rank)
  slices_S8x3x512x512_S8x1x512x512_0_1_0_0 : S8x3x512x512.Slices ![0, 1, 0, 0] S8x1x512x512
  slices_S8x3x512x512_S8x1x512x512_0_2_0_0 : S8x3x512x512.Slices ![0, 2, 0, 0] S8x1x512x512
  pads_S8x512x512_S8x518x518_000_330_330 : S8x512x512.Pads (![0, 3, 3] : Fin 3 → Nat) ![0, 3, 3] ![0, 0, 0] S8x518x518
  h_S_ : 0 < S_.numel
  sliceFits_S8x518x518_S8x512x512 : S8x518x518.Slices (fun _ => 0) S8x512x512
  reducesTo_S8x512x512_S_d0_1_2 : S8x512x512.ReducesTo [0, 1, 2] S_

variable [Facts₀]

class Facts : Prop extends Facts₀ where

variable [Facts]
-- ==== Proof.Census.Spec.lean ====
/-
  The mathematics both programs compute, over the extended reals, with no program in sight.

  An image pair (prediction, target) of eight 3 × 512 × 512 pictures is first reduced to grey levels, a fixed
  weighted sum of the three colour planes. For each of the 49 displacements (a − 3, b − 3), 0 ≤ a, b < 7, of a 7 × 7
  neighbourhood, the grey picture is read displaced, continued by ZERO outside the 512 × 512 frame; the
  displaced-minus-centre difference of the prediction minus the same difference of the target is squared, a small
  constant is added and the square root taken. The loss is the sum of all 49 · 8 · 512 · 512 such roots divided by
  their number. The two programs add the roots up in different orders; addition on the extended reals is commutative
  and associative at the infinities too, so the order is immaterial (`sum_foldl_add`).
-/
import Idealize.ShloMosaic.PureOps.Ideal
import Idealize.ShloMosaic.PureOps.Ideal.Laws
import Idealize.ShloMosaic.Lib.ValueIdx

noncomputable section

namespace Cert.Census

open Idealize.ShloMosaic Idealize.ShloMosaic.ValueIdx

/-- The 49 displacements of the 7 × 7 neighbourhood, rows outermost: `(a, b)` stands for the displacement
    `(a − 3, b − 3)`. -/
def disps : List (ℕ × ℕ) := (List.range 7).flatMap fun a => (List.range 7).map fun b => (a, b)

theorem disps_lt {d : ℕ × ℕ} (h : d ∈ disps) : d.1 < 7 ∧ d.2 < 7 := by
  simp only [disps, List.mem_flatMap, List.mem_map, List.mem_range] at h
  obtain ⟨a, ha, b, hb, rfl⟩ := h
  exact ⟨ha, hb⟩

/-- A 512 × 512 picture continued by zero and moved three places down and right: entry `(R − 3, C − 3)` of the picture
    where that is a pixel, zero elsewhere. Reading it at `(r + a, c + b)` reads the picture displaced by
    `(a − 3, b − 3)`. -/
def padded (g : Fin 512 → Fin 512 → EReal) (R C : ℕ) : EReal :=
  if h : (3 ≤ R ∧ R < 515) ∧ (3 ≤ C ∧ C < 515) then g ⟨R - 3, by omega⟩ ⟨C - 3, by omega⟩ else 0

/-- The constant under the root, as the binary number both programs carry. -/
def eps : EReal := Ideal.ofBits .f32 0x358637BD#32

/-- One root: displacement `d`, pixel `(r, c)`, grey pictures `p` (prediction) and `g` (target). -/
def term (p g : Fin 512 → Fin 512 → EReal) (d : ℕ × ℕ) (r c : Fin 512) : EReal :=
  Ideal.sqrt (((padded p (r.val + d.1) (c.val + d.2) - p r c) - (padded g (r.val + d.1) (c.val + d.2) - g r c))
      * ((padded p (r.val + d.1) (c.val + d.2) - p r c) - (padded g (r.val + d.1) (c.val + d.2) - g r c)) + eps)

/-- Picture `n` of a batch in grey levels: the weighted sum of its three colour planes, the weights the binary
    numbers both programs carry. -/
def gray (A : (⟨4, ![8, 3, 512, 512]⟩ : Shape).Idx → EReal) (n : Fin 8) (r c : Fin 512) : EReal :=
  Ideal.ofBits .f32 0x3E991687#32 * A (ix4 n (0 : Fin 3) r c) + Ideal.ofBits .f32 0x3F1645A2#32 * A (ix4 n (1 : Fin 3) r c)
    + Ideal.ofBits .f32 0x3DE978D5#32 * A (ix4 n (2 : Fin 3) r c)

/-- All the roots of picture pair `n`, accumulated displacement by displacement from zero: the number the kernel leaves in
    its `n`-th output block. -/
def pairSum (A B : (⟨4, ![8, 3, 512, 512]⟩ : Shape).Idx → EReal) (n : Fin 8) : EReal :=
  disps.foldl (fun acc d => acc + ∑ r : Fin 512, ∑ c : Fin 512, term (gray A n) (gray B n) d r c) 0

/-- All the roots of one displacement. -/
def dispSum (A B : (⟨4, ![8, 3, 512, 512]⟩ : Shape).Idx → EReal) (d : ℕ × ℕ) : EReal :=
  ∑ n : Fin 8, ∑ r : Fin 512, ∑ c : Fin 512, term (gray A n) (gray B n) d r c

/-- All the roots, accumulated displacement by displacement from zero. -/
def total (A B : (⟨4, ![8, 3, 512, 512]⟩ : Shape).Idx → EReal) : EReal :=
  disps.foldl (fun acc d => acc + dispSum A B d) 0

/-- The loss: the total over the number of roots (the binary number 8 · 49 · 512 · 512). -/
def loss (A B : (⟨4, ![8, 3, 512, 512]⟩ : Shape).Idx → EReal) : EReal :=
  Ideal.div (total A B) (Ideal.ofBits .f32 0x4CC40000#32)

/-! ## Sums -/

/-- Summing, over an index set, accumulations that run through one list of steps: the sums may be taken step by step.
    Only commutativity and associativity of addition are used. -/
theorem sum_foldl_add {ι δ M : Type*} [AddCommMonoid M] (s : Finset ι) (L : List δ) (t : δ → ι → M) (a : ι → M) :
    ∑ i ∈ s, L.foldl (fun acc d => acc + t d i) (a i)
      = L.foldl (fun acc d => acc + ∑ i ∈ s, t d i) (∑ i ∈ s, a i) := by
  induction L generalizing a with
  | nil => rfl
  | cons d L ih =>
    simp only [List.foldl_cons]
    exact (ih fun i => a i + t d i).trans (by rw [Finset.sum_add_distrib])

/-- The pictures' sums add up to the total: the eight accumulations may be merged displacement by displacement. -/
theorem sum_pairSum (A B : (⟨4, ![8, 3, 512, 512]⟩ : Shape).Idx → EReal) : ∑ n : Fin 8, pairSum A B n = total A B := by
  unfold pairSum total dispSum
  rw [sum_foldl_add Finset.univ disps (fun d n => ∑ r : Fin 512, ∑ c : Fin 512, term (gray A n) (gray B n) d r c) (fun _ => 0),
    Finset.sum_const_zero]

/-- Two accumulations through one list whose steps add equal amounts are equal. -/
theorem foldl_add_congr {δ M : Type*} [Add M] (L : List δ) (f g : δ → M) (a : M) (h : ∀ d ∈ L, f d = g d) :
    L.foldl (fun acc d => acc + f d) a = L.foldl (fun acc d => acc + g d) a := by
  induction L generalizing a with
  | nil => rfl
  | cons d L ih =>
    simp only [List.foldl_cons]
    rw [h d (List.mem_cons_self ..)]
    exact ih _ fun e he => h e (List.mem_cons_of_mem _ he)

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Census

end
-- ==== Proof.Census.Words.lean ====
/-
  Word arithmetic behind the kernel's boundary mask, and the two index facts about a rotation of a 512 × 512 picture.

  The mask compares `n + (a − 3)`, computed on 32-bit two's-complement words from a row or column number `n < 512`
  and a displacement word, with `0` and with `512`, signed. No wrap-around can occur at these sizes, so the comparisons
  say `3 ≤ n + a` and `n + a < 515` of the natural numbers.
-/
import Idealize.ShloMosaic.Lib.KernelVsHost
import Idealize.ShloMosaic.Lib.DynamicIndex
import Idealize.ShloMosaic.Lib.WordArith
import Idealize.ShloMosaic.Lib.ValueIdx

namespace Cert.Census.Words

open Idealize.ShloMosaic Idealize.ShloMosaic.ValueIdx Idealize.ShloMosaic.WordArith

/-- The rotation amount that realises the displacement `a − 3` on an axis of 512 entries (`−(a − 3)` modulo 512),
    none for the zero displacement. -/
def rotOf : ℕ → Option (BitVec 32)
  | 0 => some 3#32 | 1 => some 2#32 | 2 => some 1#32 | 3 => none
  | 4 => some 511#32 | 5 => some 510#32 | _ => some 509#32

/-- The displacement `a − 3` as a 32-bit two's-complement word. -/
def offOf : ℕ → BitVec 32
  | 0 => 4294967293#32 | 1 => 4294967294#32 | 2 => 4294967295#32 | 3 => 0#32
  | 4 => 1#32 | 5 => 2#32 | _ => 3#32

theorem rotOf_none {a : ℕ} (ha : a < 7) (h : rotOf a = none) : a = 3 := by
  interval_cases a <;> simp [rotOf] at h ⊢

theorem rotOf_some {a : ℕ} {cy : BitVec 32} (ha : a < 7) (h : rotOf a = some cy) : cy.toNat % 512 = (515 - a) % 512 := by
  interval_cases a <;> simp [rotOf] at h <;> subst h <;> rfl

theorem offOf_toInt {a : ℕ} (ha : a < 7) : (offOf a).toInt = (a : ℤ) - 3 := by
  interval_cases a <;> rfl

/-- The displaced number as a word, read signed, is the displaced number. -/
theorem toInt_add_off {n a : ℕ} (hn : n < 512) (ha : a < 7) :
    (BitVec.ofNat 32 n + offOf a).toInt = (n : ℤ) + (a : ℤ) - 3 := by
  rw [BitVec.toInt_add, toInt_ofNat_of_lt (by omega), offOf_toInt ha]
  unfold Int.bmod
  simp only []
  split <;> omega

theorem cmp_ge {n a : ℕ} (hn : n < 512) (ha : a < 7) :
    IntOp.cmpi .sge (IntOp.addi (BitVec.ofNat 32 n) (offOf a)) 0#32 = BitVec.ofBool (decide (3 ≤ n + a)) := by
  show BitVec.ofBool (decide ((0#32 : BitVec 32).toInt ≤ (BitVec.ofNat 32 n + offOf a).toInt)) = _
  rw [toInt_add_off hn ha]
  exact congrArg BitVec.ofBool (decide_eq_decide.mpr (by simp; omega))

theorem cmp_lt {n a : ℕ} (hn : n < 512) (ha : a < 7) :
    IntOp.cmpi .slt (IntOp.addi (BitVec.ofNat 32 n) (offOf a)) 512#32 = BitVec.ofBool (decide (n + a < 515)) := by
  show BitVec.ofBool (decide ((BitVec.ofNat 32 n + offOf a).toInt < (512#32 : BitVec 32).toInt)) = _
  rw [toInt_add_off hn ha]
  exact congrArg BitVec.ofBool (decide_eq_decide.mpr (by
    have : (512#32 : BitVec 32).toInt = 512 := rfl
    rw [this]; omega))

variable {α : Type}

/-- A picture rotated along its rows by `cy` reads, at row `r`, row `(r + 512 − cy) mod 512`. -/
theorem rotRow (cy : BitVec 32) (x : (⟨2, ![512, 512]⟩ : Shape).Idx → α) (h : (⟨2, ![512, 512]⟩ : Shape).Rotates 0 none)
    (r c r' : Fin 512) (hr : r'.val = (r.val + 512 - cy.toNat % 512) % 512) :
    dynamicRotate 0 cy none x h (ix2 r c) = x (ix2 r' c) :=
  dynamicRotate_apply 0 cy x h (ix2 r c) (ix2 r' c) (fun b => by
    match b with
    | ⟨0, _⟩ => exact hr
    | ⟨1, _⟩ => rfl)

/-- A picture rotated along its columns by `cx` reads, at column `c`, column `(c + 512 − cx) mod 512`. -/
theorem rotCol (cx : BitVec 32) (x : (⟨2, ![512, 512]⟩ : Shape).Idx → α) (h : (⟨2, ![512, 512]⟩ : Shape).Rotates 1 none)
    (r c c' : Fin 512) (hc : c'.val = (c.val + 512 - cx.toNat % 512) % 512) :
    dynamicRotate 1 cx none x h (ix2 r c) = x (ix2 r c') :=
  dynamicRotate_apply 1 cx x h (ix2 r c) (ix2 r c') (fun b => by
    match b with
    | ⟨0, _⟩ => rfl
    | ⟨1, _⟩ => exact hc)

end Cert.Census.Words
-- ==== Proof.Census.KernelShape.lean ====
/-
  The kernel's body, written once as a function of the two grey pictures.

  The body handles one picture pair of the batch. It forms the two grey pictures, and then, 49 times over (once per
  displacement of the 7 × 7 neighbourhood, rows outermost), reads each grey picture displaced: the picture is rotated
  along the rows and along the columns by the displacement (a rotation by zero is left out), and the entries that the
  rotation brought around the edge are replaced by zero under a mask built from the row and column numbers; at the
  centre displacement the picture is used as it is. The root of each pixel's squared difference of differences plus
  the small constant is summed along every row, the 49 columns of row sums are added up one after the other from zero,
  the resulting column is summed, and the one number is written to all 128 entries of the output block.

  Here that text is stated as one fold over the list of displacements, at any float instance, and the body's stored
  value is shown to be this function of the grey pictures (`out_eq`): the two terms are the same composition of
  operations, so the proof is by unfolding.
-/
import proofs.«169308_j28260884807724_2_alg».proof.Proof.Gen.KernelIdeal.Frame
import proofs.«169308_j28260884807724_2_alg».proof.Proof.Census.Spec
import proofs.«169308_j28260884807724_2_alg».proof.Proof.Census.Words

noncomputable section

namespace Cert.KernelIdeal.Census

open Idealize.ShloMosaic Cert.KernelIdeal Cert.KernelIdeal.Gen Cert.Census Cert.Census.Words

variable {F : FTy → Type} [FloatOps F]

/-- Each entry's row number, and its column number. -/
def rowNo : IVec S512x512 32 := iota .tc S512x512 32 [0] iota_S512x512_d0_w32
def colNo : IVec S512x512 32 := iota .tc S512x512 32 [1] iota_S512x512_d1_w32

/-- The mask of displacement `d`: one where the displaced row and column numbers both lie in `[0, 512)`. -/
def inside (d : ℕ × ℕ) : IVec S512x512 1 :=
  andi (andi (andi (cmpi .sge (addi rowNo (broadcast S512x512 (offOf d.1))) (broadcast S512x512 (0#32 : BitVec 32)))
                   (cmpi .slt (addi rowNo (broadcast S512x512 (offOf d.1))) (broadcast S512x512 (512#32 : BitVec 32))))
             (cmpi .sge (addi colNo (broadcast S512x512 (offOf d.2))) (broadcast S512x512 (0#32 : BitVec 32))))
       (cmpi .slt (addi colNo (broadcast S512x512 (offOf d.2))) (broadcast S512x512 (512#32 : BitVec 32)))

/-- A picture rotated along the rows by the amount of the row displacement `a − 3` (left alone when that is zero). -/
def rotY (a : ℕ) (x : FVec F S512x512 .f32) : FVec F S512x512 .f32 :=
  match rotOf a with
  | none => x
  | some cy => dynamicRotate 0 cy none x rotates_S512x512_d0

/-- The same along the columns. -/
def rotX (b : ℕ) (x : FVec F S512x512 .f32) : FVec F S512x512 .f32 :=
  match rotOf b with
  | none => x
  | some cx => dynamicRotate 1 cx none x rotates_S512x512_d1

/-- A picture read displaced by `d`, zero where the displaced position falls outside it; the picture itself at the
    centre. -/
def displaced (d : ℕ × ℕ) (x : FVec F S512x512 .f32) : FVec F S512x512 .f32 :=
  if d = (3, 3) then x
  else select (inside d) (rotX d.2 (rotY d.1 x)) (broadcast S512x512 (Scalar.ofBits .f32 0x00000000#32))

/-- The roots of displacement `d`, pixel by pixel. -/
def roots (d : ℕ × ℕ) (p g : FVec F S512x512 .f32) : FVec F S512x512 .f32 :=
  sqrt (addf (mulf (subf (subf (displaced d p) p) (subf (displaced d g) g)) (subf (subf (displaced d p) p) (subf (displaced d g) g)))
    (broadcast S512x512 (Scalar.ofBits .f32 0x358637BD#32)))

/-- The sums of a picture's rows, as a column. -/
def rowSums (v : FVec F S512x512 .f32) : FVec F S512x1 .f32 :=
  shapeCast S512x1 (multiReduction .add [1] S512 v 0x00000000#32 reduces_S512x512_S512 (.inl rfl) rfl) shapeCasts_S512_S512x1

/-- The column of row sums of all 49 displacements, added up one displacement after the other from zero. -/
def column (p g : FVec F S512x512 .f32) : FVec F S512x1 .f32 :=
  disps.foldl (fun acc d => addf acc (rowSums (roots d p g))) (broadcast S512x1 (Scalar.ofBits .f32 0x00000000#32))

/-- What the body stores: the sum of that column, in every entry of the output block. -/
def block (p g : FVec F S512x512 .f32) : FVec F S1x1x128 .f32 :=
  broadcastTo S1x1x128
    (shapeCast S1x1x1 (shapeCast S1x1x1 (shapeCast S1x1
      (multiReduction .add [0] S1 (column p g) 0x00000000#32 reduces_S512x1_S1 (.inl rfl) rfl)
      shapeCasts_S1_S1x1) shapeCasts_S1x1_S1x1x1) shapeCasts_S1x1x1_S1x1x1) broadcasts_S1x1x1_S1x1x128

set_option maxRecDepth 65536 in
set_option maxHeartbeats 4000000 in
/-- The body's one store writes `block` of the two grey pictures. -/
theorem out_eq (x0 x1 : Vec F S1x3x512x512 .f32) :
    out0_2 x0 x1 = View.canon [⟨r0_1, block (k0_pay2 (View.ld x0 r0_0)) (k0_pay3 (View.ld x1 r0_0))⟩] := rfl

end Cert.KernelIdeal.Census

end
-- ==== Proof.Census.KernelIndex.lean ====
/-
  The kernel body's stored value read at the ideal values, entry by entry.

  A picture read displaced by `(a − 3, b − 3)` through two rotations and the boundary mask is the picture continued by
  zero, read at `(r + a, c + b)` in the padded frame (`displaced_apply`): where the mask is one the rotations did not wrap,
  and where it is zero the select takes the zero. Hence each root is the specification's `term` (`roots_apply`), a row
  sum is a sum over the column number, the accumulated column is the fold of those, and the one number the body
  stores in all 128 entries of its block is the sum over the rows of that column, which is the fold, displacement by
  displacement, of the double sums over rows and columns (`block_apply`; addition is commutative and associative).
-/
import proofs.«169308_j28260884807724_2_alg».proof.Proof.Census.KernelShape
import Idealize.ShloMosaic.Lib.Pipeline.Value
import Idealize.ShloMosaic.PureOps.Ideal.Laws

noncomputable section

namespace Cert.KernelIdeal.Census

open Idealize.ShloMosaic Idealize.ShloMosaic.ValueIdx Idealize.ShloMosaic.WordArith
open Cert.KernelIdeal Cert.KernelIdeal.Gen Cert.Census Cert.Census.Words

variable {F : FTy → Type} [FloatOps F]

/-! ## The displaced picture -/

theorem rowNo_apply (r c : Fin 512) : rowNo (ix2 r c) = BitVec.ofNat 32 r.val :=
  iota_single_apply .tc S512x512 32 0 iota_S512x512_d0_w32 (ix2 r c)

theorem colNo_apply (r c : Fin 512) : colNo (ix2 r c) = BitVec.ofNat 32 c.val :=
  iota_single_apply .tc S512x512 32 1 iota_S512x512_d1_w32 (ix2 r c)

/-- The mask at `(r, c)` is one exactly where `(r + a, c + b)` lies inside the picture's place in the padded frame. -/
theorem inside_apply (d : ℕ × ℕ) (hd : d.1 < 7 ∧ d.2 < 7) (r c : Fin 512) :
    inside d (ix2 r c) = BitVec.ofBool (decide ((3 ≤ r.val + d.1 ∧ r.val + d.1 < 515) ∧ (3 ≤ c.val + d.2 ∧ c.val + d.2 < 515))) := by
  show IntOp.andi (IntOp.andi (IntOp.andi
        (IntOp.cmpi .sge (IntOp.addi (rowNo (ix2 r c)) (offOf d.1)) 0#32)
        (IntOp.cmpi .slt (IntOp.addi (rowNo (ix2 r c)) (offOf d.1)) 512#32))
        (IntOp.cmpi .sge (IntOp.addi (colNo (ix2 r c)) (offOf d.2)) 0#32))
        (IntOp.cmpi .slt (IntOp.addi (colNo (ix2 r c)) (offOf d.2)) 512#32) = _
  rw [rowNo_apply, colNo_apply, cmp_ge r.isLt hd.1, cmp_lt r.isLt hd.1, cmp_ge c.isLt hd.2, cmp_lt c.isLt hd.2,
    andi_ofBool, andi_ofBool, andi_ofBool]
  exact congrArg BitVec.ofBool (by simp only [Bool.decide_and, Bool.and_assoc])

theorem rotY_apply (a : ℕ) (ha : a < 7) (x : FVec F S512x512 .f32) (r c : Fin 512) (h : 3 ≤ r.val + a ∧ r.val + a < 515) :
    rotY a x (ix2 r c) = x (ix2 (⟨r.val + a - 3, by omega⟩ : Fin 512) c) := by
  have key : ∀ o : Option (BitVec 32), rotOf a = o →
      (match o with
        | none => x
        | some cy => dynamicRotate 0 cy none x rotates_S512x512_d0) (ix2 r c)
        = x (ix2 (⟨r.val + a - 3, by omega⟩ : Fin 512) c) := by
    intro o ho
    cases o with
    | none =>
      obtain rfl := rotOf_none ha ho
      exact congrArg x (congrArg (fun q : Fin 512 => ix2 q c) (Fin.ext (by simp)))
    | some cy =>
      exact rotRow cy x rotates_S512x512_d0 r c _ (by
        show r.val + a - 3 = _
        rw [rotOf_some ha ho]; omega)
  exact key _ rfl

theorem rotX_apply (b : ℕ) (hb : b < 7) (x : FVec F S512x512 .f32) (r c : Fin 512) (h : 3 ≤ c.val + b ∧ c.val + b < 515) :
    rotX b x (ix2 r c) = x (ix2 r (⟨c.val + b - 3, by omega⟩ : Fin 512)) := by
  have key : ∀ o : Option (BitVec 32), rotOf b = o →
      (match o with
        | none => x
        | some cx => dynamicRotate 1 cx none x rotates_S512x512_d1) (ix2 r c)
        = x (ix2 r (⟨c.val + b - 3, by omega⟩ : Fin 512)) := by
    intro o ho
    cases o with
    | none =>
      obtain rfl := rotOf_none hb ho
      exact congrArg x (congrArg (fun q : Fin 512 => ix2 r q) (Fin.ext (by simp)))
    | some cx =>
      exact rotCol cx x rotates_S512x512_d1 r c _ (by
        show c.val + b - 3 = _
        rw [rotOf_some hb ho]; omega)
  exact key _ rfl

/-- The picture read displaced is the picture continued by zero, read in the padded frame. -/
theorem displaced_apply (d : ℕ × ℕ) (hd : d.1 < 7 ∧ d.2 < 7) (x : FVec Ideal S512x512 .f32) (r c : Fin 512) :
    displaced d x (ix2 r c) = padded (fun r c => x (ix2 r c)) (r.val + d.1) (c.val + d.2) := by
  unfold displaced padded
  by_cases hc : d = (3, 3)
  · subst hc
    rw [if_pos rfl, dif_pos ⟨⟨by omega, by have := r.isLt; omega⟩, ⟨by omega, by have := c.isLt; omega⟩⟩]
    exact congrArg x (by
      funext e
      match e with
      | ⟨0, _⟩ => exact Fin.ext (by simp)
      | ⟨1, _⟩ => exact Fin.ext (by simp))
  · rw [if_neg hc]
    show Scalar.select (inside d (ix2 r c)) (rotX d.2 (rotY d.1 x) (ix2 r c)) (Ideal.ofBits .f32 0x00000000#32) = _
    rw [inside_apply d hd r c]
    by_cases hin : (3 ≤ r.val + d.1 ∧ r.val + d.1 < 515) ∧ (3 ≤ c.val + d.2 ∧ c.val + d.2 < 515)
    · rw [dif_pos hin, decide_eq_true hin]
      show Scalar.select 1#1 _ _ = _
      rw [select_one, rotX_apply d.2 hd.2 _ r c hin.2, rotY_apply d.1 hd.1 x r _ hin.1]
    · rw [dif_neg hin, decide_eq_false hin]
      show Scalar.select 0#1 _ _ = _
      rw [select_zero]
      exact Ideal.ofBits_zero_f32

/-- Each root is the specification's. -/
theorem roots_apply (d : ℕ × ℕ) (hd : d.1 < 7 ∧ d.2 < 7) (p g : FVec Ideal S512x512 .f32) (r c : Fin 512) :
    roots d p g (ix2 r c) = term (fun r c => p (ix2 r c)) (fun r c => g (ix2 r c)) d r c := by
  show Ideal.sqrt (((displaced d p (ix2 r c) - p (ix2 r c)) - (displaced d g (ix2 r c) - g (ix2 r c)))
      * ((displaced d p (ix2 r c) - p (ix2 r c)) - (displaced d g (ix2 r c) - g (ix2 r c))) + Ideal.ofBits .f32 0x358637BD#32) = _
  rw [displaced_apply d hd p r c, displaced_apply d hd g r c]
  rfl

/-! ## Row sums, the accumulated column, the block -/

/-- A column index `(r, 0)` of a 512 × 1 array and the index `r` of a 512-vector are the same row-major position. -/
theorem rowSums_apply (v : FVec Ideal S512x512 .f32) (r : Fin 512) (z : Fin 1) :
    rowSums v (ix2 r z) = ∑ k : Fin 512, v (ix2 r k) := by
  unfold rowSums
  rw [shapeCast_apply _ shapeCasts_S512_S512x1 (ix2 r z) (ix1 r) (by
    have hz : z.val = 0 := by omega
    rw [Shape.rowMajor_val_two, Shape.rowMajor_val_one]
    show r.val = r.val * 1 + z.val
    omega)]
  refine (Ideal.multiReduction_add_single v 0x00000000#32 reduces_S512x512_S512 (.inl rfl) rfl (ix1 r)).trans ?_
  exact Finset.sum_congr rfl fun k _ => congrArg v (funext fun a => Fin.ext (by
    match a with
    | ⟨0, _⟩ => rfl
    | ⟨1, _⟩ => rfl))

/-- An accumulation of arrays through a list of steps, read at one entry. -/
theorem foldl_addf_apply {s : Shape} {δ : Type} (L : List δ) (f : δ → FVec Ideal s .f32) (init : FVec Ideal s .f32) (j : s.Idx) :
    (L.foldl (fun acc d => addf acc (f d)) init) j = L.foldl (fun acc d => acc + f d j) (init j) := by
  induction L generalizing init with
  | nil => rfl
  | cons d L ih =>
    simp only [List.foldl_cons]
    exact ih (addf init (f d))

theorem column_apply (p g : FVec Ideal S512x512 .f32) (r : Fin 512) (z : Fin 1) :
    column p g (ix2 r z)
      = disps.foldl (fun acc d => acc + ∑ k : Fin 512, term (fun r c => p (ix2 r c)) (fun r c => g (ix2 r c)) d r k) 0 := by
  unfold column
  rw [foldl_addf_apply]
  show disps.foldl _ (Ideal.ofBits .f32 0x00000000#32) = _
  rw [Ideal.ofBits_zero_f32]
  refine foldl_add_congr disps _ _ 0 fun d hd => ?_
  rw [rowSums_apply]
  exact Finset.sum_congr rfl fun k _ => roots_apply d (disps_lt hd) p g r k

/-- Every entry of the stored block is the fold, displacement by displacement, of all that picture pair's roots. -/
theorem block_apply (p g : FVec Ideal S512x512 .f32) (j : S1x1x128.Idx) :
    block p g j
      = disps.foldl (fun acc d => acc + ∑ r : Fin 512, ∑ k : Fin 512,
          term (fun r c => p (ix2 r c)) (fun r c => g (ix2 r c)) d r k) 0 := by
  have hsum : (multiReduction .add [0] S1 (column p g) 0x00000000#32 reduces_S512x1_S1 (.inl rfl) rfl) (ix1 (0 : Fin 1))
      = ∑ r : Fin 512, column p g (ix2 r (0 : Fin 1)) :=
    (Ideal.multiReduction_add_single (column p g) 0x00000000#32 reduces_S512x1_S1 (.inl rfl) rfl (ix1 (0 : Fin 1))).trans
      (Finset.sum_congr rfl fun k _ => congrArg (column p g) (funext fun a => Fin.ext (by
        match a with
        | ⟨0, _⟩ => rfl
        | ⟨1, _⟩ => rfl)))
  have hblock : block p g j
      = (multiReduction .add [0] S1 (column p g) 0x00000000#32 reduces_S512x1_S1 (.inl rfl) rfl) (ix1 (0 : Fin 1)) := by
    unfold block
    rw [broadcastTo_apply _ broadcasts_S1x1x1_S1x1x128 j (ix3 (0 : Fin 1) (0 : Fin 1) (0 : Fin 1)) (by
      intro a; match a with | ⟨0, _⟩ => rfl | ⟨1, _⟩ => rfl | ⟨2, _⟩ => rfl)]
    rw [shapeCast_self, shapeCast_apply _ shapeCasts_S1x1_S1x1x1 _ (ix2 (0 : Fin 1) (0 : Fin 1)) (by rw [Shape.rowMajor_val_three, Shape.rowMajor_val_two]; rfl),
      shapeCast_apply _ shapeCasts_S1_S1x1 _ (ix1 (0 : Fin 1)) (by rw [Shape.rowMajor_val_two, Shape.rowMajor_val_one]; rfl)]
  rw [hblock, hsum]
  simp only [column_apply]
  rw [sum_foldl_add Finset.univ disps (fun d r => ∑ k : Fin 512, term (fun r c => p (ix2 r c)) (fun r c => g (ix2 r c)) d r k) (fun _ => 0),
    Finset.sum_const_zero]

end Cert.KernelIdeal.Census

end
-- ==== Proof.Census.KernelValue.lean ====
/-
  From the kernel's blocks to the program's result, at the ideal values.

  Grid point `t` of the launch handles picture pair `t`: its two input blocks are pictures `t` of the two argument
  arrays (`iblk0_apply`, `iblk1_apply`), the body's grey pictures are the specification's `gray` of them
  (`grayK_apply`), and the output block `t` — all 128 entries of row `t` of the 8 × 1 × 128 result array — holds that
  pair's sum of roots (`flushed_eq`). The eight blocks tile the array (`final`). After the launch the program takes entry
  `(n, 0, 0)` of each row, adds the eight numbers from zero and divides by the number of roots; merging the eight
  accumulations displacement by displacement gives the specification's `loss` (`result_eq`, `run`).
-/
import proofs.«169308_j28260884807724_2_alg».proof.Proof.Census.KernelIndex
import Idealize.ShloMosaic.Lib.StableHlo.Run

noncomputable section

namespace Cert.KernelIdeal.Census

open Idealize.ShloMosaic Idealize.ShloMosaic.TcCoe Idealize.ShloMosaic.ValueIdx Idealize.SL.Sem
open Idealize.ShloMosaic.Pipeline (Dat)
open Cert.KernelIdeal Cert.KernelIdeal.Gen Cert.Census

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The printed index maps, decided over the grid: every window's block at point `t` is the `t`-th along the first
    axis and the first along the others. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 3) = t.val ∧ win0_2.index t (1 : Fin 3) = 0 ∧ win0_2.index t (2 : Fin 3) = 0) :=
  (by decide +kernel : ∀ t : Fin grid0.N, _)

theorem t_lt (t : Fin cfg0.N) : t.val < 8 := by
  have h := t.isLt
  have hN : cfg0.N = 8 := N_0
  omega

/-- The first argument's block at point `t` is its picture `t`. -/
theorem iblk0_apply (c : Dev nD) (t : Fin cfg0.N) (z : Fin 1) (ch : Fin 3) (r q : Fin 512) :
    (iblk m c 0 t : Vec Ideal S1x3x512x512 .f32) (ix4 z ch r q)
      = (m ((c : Thread nD τ).loc main_arg0) : S8x3x512x512.Idx → EReal) (ix4 (⟨t.val, t_lt t⟩ : Fin 8) ch r q) := by
  obtain ⟨⟨e0, e1, e2, e3⟩, -, -⟩ := idx_facts t
  have hz : z.val = 0 := by omega
  unfold iblk
  rw [View.read_apply]
  show V m c main_arg0 _ = m (c.tc.loc main_arg0) _
  rw [V_main_arg0]
  congr 1
  funext a
  apply Fin.ext
  match a with
  | ⟨0, _⟩ => show win0_0.index t (0 : Fin 4) * 1 + 1 * z.val = t.val; rw [e0, hz]; omega
  | ⟨1, _⟩ => show win0_0.index t (1 : Fin 4) * 3 + 1 * ch.val = ch.val; rw [e1]; omega
  | ⟨2, _⟩ => show win0_0.index t (2 : Fin 4) * 512 + 1 * r.val = r.val; rw [e2]; omega
  | ⟨3, _⟩ => show win0_0.index t (3 : Fin 4) * 512 + 1 * q.val = q.val; rw [e3]; omega

/-- The second argument's block at point `t` is its picture `t`. -/
theorem iblk1_apply (c : Dev nD) (t : Fin cfg0.N) (z : Fin 1) (ch : Fin 3) (r q : Fin 512) :
    (iblk m c 1 t : Vec Ideal S1x3x512x512 .f32) (ix4 z ch r q)
      = (m ((c : Thread nD τ).loc main_arg1) : S8x3x512x512.Idx → EReal) (ix4 (⟨t.val, t_lt t⟩ : Fin 8) ch r q) := by
  obtain ⟨-, ⟨e0, e1, e2, e3⟩, -⟩ := idx_facts t
  have hz : z.val = 0 := by omega
  unfold iblk
  rw [View.read_apply]
  show V m c main_arg1 _ = m (c.tc.loc main_arg1) _
  rw [V_main_arg1]
  congr 1
  funext a
  apply Fin.ext
  match a with
  | ⟨0, _⟩ => show win0_1.index t (0 : Fin 4) * 1 + 1 * z.val = t.val; rw [e0, hz]; omega
  | ⟨1, _⟩ => show win0_1.index t (1 : Fin 4) * 3 + 1 * ch.val = ch.val; rw [e1]; omega
  | ⟨2, _⟩ => show win0_1.index t (2 : Fin 4) * 512 + 1 * r.val = r.val; rw [e2]; omega
  | ⟨3, _⟩ => show win0_1.index t (3 : Fin 4) * 512 + 1 * q.val = q.val; rw [e3]; omega

/-- One colour plane of a loaded block, cut out and with its unit axes dropped, read at `(r, q)`. -/
theorem planeK_apply (x : Vec Ideal S1x3x512x512 .f32) (ch : Fin 3) (o : ℕ) (ho : ch.val = o) (h : S3x512x512.Slices ![o, 0, 0] S1x512x512) (r q : Fin 512) :
    shapeCast S512x512 (extractStridedSlice S1x512x512 ![o, 0, 0] (shapeCast S3x512x512 x shapeCasts_S1x3x512x512_S3x512x512) h)
        shapeCasts_S1x512x512_S512x512 (ix2 r q)
      = x (ix4 (0 : Fin 1) ch r q) := by
  rw [shapeCast_apply _ shapeCasts_S1x512x512_S512x512 (ix2 r q) (ix3 (0 : Fin 1) r q) (by
    rw [Shape.rowMajor_val_three, Shape.rowMajor_val_two]
    show (0 * 512 + r.val) * 512 + q.val = r.val * 512 + q.val
    omega)]
  rw [extractStridedSlice_apply _ _ h (ix3 (0 : Fin 1) r q) (ix3 ch r q) (fun a => by
    match a with
    | ⟨0, _⟩ => show ch.val = o + 0; omega
    | ⟨1, _⟩ => exact (Nat.zero_add _).symm
    | ⟨2, _⟩ => exact (Nat.zero_add _).symm)]
  exact shapeCast_apply _ shapeCasts_S1x3x512x512_S3x512x512 (ix3 ch r q) (ix4 (0 : Fin 1) ch r q) (by
    rw [Shape.rowMajor_val_four, Shape.rowMajor_val_three]
    show ((0 * 3 + ch.val) * 512 + r.val) * 512 + q.val = (ch.val * 512 + r.val) * 512 + q.val
    omega)

/-- The body's grey picture of a loaded block: the weighted sum of the block's three planes. -/
theorem grayK2_apply (x : Vec Ideal S1x3x512x512 .f32) (r q : Fin 512) :
    k0_pay2 x (ix2 r q) = Ideal.ofBits .f32 0x3E991687#32 * x (ix4 (0 : Fin 1) (0 : Fin 3) r q)
      + Ideal.ofBits .f32 0x3F1645A2#32 * x (ix4 (0 : Fin 1) (1 : Fin 3) r q)
      + Ideal.ofBits .f32 0x3DE978D5#32 * x (ix4 (0 : Fin 1) (2 : Fin 3) r q) := by
  show (Ideal.ofBits .f32 0x3E991687#32
        * shapeCast S512x512 (extractStridedSlice S1x512x512 ![0, 0, 0] (shapeCast S3x512x512 x shapeCasts_S1x3x512x512_S3x512x512) slices_S3x512x512_o0_0_0_S1x512x512) shapeCasts_S1x512x512_S512x512 (ix2 r q)
      + Ideal.ofBits .f32 0x3F1645A2#32
        * shapeCast S512x512 (extractStridedSlice S1x512x512 ![1, 0, 0] (shapeCast S3x512x512 x shapeCasts_S1x3x512x512_S3x512x512) slices_S3x512x512_o1_0_0_S1x512x512) shapeCasts_S1x512x512_S512x512 (ix2 r q))
      + Ideal.ofBits .f32 0x3DE978D5#32
        * shapeCast S512x512 (extractStridedSlice S1x512x512 ![2, 0, 0] (shapeCast S3x512x512 x shapeCasts_S1x3x512x512_S3x512x512) slices_S3x512x512_o2_0_0_S1x512x512) shapeCasts_S1x512x512_S512x512 (ix2 r q) = _
  rw [planeK_apply x (0 : Fin 3) 0 rfl slices_S3x512x512_o0_0_0_S1x512x512, planeK_apply x (1 : Fin 3) 1 rfl slices_S3x512x512_o1_0_0_S1x512x512,
    planeK_apply x (2 : Fin 3) 2 rfl slices_S3x512x512_o2_0_0_S1x512x512]

theorem grayK3_apply (x : Vec Ideal S1x3x512x512 .f32) (r q : Fin 512) :
    k0_pay3 x (ix2 r q) = Ideal.ofBits .f32 0x3E991687#32 * x (ix4 (0 : Fin 1) (0 : Fin 3) r q)
      + Ideal.ofBits .f32 0x3F1645A2#32 * x (ix4 (0 : Fin 1) (1 : Fin 3) r q)
      + Ideal.ofBits .f32 0x3DE978D5#32 * x (ix4 (0 : Fin 1) (2 : Fin 3) r q) := by
  show (Ideal.ofBits .f32 0x3E991687#32
        * shapeCast S512x512 (extractStridedSlice S1x512x512 ![0, 0, 0] (shapeCast S3x512x512 x shapeCasts_S1x3x512x512_S3x512x512) slices_S3x512x512_o0_0_0_S1x512x512) shapeCasts_S1x512x512_S512x512 (ix2 r q)
      + Ideal.ofBits .f32 0x3F1645A2#32
        * shapeCast S512x512 (extractStridedSlice S1x512x512 ![1, 0, 0] (shapeCast S3x512x512 x shapeCasts_S1x3x512x512_S3x512x512) slices_S3x512x512_o1_0_0_S1x512x512) shapeCasts_S1x512x512_S512x512 (ix2 r q))
      + Ideal.ofBits .f32 0x3DE978D5#32
        * shapeCast S512x512 (extractStridedSlice S1x512x512 ![2, 0, 0] (shapeCast S3x512x512 x shapeCasts_S1x3x512x512_S3x512x512) slices_S3x512x512_o2_0_0_S1x512x512) shapeCasts_S1x512x512_S512x512 (ix2 r q) = _
  rw [planeK_apply x (0 : Fin 3) 0 rfl slices_S3x512x512_o0_0_0_S1x512x512, planeK_apply x (1 : Fin 3) 1 rfl slices_S3x512x512_o1_0_0_S1x512x512,
    planeK_apply x (2 : Fin 3) 2 rfl slices_S3x512x512_o2_0_0_S1x512x512]

/-- What the result array of the launch ends holding: row `n` is picture pair `n`'s sum of roots, 128 times. -/
def G (c : Dev nD) : S8x1x128.Idx → EReal := fun i =>
  pairSum (m ((c : Thread nD τ).loc main_arg0)) (m ((c : Thread nD τ).loc main_arg1)) ⟨(i 0).val, (i 0).isLt⟩

/-- What point `t` writes back is block `t` of `G`. -/
theorem flushed_eq (c : Dev nD) (t : Fin cfg0.N) :
    (dats m 0 c).flushed 2 t = ((cfg0.win 2).blk t).view.read (Elt Ideal) (G m c) := by
  obtain ⟨-, -, ⟨e0, e1, e2⟩⟩ := idx_facts t
  show (cfg0.win 2).cut (grid0.coords t) ((dats m 0 c).after 2 t) = _
  rw [after0_2, out_eq, View.canon_unit_zero hz3]
  simp only [View.ld_unit_zero (S := S1x3x512x512) hz4]
  funext j
  show block (k0_pay2 (iblk m c 0 t)) (k0_pay3 (iblk m c 1 t)) j = G m c (((cfg0.win 2).blk t).view.emb j)
  rw [block_apply]
  have hrow : (⟨((((cfg0.win 2).blk t).view.emb j) 0).val, ((((cfg0.win 2).blk t).view.emb j) 0).isLt⟩ : Fin 8) = ⟨t.val, t_lt t⟩ :=
    Fin.ext (by
      have hj : (j 0).val < 1 := (j 0).isLt
      show win0_2.index t (0 : Fin 3) * 1 + 1 * (j 0).val = t.val
      rw [e0]; omega)
  unfold G pairSum
  rw [hrow]
  have hp : (fun r q => k0_pay2 (iblk m c 0 t) (ix2 r q)) = gray (m ((c : Thread nD τ).loc main_arg0)) ⟨t.val, t_lt t⟩ := by
    funext r q
    rw [grayK2_apply, iblk0_apply, iblk0_apply, iblk0_apply]
    rfl
  have hg : (fun r q => k0_pay3 (iblk m c 1 t) (ix2 r q)) = gray (m ((c : Thread nD τ).loc main_arg1)) ⟨t.val, t_lt t⟩ := by
    funext r q
    rw [grayK3_apply, iblk1_apply, iblk1_apply, iblk1_apply]
    rfl
  rw [hp, hg]

/-- An index of the result array is in point `t`'s block iff each coordinate is in the block's range on its axis. -/
theorem mem_blk (t : Fin cfg0.N) (i : S8x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0).slice (win0_2.rect t)).set ↔ _
  rw [View.set_slice_whole, Rect.mem_set_unit]
  exact Iff.rfl

/-- The eight blocks tile the result array, so it ends holding `G`. -/
theorem final (c : Dev nD) : (dats m 0 c).arrAt 2 cfg0.N = G m c :=
  (dats m 0 c).arrAt_eq_of_cover 2 (G m c) (fun t _ => flushed_eq m c t) fun (i : S8x1x128.Idx) => by
    have h0 : (i 0).val < 8 := (i 0).isLt
    have h1 : (i 1).val < 1 := (i 1).isLt
    have h2 : (i 2).val < 128 := (i 2).isLt
    obtain ⟨t, ht⟩ : ∃ t : Fin cfg0.N, t.val = (i 0).val :=
      ⟨⟨(i 0).val, by rw [show cfg0.N = 8 from N_0]; exact h0⟩, rfl⟩
    refine ⟨t, flush0_2 t, ?_⟩
    rw [mem_blk]
    obtain ⟨-, -, ⟨e0, e1, e2⟩⟩ := idx_facts t
    intro a
    match a with
    | ⟨0, _⟩ => show win0_2.index t (0 : Fin 3) * 1 ≤ (i 0).val ∧ (i 0).val < win0_2.index t (0 : Fin 3) * 1 + 1; rw [e0]; omega
    | ⟨1, _⟩ => show win0_2.index t (1 : Fin 3) * 1 ≤ (i 1).val ∧ (i 1).val < win0_2.index t (1 : Fin 3) * 1 + 1; rw [e1]; omega
    | ⟨2, _⟩ => show win0_2.index t (2 : Fin 3) * 128 ≤ (i 2).val ∧ (i 2).val < win0_2.index t (2 : Fin 3) * 128 + 128; rw [e2]; omega

/-- The result array of the launch, as the lines after it find it. -/
theorem tail_arr (c : Dev nD) :
    Pipeline.withArrays (cfgs 0).spec c (V0 m c) (fun w => (dats m 0 c).arrAt w (cfgs 0).N) (Proc.devRef .tc main_v0) = G m c :=
  (Pipeline.withArrays_arr spec0 launch0.win.arr_inj c _ _ 2).trans (final m c)

/-- Entry `(n, 0, 0)` of the result array, as the program picks it out, is picture pair `n`'s sum of roots. -/
theorem picked_apply (c : Dev nD) (n : Fin 8) :
    shapeCast S8 (extractStridedSlice S8x1x1 ![0, 0, 0] (G m c) slices_S8x1x128_S8x1x1_0_0_0) shapeCasts_S8x1x1_S8 (ix1 n)
      = pairSum (m ((c : Thread nD τ).loc main_arg0)) (m ((c : Thread nD τ).loc main_arg1)) n := by
  rw [shapeCast_apply _ shapeCasts_S8x1x1_S8 (ix1 n) (ix3 n (0 : Fin 1) (0 : Fin 1)) (by
    rw [Shape.rowMajor_val_three, Shape.rowMajor_val_one]
    show (n.val * 1 + 0) * 1 + 0 = n.val
    omega)]
  rw [extractStridedSlice_apply _ _ slices_S8x1x128_S8x1x1_0_0_0 (ix3 n (0 : Fin 1) (0 : Fin 1)) (ix3 n (0 : Fin 1) (0 : Fin 128)) (fun a => by
    match a with
    | ⟨0, _⟩ => exact (Nat.zero_add _).symm
    | ⟨1, _⟩ => rfl
    | ⟨2, _⟩ => rfl)]
  rfl

/-- The program's result after the run is the specification's loss of its two argument arrays. -/
theorem result_eq (c : Dev nD) :
    Pipeline.afterTail₀ cfgs (dats m) 0 (V0 m) [hostOps1] c main_v4
      = fun _ => loss (m ((c : Thread nD τ).loc main_arg0)) (m ((c : Thread nD τ).loc main_arg1)) := by
  unfold Pipeline.afterTail₀
  show StableHlo.after hostOps1 _ (Proc.devRef .tc main_v4) = _
  after_results
  rw [tail_arr]
  funext j
  show Ideal.div (Ideal.hostReduceAdd reducesTo_S8_S_d0
      (shapeCast S8 (extractStridedSlice S8x1x1 ![0, 0, 0] (G m c) slices_S8x1x128_S8x1x1_0_0_0) shapeCasts_S8x1x1_S8)
      (Ideal.ofBits .f32 0x00000000#32) j) (Ideal.ofBits .f32 0x4CC40000#32) = _
  rw [Ideal.hostReduceAdd_total reducesTo_S8_S_d0 (fun b => b.elim0), Ideal.ofBits_zero_f32, zero_add, sum_idx1]
  unfold loss
  refine congrArg (fun t => Ideal.div t (Ideal.ofBits .f32 0x4CC40000#32)) ?_
  rw [← sum_pairSum]
  exact Finset.sum_congr rfl fun n _ => picked_apply m c n

/-- The kernel program's run, read: the result at the specification's loss, the arguments unchanged. -/
theorem run : θ_run defs (onTc (τ := τ) (main (F := Ideal))) ⟨m, fun _ => 0, ρ⟩ fun r => ∀ c : Dev nD,
      r.2.mem ((c.tc : Thread nD τ).loc main_v4) = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v4 (by decide)).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Census

end
-- ==== Proof.Census.RefShape.lean ====
/-
  The reference program's result, written once as a function of the two argument arrays.

  The reference reduces both arrays to grey levels (the same weighted sum of the three colour planes), pads each grey
  array with three rows and columns of zeros all round, and, 49 times over (rows outermost), cuts the 8 × 512 × 512
  window of the padded array that starts at `(0, a, b)`: the grey array displaced by `(a − 3, b − 3)` and continued by
  zero. It takes the root of the squared difference of differences plus the small constant at every pixel, sums each
  such array entirely, adds the 49 sums up one after the other from zero, and divides by the number of roots.

  Here that text is stated as one fold over the list of displacements, at any float instance, in the two groupings the proof uses: over the 49 displacements in one list
  (`lossR`), and row by row (`lossR_rows`); the two are the same composition of operations.
-/
import proofs.«169308_j28260884807724_2_alg».proof.Proof.Gen.ReferenceIdeal
import proofs.«169308_j28260884807724_2_alg».proof.Proof.Census.Spec

noncomputable section

namespace Cert.ReferenceIdeal.Census

open Idealize.ShloMosaic Idealize.ShloMosaic.TcCoe Idealize.SL.Sem Cert.ReferenceIdeal Cert.ReferenceIdeal.Gen Cert.Census

variable {F : FTy → Type} [FloatOps F]

/-- The batch in grey levels. -/
def grayR (A : FVec F S8x3x512x512 .f32) : FVec F S8x512x512 .f32 :=
  addf (addf
    (mulf (broadcastInDim S8x512x512 ![] bcast_S_S8x512x512 (constant S_ .f32 0x3E991687#32))
      (shapeCast S8x512x512 (extractStridedSlice S8x1x512x512 ![0, 0, 0, 0] A slices_S8x3x512x512_S8x1x512x512_0_0_0_0) shapeCasts_S8x1x512x512_S8x512x512))
    (mulf (broadcastInDim S8x512x512 ![] bcast_S_S8x512x512 (constant S_ .f32 0x3F1645A2#32))
      (shapeCast S8x512x512 (extractStridedSlice S8x1x512x512 ![0, 1, 0, 0] A slices_S8x3x512x512_S8x1x512x512_0_1_0_0) shapeCasts_S8x1x512x512_S8x512x512)))
    (mulf (broadcastInDim S8x512x512 ![] bcast_S_S8x512x512 (constant S_ .f32 0x3DE978D5#32))
      (shapeCast S8x512x512 (extractStridedSlice S8x1x512x512 ![0, 2, 0, 0] A slices_S8x3x512x512_S8x1x512x512_0_2_0_0) shapeCasts_S8x1x512x512_S8x512x512))

/-- A grey batch with three rows and three columns of zeros added on every side of every picture. -/
def paddedR (g : FVec F S8x512x512 .f32) : FVec F S8x518x518 .f32 :=
  pad S8x518x518 ![0, 3, 3] ![0, 3, 3] ![0, 0, 0] g (sitofp (F := F) .f32 (constantI S_ 32 0#32)) pads_S8x512x512_S8x518x518_000_330_330 h_S_

/-- The 8 × 512 × 512 window of a padded batch that starts at `(0, d.1, d.2)`. -/
def windowR (d : ℕ × ℕ) (P : FVec F S8x518x518 .f32) : FVec F S8x512x512 .f32 :=
  Host.dynamicSlice S8x512x512 P (fun k => (((![constantI S_ 32 0#32, constantI S_ 32 (BitVec.ofNat 32 d.1), constantI S_ 32 (BitVec.ofNat 32 d.2)] : Fin 3 → (⟨S_, .i32⟩ : BufTy).Contents (Elt F))) k (Shape.Idx.first h_S_)).toInt) sliceFits_S8x518x518_S8x512x512

/-- The roots of displacement `d`, pixel by pixel over the batch. -/
def rootsR (d : ℕ × ℕ) (p g : FVec F S8x512x512 .f32) : FVec F S8x512x512 .f32 :=
  Host.sqrt (addf (mulf (subf (subf (windowR d (paddedR p)) p) (subf (windowR d (paddedR g)) g))
      (subf (subf (windowR d (paddedR p)) p) (subf (windowR d (paddedR g)) g)))
    (broadcastInDim S8x512x512 ![] bcast_S_S8x512x512 (constant S_ .f32 0x358637BD#32)))

/-- The 49 whole-array sums, added up one displacement after the other from zero. -/
def totalR (p g : FVec F S8x512x512 .f32) : FVec F S_ .f32 :=
  disps.foldl (fun acc d => addf acc (Host.reduceAdd (rootsR d p g) (constant S_ .f32 0x00000000#32) reducesTo_S8x512x512_S_d0_1_2 h_S_))
    (constant S_ .f32 0x00000000#32)

/-- The reference's result. -/
def lossR (A B : FVec F S8x3x512x512 .f32) : FVec F S_ .f32 :=
  Host.divf (totalR (grayR A) (grayR B)) (constant S_ .f32 0x4CC40000#32)

/-- The whole-array sum of the roots of displacement `d`, from the two padded grey batches and the two grey batches. -/
def redW (d : ℕ × ℕ) (P1 P2 : FVec F S8x518x518 .f32) (g1 g2 : FVec F S8x512x512 .f32) : FVec F S_ .f32 :=
  Host.reduceAdd (Host.sqrt (addf (mulf (subf (subf (windowR d P1) g1) (subf (windowR d P2) g2))
      (subf (subf (windowR d P1) g1) (subf (windowR d P2) g2)))
    (broadcastInDim S8x512x512 ![] bcast_S_S8x512x512 (constant S_ .f32 0x358637BD#32))))
    (constant S_ .f32 0x00000000#32) reducesTo_S8x512x512_S_d0_1_2 h_S_

/-- One row of seven displacements (row displacement `a − 3`) accumulated onto `acc`. -/
def rowW (a : ℕ) (P1 P2 : FVec F S8x518x518 .f32) (g1 g2 : FVec F S8x512x512 .f32) (acc : FVec F S_ .f32) : FVec F S_ .f32 :=
  (List.range 7).foldl (fun acc b => addf acc (redW (a, b) P1 P2 g1 g2)) acc

set_option maxRecDepth 65536 in
set_option maxHeartbeats 4000000 in
/-- The seven rows accumulated one after the other from zero, then the division: the reference's result. -/
theorem lossR_rows (A B : FVec F S8x3x512x512 .f32) :
    Host.divf
      (rowW 6 (paddedR (grayR A)) (paddedR (grayR B)) (grayR A) (grayR B)
      (rowW 5 (paddedR (grayR A)) (paddedR (grayR B)) (grayR A) (grayR B)
      (rowW 4 (paddedR (grayR A)) (paddedR (grayR B)) (grayR A) (grayR B)
      (rowW 3 (paddedR (grayR A)) (paddedR (grayR B)) (grayR A) (grayR B)
      (rowW 2 (paddedR (grayR A)) (paddedR (grayR B)) (grayR A) (grayR B)
      (rowW 1 (paddedR (grayR A)) (paddedR (grayR B)) (grayR A) (grayR B)
      (rowW 0 (paddedR (grayR A)) (paddedR (grayR B)) (grayR A) (grayR B) (constant S_ .f32 0x00000000#32))))))))
      (constant S_ .f32 0x4CC40000#32)
      = lossR A B := rfl

end Cert.ReferenceIdeal.Census

end
-- ==== Proof.Census.RefIndex.lean ====
/-
  The reference's result read at the ideal values.

  The window of the zero-padded grey batch that starts at `(0, a, b)` reads, at `(n, r, c)`, the padded batch at
  `(n, r + a, c + b)`: picture `n` continued by zero (`window_apply`; the padding value is the integer zero converted,
  the real number zero). Hence each root is the specification's `term`, each whole-array sum the triple sum over
  picture, row and column, and the result the specification's `loss` of the two argument arrays (`lossR_eq`).
-/
import proofs.«169308_j28260884807724_2_alg».proof.Proof.Census.RefShape
import Idealize.ShloMosaic.Lib.KernelVsHost
import Idealize.ShloMosaic.Lib.DynamicIndex
import Idealize.ShloMosaic.Lib.Pipeline.Value
import Idealize.ShloMosaic.PureOps.Ideal.Laws

noncomputable section

namespace Cert.ReferenceIdeal.Census

open Idealize.ShloMosaic Idealize.ShloMosaic.ValueIdx Cert.ReferenceIdeal Cert.ReferenceIdeal.Gen Cert.Census

/-- One colour plane of the batch, cut out and with its unit axis dropped, read at `(n, r, c)`. -/
theorem plane_apply (A : FVec Ideal S8x3x512x512 .f32) (ch : Fin 3) (o : ℕ) (ho : ch.val = o) (h : S8x3x512x512.Slices ![0, o, 0, 0] S8x1x512x512)
    (n : Fin 8) (r c : Fin 512) :
    shapeCast S8x512x512 (extractStridedSlice S8x1x512x512 ![0, o, 0, 0] A h) shapeCasts_S8x1x512x512_S8x512x512 (ix3 n r c)
      = A (ix4 n ch r c) := by
  rw [shapeCast_apply _ shapeCasts_S8x1x512x512_S8x512x512 (ix3 n r c) (ix4 n (0 : Fin 1) r c) (by
    rw [Shape.rowMajor_val_four, Shape.rowMajor_val_three]
    show ((n.val * 1 + 0) * 512 + r.val) * 512 + c.val = (n.val * 512 + r.val) * 512 + c.val
    omega)]
  exact extractStridedSlice_apply _ A h _ _ (fun a => by
    match a with
    | ⟨0, _⟩ => exact (Nat.zero_add _).symm
    | ⟨1, _⟩ => show ch.val = o + 0; omega
    | ⟨2, _⟩ => exact (Nat.zero_add _).symm
    | ⟨3, _⟩ => exact (Nat.zero_add _).symm)

/-- A scalar constant broadcast over the batch, read anywhere. -/
theorem splat_apply (w : BitVec 32) (j : S8x512x512.Idx) :
    broadcastInDim S8x512x512 ![] bcast_S_S8x512x512 (constant (F := Ideal) S_ .f32 w) j = Ideal.ofBits .f32 w :=
  broadcastInDim_apply ![] bcast_S_S8x512x512 _ j ix0 (fun a => a.elim0)

/-- The grey batch, entry by entry. -/
theorem grayR_apply (A : FVec Ideal S8x3x512x512 .f32) (n : Fin 8) (r c : Fin 512) :
    grayR A (ix3 n r c) = gray A n r c := by
  show (broadcastInDim S8x512x512 ![] bcast_S_S8x512x512 (constant (F := Ideal) S_ .f32 0x3E991687#32) (ix3 n r c)
        * shapeCast S8x512x512 (extractStridedSlice S8x1x512x512 ![0, 0, 0, 0] A slices_S8x3x512x512_S8x1x512x512_0_0_0_0) shapeCasts_S8x1x512x512_S8x512x512 (ix3 n r c)
      + broadcastInDim S8x512x512 ![] bcast_S_S8x512x512 (constant (F := Ideal) S_ .f32 0x3F1645A2#32) (ix3 n r c)
        * shapeCast S8x512x512 (extractStridedSlice S8x1x512x512 ![0, 1, 0, 0] A slices_S8x3x512x512_S8x1x512x512_0_1_0_0) shapeCasts_S8x1x512x512_S8x512x512 (ix3 n r c))
      + broadcastInDim S8x512x512 ![] bcast_S_S8x512x512 (constant (F := Ideal) S_ .f32 0x3DE978D5#32) (ix3 n r c)
        * shapeCast S8x512x512 (extractStridedSlice S8x1x512x512 ![0, 2, 0, 0] A slices_S8x3x512x512_S8x1x512x512_0_2_0_0) shapeCasts_S8x1x512x512_S8x512x512 (ix3 n r c) = _
  rw [splat_apply, splat_apply, splat_apply,
    plane_apply A (0 : Fin 3) 0 rfl slices_S8x3x512x512_S8x1x512x512_0_0_0_0,
    plane_apply A (1 : Fin 3) 1 rfl slices_S8x3x512x512_S8x1x512x512_0_1_0_0,
    plane_apply A (2 : Fin 3) 2 rfl slices_S8x3x512x512_S8x1x512x512_0_2_0_0]
  rfl

/-- The padded batch at `(n, R, C)`: picture `n` continued by zero. -/
theorem paddedR_apply (g : FVec Ideal S8x512x512 .f32) (n : Fin 8) (R C : Fin 518) :
    paddedR g (ix3 n R C) = padded (fun r c => g (ix3 n r c)) R.val C.val := by
  unfold paddedR padded
  by_cases hin : (3 ≤ R.val ∧ R.val < 515) ∧ (3 ≤ C.val ∧ C.val < 515)
  · rw [dif_pos hin]
    exact pad_apply_of_inside ![0, 3, 3] ![0, 3, 3] ![0, 0, 0] g _ pads_S8x512x512_S8x518x518_000_330_330 h_S_ (ix3 n R C)
      (ix3 n (⟨R.val - 3, by omega⟩ : Fin 512) (⟨C.val - 3, by omega⟩ : Fin 512)) (fun a => by
        match a with
        | ⟨0, _⟩ => show n.val = 0 + n.val * (0 + 1); omega
        | ⟨1, _⟩ => show R.val = 3 + (R.val - 3) * (0 + 1); omega
        | ⟨2, _⟩ => show C.val = 3 + (C.val - 3) * (0 + 1); omega)
  · rw [dif_neg hin]
    have hz : (sitofp (F := Ideal) .f32 (constantI S_ 32 0#32)) (Shape.Idx.first h_S_) = 0 := sitofp_zero
    by_cases hR : 3 ≤ R.val ∧ R.val < 515
    · have hC : ¬(3 ≤ C.val ∧ C.val < 515) := fun h => hin ⟨hR, h⟩
      exact (pad_apply_of_not_inside ![0, 3, 3] ![0, 3, 3] ![0, 0, 0] g _ pads_S8x512x512_S8x518x518_000_330_330 h_S_ (ix3 n R C)
        (2 : Fin 3) (by
          show ¬(3 ≤ C.val ∧ (C.val - 3) % (0 + 1) = 0 ∧ (C.val - 3) / (0 + 1) < 512)
          omega)).trans hz
    · exact (pad_apply_of_not_inside ![0, 3, 3] ![0, 3, 3] ![0, 0, 0] g _ pads_S8x512x512_S8x518x518_000_330_330 h_S_ (ix3 n R C)
        (1 : Fin 3) (by
          show ¬(3 ≤ R.val ∧ (R.val - 3) % (0 + 1) = 0 ∧ (R.val - 3) / (0 + 1) < 512)
          omega)).trans hz

/-- The window that starts at `(0, a, b)`, at `(n, r, c)`: the padded batch at `(n, r + a, c + b)`. -/
theorem window_apply (d : ℕ × ℕ) (hd : d.1 < 7 ∧ d.2 < 7) (g : FVec Ideal S8x512x512 .f32) (n : Fin 8) (r c : Fin 512) :
    windowR d (paddedR g) (ix3 n r c) = padded (fun r c => g (ix3 n r c)) (r.val + d.1) (c.val + d.2) := by
  have hoff : S8x518x518.Slices ![0, d.1, d.2] S8x512x512 := ⟨rfl, fun a => by
    match a with
    | ⟨0, _⟩ => show 0 + 8 ≤ 8; omega
    | ⟨1, _⟩ => show d.1 + 512 ≤ 518; omega
    | ⟨2, _⟩ => show d.2 + 512 ≤ 518; omega⟩
  unfold windowR
  rw [Host.dynamicSlice_eq_extractStridedSlice S8x512x512 (paddedR g) _ ![0, d.1, d.2] sliceFits_S8x518x518_S8x512x512 hoff (fun a => by
    match a with
    | ⟨0, _⟩ => rfl
    | ⟨1, _⟩ => exact toInt_ofNat_of_lt (by omega)
    | ⟨2, _⟩ => exact toInt_ofNat_of_lt (by omega))]
  rw [extractStridedSlice_apply _ _ hoff (ix3 n r c) (ix3 n (⟨r.val + d.1, by omega⟩ : Fin 518) (⟨c.val + d.2, by omega⟩ : Fin 518)) (fun a => by
    match a with
    | ⟨0, _⟩ => exact (Nat.zero_add _).symm
    | ⟨1, _⟩ => exact Nat.add_comm _ _
    | ⟨2, _⟩ => exact Nat.add_comm _ _)]
  exact paddedR_apply g n _ _

/-- Each root is the specification's. -/
theorem rootsR_apply (d : ℕ × ℕ) (hd : d.1 < 7 ∧ d.2 < 7) (p g : FVec Ideal S8x512x512 .f32) (n : Fin 8) (r c : Fin 512) :
    rootsR d p g (ix3 n r c) = term (fun r c => p (ix3 n r c)) (fun r c => g (ix3 n r c)) d r c := by
  show Ideal.sqrt (((windowR d (paddedR p) (ix3 n r c) - p (ix3 n r c)) - (windowR d (paddedR g) (ix3 n r c) - g (ix3 n r c)))
      * ((windowR d (paddedR p) (ix3 n r c) - p (ix3 n r c)) - (windowR d (paddedR g) (ix3 n r c) - g (ix3 n r c)))
      + broadcastInDim S8x512x512 ![] bcast_S_S8x512x512 (constant (F := Ideal) S_ .f32 0x358637BD#32) (ix3 n r c)) = _
  rw [window_apply d hd p n r c, window_apply d hd g n r c, splat_apply]
  rfl

/-- An accumulation of rank-zero arrays through a list of steps, read at its one entry. -/
theorem foldl_addf_apply {δ : Type} (L : List δ) (f : δ → FVec Ideal S_ .f32) (init : FVec Ideal S_ .f32) (j : S_.Idx) :
    (L.foldl (fun acc d => addf acc (f d)) init) j = L.foldl (fun acc d => acc + f d j) (init j) := by
  induction L generalizing init with
  | nil => rfl
  | cons d L ih =>
    simp only [List.foldl_cons]
    exact ih (addf init (f d))

/-- The reference's result is the specification's loss of its two argument arrays. -/
theorem lossR_eq (A B : FVec Ideal S8x3x512x512 .f32) (j : S_.Idx) : lossR A B j = loss A B := by
  show Ideal.div (totalR (grayR A) (grayR B) j) (Ideal.ofBits .f32 0x4CC40000#32) = _
  unfold loss total totalR
  rw [foldl_addf_apply]
  show Ideal.div (disps.foldl _ (Ideal.ofBits .f32 0x00000000#32)) _ = _
  rw [Ideal.ofBits_zero_f32]
  refine congrArg (fun t => Ideal.div t (Ideal.ofBits .f32 0x4CC40000#32)) ?_
  refine foldl_add_congr disps _ _ 0 fun d hd => ?_
  show Ideal.hostReduceAdd reducesTo_S8x512x512_S_d0_1_2 (rootsR d (grayR A) (grayR B)) (Ideal.ofBits .f32 0x00000000#32) j = _
  rw [Ideal.hostReduceAdd_total reducesTo_S8x512x512_S_d0_1_2 (fun b => b.elim0), Ideal.ofBits_zero_f32, zero_add, sum_idx3]
  unfold dispSum
  refine Finset.sum_congr rfl fun n _ => Finset.sum_congr rfl fun r _ => Finset.sum_congr rfl fun c _ => ?_
  rw [rootsR_apply d (disps_lt hd)]
  congr 1 <;> funext r c <;> exact grayR_apply _ n r c

end Cert.ReferenceIdeal.Census

end
-- ==== Proof.Census.RefRows.lean ====
/-
  Reading a stretch of the reference's host lines: what is common to every stretch.

  A stretch's results are read by one simplifier pass over its operations: at its own result buffer an operation
  gives its function of its operands' contents, at every other buffer what was there. A slice with three start-index
  operands is read with the three starts named one by one (`unaryIndexed3_result'`), so that the pass can go on into
  each of them.
-/
import proofs.«169308_j28260884807724_2_alg».proof.Proof.RefOps
import proofs.«169308_j28260884807724_2_alg».proof.Proof.Census.RefShape

noncomputable section

namespace Cert.ReferenceIdeal.Census

open Idealize.ShloMosaic Idealize.ShloMosaic.TcCoe Idealize.SL.Sem Idealize.ShloMosaic.StableHlo
open Cert.ReferenceIdeal Cert.ReferenceIdeal.Gen

variable {Val : EltTy → Type}

/-- A one-operand operation with three index operands, at its result buffer: its function of the operand's contents
    and of the three index operands' contents, each named. -/
theorem unaryIndexed3_result' {a c0 c1 c2 y : Ref sig .tc} (T : BufTy)
    (f : a.ty.Contents Val → (Fin 3 → T.Contents Val) → y.ty.Contents Val) (hT ha hix hy) (F : Valuation τ sig Val) :
    (unaryIndexed (τ := τ) a ![c0, c1, c2] T y f hT ha hix hy).result F (no_index (Proc.devRef .tc y))
      = f (F (Proc.devRef .tc a))
          ![cast (congrArg (fun U : BufTy => U.Contents Val) (hT 0)) (F (Proc.devRef .tc c0)),
            cast (congrArg (fun U : BufTy => U.Contents Val) (hT 1)) (F (Proc.devRef .tc c1)),
            cast (congrArg (fun U : BufTy => U.Contents Val) (hT 2)) (F (Proc.devRef .tc c2))] := by
  rw [unaryIndexed_result']
  congr 1
  funext k
  fin_cases k <;> rfl

/-- One simplifier pass over a stretch of operations. -/
macro "read_stretch" : tactic =>
  `(tactic| (simp (disch := decide) only [after_cons, after_nil,
      nullary_result', unary_result', binary_result', reshape_result', unaryIndexed3_result',
      nullary_result_ne', unary_result_ne', binary_result_ne', reshape_result_ne', unaryIndexed_result_ne', cast_eq]))

end Cert.ReferenceIdeal.Census

end
-- ==== Proof.Census.RefPrefix.lean ====
/-
  The reference's host lines before the 49 displacements: the two batches in grey levels and their zero-padded copies,
  as functions of the program's two arguments, which stay as they were.
-/
import proofs.«169308_j28260884807724_2_alg».proof.Proof.Census.RefRows

set_option maxHeartbeats 16000000
set_option maxRecDepth 65536

noncomputable section

namespace Cert.ReferenceIdeal.Census

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

theorem prefix_v13 (W : Valuation τ sig (Elt F)) :
    after opsP W (Proc.devRef .tc main_v13) = grayR (W (Proc.devRef .tc main_arg0)) := by
  unfold opsP
  read_stretch
  rfl

theorem prefix_v27 (W : Valuation τ sig (Elt F)) :
    after opsP W (Proc.devRef .tc main_v27) = grayR (W (Proc.devRef .tc main_arg1)) := by
  unfold opsP
  read_stretch
  rfl

theorem prefix_v28 (W : Valuation τ sig (Elt F)) :
    after opsP W (Proc.devRef .tc main_v28) = paddedR (grayR (W (Proc.devRef .tc main_arg0))) := by
  unfold opsP
  read_stretch
  rfl

theorem prefix_v29 (W : Valuation τ sig (Elt F)) :
    after opsP W (Proc.devRef .tc main_v29) = paddedR (grayR (W (Proc.devRef .tc main_arg1))) := by
  unfold opsP
  read_stretch
  rfl

theorem prefix_keep_arg0 (W : Valuation τ sig (Elt F)) : after opsP W (Proc.devRef .tc main_arg0) = W (Proc.devRef .tc main_arg0) := by unfold opsP; read_stretch
theorem prefix_keep_arg1 (W : Valuation τ sig (Elt F)) : after opsP W (Proc.devRef .tc main_arg1) = W (Proc.devRef .tc main_arg1) := by unfold opsP; read_stretch

/-- The last two lines: the total divided by the number of roots. -/
theorem tail_v569 (W : Valuation τ sig (Elt F)) :
    after opsT W (Proc.devRef .tc main_v569) = Host.divf (W (Proc.devRef .tc main_v568)) (constant S_ .f32 0x4CC40000#32) := by
  unfold opsT
  read_stretch

theorem tail_keep_arg0 (W : Valuation τ sig (Elt F)) : after opsT W (Proc.devRef .tc main_arg0) = W (Proc.devRef .tc main_arg0) := by unfold opsT; read_stretch
theorem tail_keep_arg1 (W : Valuation τ sig (Elt F)) : after opsT W (Proc.devRef .tc main_arg1) = W (Proc.devRef .tc main_arg1) := by unfold opsT; read_stretch

end Cert.ReferenceIdeal.Census

end
-- ==== Proof.Census.RefRow0.lean ====
/-
  Row 0 of the 49 displacements (row displacement -3): the seven stretches of host lines that cut the seven windows of
  this row, take the roots, sum them and add the sums onto the running total. Read as functions of the buffers the row
  finds: the two grey batches, the two padded grey batches and the running total (zero before this row); the row leaves those buffers
  and the program's arguments as they were.
-/
import proofs.«169308_j28260884807724_2_alg».proof.Proof.Census.RefRows

set_option maxHeartbeats 16000000
set_option maxRecDepth 65536

noncomputable section

namespace Cert.ReferenceIdeal.Census

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- The running total after row 0. -/
theorem row0_total (W : Valuation τ sig (Elt F)) :
    after opsR0 W (Proc.devRef .tc main_v106)
      = rowW 0 (W (Proc.devRef .tc main_v28)) (W (Proc.devRef .tc main_v29)) (W (Proc.devRef .tc main_v13)) (W (Proc.devRef .tc main_v27)) (constant S_ .f32 0x00000000#32) := by
  unfold opsR0
  read_stretch
  rfl

theorem row0_keep_v13 (W : Valuation τ sig (Elt F)) : after opsR0 W (Proc.devRef .tc main_v13) = W (Proc.devRef .tc main_v13) := by unfold opsR0; read_stretch
theorem row0_keep_v27 (W : Valuation τ sig (Elt F)) : after opsR0 W (Proc.devRef .tc main_v27) = W (Proc.devRef .tc main_v27) := by unfold opsR0; read_stretch
theorem row0_keep_v28 (W : Valuation τ sig (Elt F)) : after opsR0 W (Proc.devRef .tc main_v28) = W (Proc.devRef .tc main_v28) := by unfold opsR0; read_stretch
theorem row0_keep_v29 (W : Valuation τ sig (Elt F)) : after opsR0 W (Proc.devRef .tc main_v29) = W (Proc.devRef .tc main_v29) := by unfold opsR0; read_stretch
theorem row0_keep_arg0 (W : Valuation τ sig (Elt F)) : after opsR0 W (Proc.devRef .tc main_arg0) = W (Proc.devRef .tc main_arg0) := by unfold opsR0; read_stretch
theorem row0_keep_arg1 (W : Valuation τ sig (Elt F)) : after opsR0 W (Proc.devRef .tc main_arg1) = W (Proc.devRef .tc main_arg1) := by unfold opsR0; read_stretch

end Cert.ReferenceIdeal.Census

end
-- ==== Proof.Census.RefRow1.lean ====
/-
  Row 1 of the 49 displacements (row displacement -2): the seven stretches of host lines that cut the seven windows of
  this row, take the roots, sum them and add the sums onto the running total. Read as functions of the buffers the row
  finds: the two grey batches, the two padded grey batches and the running total; the row leaves those buffers
  and the program's arguments as they were.
-/
import proofs.«169308_j28260884807724_2_alg».proof.Proof.Census.RefRows

set_option maxHeartbeats 16000000
set_option maxRecDepth 65536

noncomputable section

namespace Cert.ReferenceIdeal.Census

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- The running total after row 1. -/
theorem row1_total (W : Valuation τ sig (Elt F)) :
    after opsR1 W (Proc.devRef .tc main_v183)
      = rowW 1 (W (Proc.devRef .tc main_v28)) (W (Proc.devRef .tc main_v29)) (W (Proc.devRef .tc main_v13)) (W (Proc.devRef .tc main_v27)) (W (Proc.devRef .tc main_v106)) := by
  unfold opsR1
  read_stretch
  rfl

theorem row1_keep_v13 (W : Valuation τ sig (Elt F)) : after opsR1 W (Proc.devRef .tc main_v13) = W (Proc.devRef .tc main_v13) := by unfold opsR1; read_stretch
theorem row1_keep_v27 (W : Valuation τ sig (Elt F)) : after opsR1 W (Proc.devRef .tc main_v27) = W (Proc.devRef .tc main_v27) := by unfold opsR1; read_stretch
theorem row1_keep_v28 (W : Valuation τ sig (Elt F)) : after opsR1 W (Proc.devRef .tc main_v28) = W (Proc.devRef .tc main_v28) := by unfold opsR1; read_stretch
theorem row1_keep_v29 (W : Valuation τ sig (Elt F)) : after opsR1 W (Proc.devRef .tc main_v29) = W (Proc.devRef .tc main_v29) := by unfold opsR1; read_stretch
theorem row1_keep_arg0 (W : Valuation τ sig (Elt F)) : after opsR1 W (Proc.devRef .tc main_arg0) = W (Proc.devRef .tc main_arg0) := by unfold opsR1; read_stretch
theorem row1_keep_arg1 (W : Valuation τ sig (Elt F)) : after opsR1 W (Proc.devRef .tc main_arg1) = W (Proc.devRef .tc main_arg1) := by unfold opsR1; read_stretch

end Cert.ReferenceIdeal.Census

end
-- ==== Proof.Census.RefRow2.lean ====
/-
  Row 2 of the 49 displacements (row displacement -1): the seven stretches of host lines that cut the seven windows of
  this row, take the roots, sum them and add the sums onto the running total. Read as functions of the buffers the row
  finds: the two grey batches, the two padded grey batches and the running total; the row leaves those buffers
  and the program's arguments as they were.
-/
import proofs.«169308_j28260884807724_2_alg».proof.Proof.Census.RefRows

set_option maxHeartbeats 16000000
set_option maxRecDepth 65536

noncomputable section

namespace Cert.ReferenceIdeal.Census

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- The running total after row 2. -/
theorem row2_total (W : Valuation τ sig (Elt F)) :
    after opsR2 W (Proc.devRef .tc main_v260)
      = rowW 2 (W (Proc.devRef .tc main_v28)) (W (Proc.devRef .tc main_v29)) (W (Proc.devRef .tc main_v13)) (W (Proc.devRef .tc main_v27)) (W (Proc.devRef .tc main_v183)) := by
  unfold opsR2
  read_stretch
  rfl

theorem row2_keep_v13 (W : Valuation τ sig (Elt F)) : after opsR2 W (Proc.devRef .tc main_v13) = W (Proc.devRef .tc main_v13) := by unfold opsR2; read_stretch
theorem row2_keep_v27 (W : Valuation τ sig (Elt F)) : after opsR2 W (Proc.devRef .tc main_v27) = W (Proc.devRef .tc main_v27) := by unfold opsR2; read_stretch
theorem row2_keep_v28 (W : Valuation τ sig (Elt F)) : after opsR2 W (Proc.devRef .tc main_v28) = W (Proc.devRef .tc main_v28) := by unfold opsR2; read_stretch
theorem row2_keep_v29 (W : Valuation τ sig (Elt F)) : after opsR2 W (Proc.devRef .tc main_v29) = W (Proc.devRef .tc main_v29) := by unfold opsR2; read_stretch
theorem row2_keep_arg0 (W : Valuation τ sig (Elt F)) : after opsR2 W (Proc.devRef .tc main_arg0) = W (Proc.devRef .tc main_arg0) := by unfold opsR2; read_stretch
theorem row2_keep_arg1 (W : Valuation τ sig (Elt F)) : after opsR2 W (Proc.devRef .tc main_arg1) = W (Proc.devRef .tc main_arg1) := by unfold opsR2; read_stretch

end Cert.ReferenceIdeal.Census

end
-- ==== Proof.Census.RefRow3.lean ====
/-
  Row 3 of the 49 displacements (row displacement 0): the seven stretches of host lines that cut the seven windows of
  this row, take the roots, sum them and add the sums onto the running total. Read as functions of the buffers the row
  finds: the two grey batches, the two padded grey batches and the running total; the row leaves those buffers
  and the program's arguments as they were.
-/
import proofs.«169308_j28260884807724_2_alg».proof.Proof.Census.RefRows

set_option maxHeartbeats 16000000
set_option maxRecDepth 65536

noncomputable section

namespace Cert.ReferenceIdeal.Census

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- The running total after row 3. -/
theorem row3_total (W : Valuation τ sig (Elt F)) :
    after opsR3 W (Proc.devRef .tc main_v337)
      = rowW 3 (W (Proc.devRef .tc main_v28)) (W (Proc.devRef .tc main_v29)) (W (Proc.devRef .tc main_v13)) (W (Proc.devRef .tc main_v27)) (W (Proc.devRef .tc main_v260)) := by
  unfold opsR3
  read_stretch
  rfl

theorem row3_keep_v13 (W : Valuation τ sig (Elt F)) : after opsR3 W (Proc.devRef .tc main_v13) = W (Proc.devRef .tc main_v13) := by unfold opsR3; read_stretch
theorem row3_keep_v27 (W : Valuation τ sig (Elt F)) : after opsR3 W (Proc.devRef .tc main_v27) = W (Proc.devRef .tc main_v27) := by unfold opsR3; read_stretch
theorem row3_keep_v28 (W : Valuation τ sig (Elt F)) : after opsR3 W (Proc.devRef .tc main_v28) = W (Proc.devRef .tc main_v28) := by unfold opsR3; read_stretch
theorem row3_keep_v29 (W : Valuation τ sig (Elt F)) : after opsR3 W (Proc.devRef .tc main_v29) = W (Proc.devRef .tc main_v29) := by unfold opsR3; read_stretch
theorem row3_keep_arg0 (W : Valuation τ sig (Elt F)) : after opsR3 W (Proc.devRef .tc main_arg0) = W (Proc.devRef .tc main_arg0) := by unfold opsR3; read_stretch
theorem row3_keep_arg1 (W : Valuation τ sig (Elt F)) : after opsR3 W (Proc.devRef .tc main_arg1) = W (Proc.devRef .tc main_arg1) := by unfold opsR3; read_stretch

end Cert.ReferenceIdeal.Census

end
-- ==== Proof.Census.RefRow4.lean ====
/-
  Row 4 of the 49 displacements (row displacement 1): the seven stretches of host lines that cut the seven windows of
  this row, take the roots, sum them and add the sums onto the running total. Read as functions of the buffers the row
  finds: the two grey batches, the two padded grey batches and the running total; the row leaves those buffers
  and the program's arguments as they were.
-/
import proofs.«169308_j28260884807724_2_alg».proof.Proof.Census.RefRows

set_option maxHeartbeats 16000000
set_option maxRecDepth 65536

noncomputable section

namespace Cert.ReferenceIdeal.Census

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- The running total after row 4. -/
theorem row4_total (W : Valuation τ sig (Elt F)) :
    after opsR4 W (Proc.devRef .tc main_v414)
      = rowW 4 (W (Proc.devRef .tc main_v28)) (W (Proc.devRef .tc main_v29)) (W (Proc.devRef .tc main_v13)) (W (Proc.devRef .tc main_v27)) (W (Proc.devRef .tc main_v337)) := by
  unfold opsR4
  read_stretch
  rfl

theorem row4_keep_v13 (W : Valuation τ sig (Elt F)) : after opsR4 W (Proc.devRef .tc main_v13) = W (Proc.devRef .tc main_v13) := by unfold opsR4; read_stretch
theorem row4_keep_v27 (W : Valuation τ sig (Elt F)) : after opsR4 W (Proc.devRef .tc main_v27) = W (Proc.devRef .tc main_v27) := by unfold opsR4; read_stretch
theorem row4_keep_v28 (W : Valuation τ sig (Elt F)) : after opsR4 W (Proc.devRef .tc main_v28) = W (Proc.devRef .tc main_v28) := by unfold opsR4; read_stretch
theorem row4_keep_v29 (W : Valuation τ sig (Elt F)) : after opsR4 W (Proc.devRef .tc main_v29) = W (Proc.devRef .tc main_v29) := by unfold opsR4; read_stretch
theorem row4_keep_arg0 (W : Valuation τ sig (Elt F)) : after opsR4 W (Proc.devRef .tc main_arg0) = W (Proc.devRef .tc main_arg0) := by unfold opsR4; read_stretch
theorem row4_keep_arg1 (W : Valuation τ sig (Elt F)) : after opsR4 W (Proc.devRef .tc main_arg1) = W (Proc.devRef .tc main_arg1) := by unfold opsR4; read_stretch

end Cert.ReferenceIdeal.Census

end
-- ==== Proof.Census.RefRow5.lean ====
/-
  Row 5 of the 49 displacements (row displacement 2): the seven stretches of host lines that cut the seven windows of
  this row, take the roots, sum them and add the sums onto the running total. Read as functions of the buffers the row
  finds: the two grey batches, the two padded grey batches and the running total; the row leaves those buffers
  and the program's arguments as they were.
-/
import proofs.«169308_j28260884807724_2_alg».proof.Proof.Census.RefRows

set_option maxHeartbeats 16000000
set_option maxRecDepth 65536

noncomputable section

namespace Cert.ReferenceIdeal.Census

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- The running total after row 5. -/
theorem row5_total (W : Valuation τ sig (Elt F)) :
    after opsR5 W (Proc.devRef .tc main_v491)
      = rowW 5 (W (Proc.devRef .tc main_v28)) (W (Proc.devRef .tc main_v29)) (W (Proc.devRef .tc main_v13)) (W (Proc.devRef .tc main_v27)) (W (Proc.devRef .tc main_v414)) := by
  unfold opsR5
  read_stretch
  rfl

theorem row5_keep_v13 (W : Valuation τ sig (Elt F)) : after opsR5 W (Proc.devRef .tc main_v13) = W (Proc.devRef .tc main_v13) := by unfold opsR5; read_stretch
theorem row5_keep_v27 (W : Valuation τ sig (Elt F)) : after opsR5 W (Proc.devRef .tc main_v27) = W (Proc.devRef .tc main_v27) := by unfold opsR5; read_stretch
theorem row5_keep_v28 (W : Valuation τ sig (Elt F)) : after opsR5 W (Proc.devRef .tc main_v28) = W (Proc.devRef .tc main_v28) := by unfold opsR5; read_stretch
theorem row5_keep_v29 (W : Valuation τ sig (Elt F)) : after opsR5 W (Proc.devRef .tc main_v29) = W (Proc.devRef .tc main_v29) := by unfold opsR5; read_stretch
theorem row5_keep_arg0 (W : Valuation τ sig (Elt F)) : after opsR5 W (Proc.devRef .tc main_arg0) = W (Proc.devRef .tc main_arg0) := by unfold opsR5; read_stretch
theorem row5_keep_arg1 (W : Valuation τ sig (Elt F)) : after opsR5 W (Proc.devRef .tc main_arg1) = W (Proc.devRef .tc main_arg1) := by unfold opsR5; read_stretch

end Cert.ReferenceIdeal.Census

end
-- ==== Proof.Census.RefRow6.lean ====
/-
  Row 6 of the 49 displacements (row displacement 3): the seven stretches of host lines that cut the seven windows of
  this row, take the roots, sum them and add the sums onto the running total. Read as functions of the buffers the row
  finds: the two grey batches, the two padded grey batches and the running total; the row leaves those buffers
  and the program's arguments as they were.
-/
import proofs.«169308_j28260884807724_2_alg».proof.Proof.Census.RefRows

set_option maxHeartbeats 16000000
set_option maxRecDepth 65536

noncomputable section

namespace Cert.ReferenceIdeal.Census

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- The running total after row 6. -/
theorem row6_total (W : Valuation τ sig (Elt F)) :
    after opsR6 W (Proc.devRef .tc main_v568)
      = rowW 6 (W (Proc.devRef .tc main_v28)) (W (Proc.devRef .tc main_v29)) (W (Proc.devRef .tc main_v13)) (W (Proc.devRef .tc main_v27)) (W (Proc.devRef .tc main_v491)) := by
  unfold opsR6
  read_stretch
  rfl

theorem row6_keep_v13 (W : Valuation τ sig (Elt F)) : after opsR6 W (Proc.devRef .tc main_v13) = W (Proc.devRef .tc main_v13) := by unfold opsR6; read_stretch
theorem row6_keep_v27 (W : Valuation τ sig (Elt F)) : after opsR6 W (Proc.devRef .tc main_v27) = W (Proc.devRef .tc main_v27) := by unfold opsR6; read_stretch
theorem row6_keep_v28 (W : Valuation τ sig (Elt F)) : after opsR6 W (Proc.devRef .tc main_v28) = W (Proc.devRef .tc main_v28) := by unfold opsR6; read_stretch
theorem row6_keep_v29 (W : Valuation τ sig (Elt F)) : after opsR6 W (Proc.devRef .tc main_v29) = W (Proc.devRef .tc main_v29) := by unfold opsR6; read_stretch
theorem row6_keep_arg0 (W : Valuation τ sig (Elt F)) : after opsR6 W (Proc.devRef .tc main_arg0) = W (Proc.devRef .tc main_arg0) := by unfold opsR6; read_stretch
theorem row6_keep_arg1 (W : Valuation τ sig (Elt F)) : after opsR6 W (Proc.devRef .tc main_arg1) = W (Proc.devRef .tc main_arg1) := by unfold opsR6; read_stretch

end Cert.ReferenceIdeal.Census

end
-- ==== Proof.Census.RefRun.lean ====
/-
  The reference program's run, read back.

  @main is a straight line of 974 host operations: the lines before the 49 displacements, seven rows of seven
  displacements, and the last two lines. The buffers' contents after the whole line are the stretches' results composed
  (`after_append`); each stretch was read as a function of the few buffers it finds (the two grey batches, their padded
  copies, the running total), so the composition is the seven rows accumulated from zero and divided, which is the
  reference's `lossR` of the two arguments (`after_result`); the arguments are never written (`after_arg0`,
  `after_arg1`). Every weakly fair execution ends there (`run`).
-/
import proofs.«169308_j28260884807724_2_alg».proof.Proof.Census.RefPrefix
import proofs.«169308_j28260884807724_2_alg».proof.Proof.Census.RefRow0
import proofs.«169308_j28260884807724_2_alg».proof.Proof.Census.RefRow1
import proofs.«169308_j28260884807724_2_alg».proof.Proof.Census.RefRow2
import proofs.«169308_j28260884807724_2_alg».proof.Proof.Census.RefRow3
import proofs.«169308_j28260884807724_2_alg».proof.Proof.Census.RefRow4
import proofs.«169308_j28260884807724_2_alg».proof.Proof.Census.RefRow5
import proofs.«169308_j28260884807724_2_alg».proof.Proof.Census.RefRow6

noncomputable section

namespace Cert.ReferenceIdeal.Census

open Idealize.ShloMosaic Idealize.ShloMosaic.TcCoe Idealize.SL.Sem Idealize.ShloMosaic.StableHlo
open Cert.ReferenceIdeal Cert.ReferenceIdeal.Gen Cert.ReferenceIdeal.ValueP

variable {F : FTy → Type} [FloatOps F]

/-- The contents after two stretches run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append (forall_append (forall_append (forall_append (forall_append (forall_append (forall_append
    opsP_sub opsR0_sub) opsR1_sub) opsR2_sub) opsR3_sub) opsR4_sub) opsR5_sub) opsR6_sub) opsT_sub

theorem ops_fresh : ∀ op ∈ (ops : List (HloOp τ sig (Elt F))), op.fresh = ∅ :=
  List.forall_iff_forall_mem.mp
    (forall_append (forall_append (forall_append (forall_append (forall_append (forall_append (forall_append (forall_append
      opsP_fresh opsR0_fresh) opsR1_fresh) opsR2_fresh) opsR3_fresh) opsR4_fresh) opsR5_fresh) opsR6_fresh) opsT_fresh)

/-- The result buffer after the whole line: the reference's `lossR` of the two arguments. -/
theorem after_result (V : Valuation τ sig (Elt F)) :
    after ops V (Proc.devRef .tc main_v569) = lossR (V (Proc.devRef .tc main_arg0)) (V (Proc.devRef .tc main_arg1)) := by
  unfold ops
  simp only [after_append]
  rw [tail_v569, row6_total, row5_keep_v28, row5_keep_v29, row5_keep_v13, row5_keep_v27, row5_total, row4_keep_v28, row4_keep_v29, row4_keep_v13, row4_keep_v27, row4_total, row3_keep_v28, row3_keep_v29, row3_keep_v13, row3_keep_v27, row3_total, row2_keep_v28, row2_keep_v29, row2_keep_v13, row2_keep_v27, row2_total, row1_keep_v28, row1_keep_v29, row1_keep_v13, row1_keep_v27, row1_total, row0_keep_v28, row0_keep_v29, row0_keep_v13, row0_keep_v27, row0_total, prefix_v28, prefix_v29, prefix_v13, prefix_v27]
  exact lossR_rows _ _

theorem after_arg0 (V : Valuation τ sig (Elt F)) : after ops V (Proc.devRef .tc main_arg0) = V (Proc.devRef .tc main_arg0) := by
  unfold ops
  simp only [after_append]
  rw [tail_keep_arg0, row6_keep_arg0, row5_keep_arg0, row4_keep_arg0, row3_keep_arg0, row2_keep_arg0, row1_keep_arg0, row0_keep_arg0, prefix_keep_arg0]

theorem after_arg1 (V : Valuation τ sig (Elt F)) : after ops V (Proc.devRef .tc main_arg1) = V (Proc.devRef .tc main_arg1) := by
  unfold ops
  simp only [after_append]
  rw [tail_keep_arg1, row6_keep_arg1, row5_keep_arg1, row4_keep_arg1, row3_keep_arg1, row2_keep_arg1, row1_keep_arg1, row0_keep_arg1, prefix_keep_arg1]

/-- On every device, from any memory with zero counters: every weakly fair execution of @main terminates with the
    result at `lossR` of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v569)
          = lossR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v569).trans (after_result (launchContents m c)),
        (h c main_arg0).trans (after_arg0 (launchContents m c)),
        (h c main_arg1).trans (after_arg1 (launchContents m c))⟩)
    (run_seq scopedRefs_eq scopedSems_eq defs main (fun _ => ops) main_eq (fun _ => ops_sub) m ρ (fun _ => ops_fresh))

end Cert.ReferenceIdeal.Census

end
-- ==== Proof.lean ====
/-
  The census loss: a Pallas kernel against its jnp reference, equal as extended reals.

  Both programs compute, from a prediction and a target batch of eight 3 × 512 × 512 pictures, the mean over all
  pixels, pictures and 49 displacements of a 7 × 7 neighbourhood of
      sqrt(((P[r + dy, c + dx] − P[r, c]) − (T[r + dy, c + dx] − T[r, c]))² + ε),
  P and T the grey-level pictures continued by zero outside their frame (Proof/Census/Spec.lean). The kernel handles
  one picture pair per grid point, realises each displacement by rotating the grey picture and masking what wrapped
  around, sums along rows, accumulates the 49 columns of row sums and sums the column; the lines after the launch
  add the eight per-picture numbers and divide. The reference pads the grey batch with zeros, slices the 49 windows,
  sums each whole array of roots and accumulates the 49 sums, then divides. Every operation is the exact one at the
  ideal values, the same binary constants stand on both sides, and the only law needed between the two orders of
  summation is commutativity and associativity of addition, which holds on the extended reals at the infinities too:
  the precondition that the inputs are finite is not used by the value claim.

  The three frames are the generated ones (the reference's is its run with the result dropped); the ideal pass
  rewrote nothing, so `preserves` is trivial.
-/
import proofs.«169308_j28260884807724_2_alg».proof.Defs
import proofs.«169308_j28260884807724_2_alg».proof.Proof.Gen.Kernel
import proofs.«169308_j28260884807724_2_alg».proof.Proof.Gen.Kernel.Skeleton
import proofs.«169308_j28260884807724_2_alg».proof.Proof.Gen.Kernel.Launch
import proofs.«169308_j28260884807724_2_alg».proof.Proof.Gen.Kernel.Points
import proofs.«169308_j28260884807724_2_alg».proof.Proof.Gen.Kernel.Frame
import proofs.«169308_j28260884807724_2_alg».proof.Proof.Gen.KernelIdeal
import proofs.«169308_j28260884807724_2_alg».proof.Proof.Gen.KernelIdeal.Skeleton
import proofs.«169308_j28260884807724_2_alg».proof.Proof.Gen.KernelIdeal.Launch
import proofs.«169308_j28260884807724_2_alg».proof.Proof.Gen.KernelIdeal.Points
import proofs.«169308_j28260884807724_2_alg».proof.Proof.Gen.KernelIdeal.Frame
import proofs.«169308_j28260884807724_2_alg».proof.Proof.Gen.ReferenceIdeal
import proofs.«169308_j28260884807724_2_alg».proof.Proof.Gen.Pre_finite_inputs
import proofs.«169308_j28260884807724_2_alg».proof.Proof.Census.KernelValue
import proofs.«169308_j28260884807724_2_alg».proof.Proof.Census.RefIndex
import proofs.«169308_j28260884807724_2_alg».proof.Proof.Census.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Census.run (F := Ideal) m ρ)

/-- The ideal pass rewrote no operation of the kernel. -/
theorem preserves : Cert.preserves_Kernel_KernelIdeal := trivial

/-- Both programs end at the specification's loss of the argument arrays, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c _ => Cert.Census.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Census.run m ρ, ?_⟩
  refine (θ_run Cert.ReferenceIdeal.defs _ _).mono (fun _ h c => ⟨(h c).1.trans ?_, (h c).2⟩)
    (Cert.ReferenceIdeal.Census.run (F := Ideal) m' ρ')
  rw [(hagree c).1, (hagree c).2]
  funext j
  exact Cert.ReferenceIdeal.Census.lossR_eq _ _ j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
